-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x2 .f32) (main_arg5 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x128 : Shape := ⟨2, ![5000, 128]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S1x2 : Shape := ⟨2, ![1, 2]⟩
abbrev S5000 : Shape := ⟨1, ![5000]⟩

abbrev nBuf : Space → Nat
  | .hbm => 55
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S100000x16, .f32⟩
  | .hbm, ⟨25, _⟩ => ⟨S_, .i32⟩
  | .hbm, ⟨26, _⟩ => ⟨S3300000, .i32⟩
  | .hbm, ⟨27, _⟩ => ⟨S3300000, .i1⟩
  | .hbm, ⟨28, _⟩ => ⟨S_, .i32⟩
  | .hbm, ⟨29, _⟩ => ⟨S3300000, .i32⟩
  | .hbm, ⟨30, _⟩ => ⟨S3300000, .i32⟩
  | .hbm, ⟨31, _⟩ => ⟨S3300000, .i32⟩
  | .hbm, ⟨32, _⟩ => ⟨S3300000x1, .i32⟩
  | .hbm, ⟨33, _⟩ => ⟨S3300000x16, .f32⟩
  | .hbm, ⟨34, _⟩ => ⟨S_, .f32⟩
  | .hbm, ⟨35, _⟩ => ⟨S100000x16, .f32⟩
  | .hbm, ⟨36, _⟩ => ⟨S3300000x1, .i32⟩
  | .hbm, ⟨37, _⟩ => ⟨S100000x16, .f32⟩
  | .hbm, ⟨38, _⟩ => ⟨S1x16, .f32⟩
  | .hbm, ⟨39, _⟩ => ⟨S100000x2, .f32⟩
  | .hbm, ⟨40, _⟩ => ⟨S_, .i32⟩
  | .hbm, ⟨41, _⟩ => ⟨S3300000, .i32⟩
  | .hbm, ⟨42, _⟩ => ⟨S3300000, .i1⟩
  | .hbm, ⟨43, _⟩ => ⟨S_, .i32⟩
  | .hbm, ⟨44, _⟩ => ⟨S3300000, .i32⟩
  | .hbm, ⟨45, _⟩ => ⟨S3300000, .i32⟩
  | .hbm, ⟨46, _⟩ => ⟨S3300000, .i32⟩
  | .hbm, ⟨47, _⟩ => ⟨S3300000x1, .i32⟩
  | .hbm, ⟨48, _⟩ => ⟨S3300000x2, .f32⟩
  | .hbm, ⟨49, _⟩ => ⟨S_, .f32⟩
  | .hbm, ⟨50, _⟩ => ⟨S100000x2, .f32⟩
  | .hbm, ⟨51, _⟩ => ⟨S3300000x1, .i32⟩
  | .hbm, ⟨52, _⟩ => ⟨S100000x2, .f32⟩
  | .hbm, ⟨53, _⟩ => ⟨S1x2, .f32⟩
  | .hbm, ⟨54, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x2, .f32⟩
  | .local _ .vmem, ⟨13, _⟩ => ⟨S5000x2, .f32⟩
  | .local _ .vmem, ⟨14, _⟩ => ⟨S5000x2, .f32⟩
  | .local _ .vmem, ⟨15, _⟩ => ⟨S5000x2, .f32⟩
  | .local _ .vmem, ⟨16, _⟩ => ⟨S5000x2, .f32⟩
  | .local _ .vmem, ⟨17, _⟩ => ⟨S5000x1, .f32⟩
  | .local _ .vmem, ⟨18, _⟩ => ⟨S5000x1, .f32⟩
  | .local _ .vmem, ⟨19, _⟩ => ⟨S1x2, .f32⟩
  | .local _ .vmem, ⟨20, _⟩ => ⟨S5000x2, .f32⟩
  | .local _ .vmem, ⟨21, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S3300000x1_S3300000_n_0_0_1_wf : ScatterDims.WF S100000 S3300000x1 S3300000 [] [0] [0] 1
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x2.size a ≤ S16x2.size a
  hwx1_3 : ∀ i : grid1.Coords, EltTy.bits .f32 = 32 ∨ (Rect.block (s := S16x2) S16x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x2.size a ≤ S100000x2.size a
  hwx1_4 : ∀ i : grid1.Coords, EltTy.bits .f32 = 32 ∨ (Rect.block (s := S100000x2) S5000x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x2.size a ≤ S100000x2.size a
  hwx2_0 : ∀ i : grid2.Coords, EltTy.bits .f32 = 32 ∨ (Rect.block (s := S100000x2) S5000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x2.size a ≤ S100000x2.size a
  hwx2_3 : ∀ i : grid2.Coords, EltTy.bits .f32 = 32 ∨ (Rect.block (s := S100000x2) S5000x2.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x2, .f32⟩
  | 5 => ⟨S2, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x2, .f32⟩
  | 112 => ⟨S3300000x1, .f32⟩
  | 113 => ⟨S3300000x2, .f32⟩
  | 114 => ⟨S3300000x2, .f32⟩
  | 115 => ⟨S_, .f32⟩
  | 116 => ⟨S100000x2, .f32⟩
  | 117 => ⟨S3300000x1, .i32⟩
  | 118 => ⟨S100000x2, .f32⟩
  | 119 => ⟨S1x2, .f32⟩
  | 120 => ⟨S100000x2, .f32⟩
  | 121 => ⟨S100000x2, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x128, .f32⟩

abbrev hbmTy0_1 (i : Nat) : BufTy := match i % 128 with
  | 0 => ⟨S100000x2, .f32⟩
  | 1 => ⟨S100000x2, .f32⟩
  | 2 => ⟨S100000x2, .f32⟩
  | 3 => ⟨S_, .f32⟩
  | 4 => ⟨S100000, .f32⟩
  | 5 => ⟨S100000x1, .f32⟩
  | 6 => ⟨S100000x1, .f32⟩
  | 7 => ⟨S100000x2, .f32⟩
  | 8 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KRun.lean ====
/-
  The idealized kernel's run with its result named.

  The program is three pipelined regions among stretches of host operations. Its run is the chain of six segments
  (host, region, host, region, host, region); at the end every unscoped buffer of a core holds the contents the chain's
  last boundary assigns it. Reading that last boundary at the result buffer, beside the six argument buffers, gives:
  every weakly fair execution terminates, nothing faults, the arguments end as launched, and the result buffer ends at
  the last boundary's contents of it — the value the third region's write-backs leave.
-/
import proofs.«111893_j73220602462645_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.KRun

end
-- ==== Proof.RefStages.lean ====
/-
  The reference program's result as a composition of named stages, at the ideal values (extended reals).

  A two-layer graph convolution over n = 100000 nodes and E = 3300000 edges (3200000 listed edges followed by one
  self-loop per node). With s(e), t(e) the source and target of edge e:
    deg(d)    = number of edges whose target is d (a scatter of ones),
    dinv(d)   = deg(d)^(-1/2) where deg(d) > 0, else 0,
    norm(e)   = dinv(s e) * dinv(t e),
    conv(H)(d, j) = (sum over edges e with target d of H(s e, j) * norm(e)) + bias(j),
    result    = log_softmax over each row of conv(relu(conv(x W1) ) W2).
  Every definition below is the program's own operations in the program's order, with the operations that compute one
  mathematical object grouped under one name.
-/
import proofs.«111893_j73220602462645_2_alg».proof.Proof.Gen.ReferenceIdeal
import Idealize.ShloMosaic.PureOps.Ideal

noncomputable section

namespace Cert.ReferenceIdeal.Stages

open Cert.ReferenceIdeal Cert.ReferenceIdeal.Gen Idealize.ShloMosaic

/-- A float array of shape `s` at the ideal values. -/
abbrev FA (s : Shape) : Type := FVec Ideal s .f32
/-- A 32-bit integer array of shape `s`. -/
abbrev IA (s : Shape) : Type := IVec s 32

/-- Row 0 of the edge list followed by the node numbers 0 … n-1: the source of every edge, self-loops last. -/
def edgeSrc (ei : IA S2x3200000) : IA S3300000 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- Row 1 of the edge list followed by the node numbers: the target of every edge, self-loops last. -/
def edgeDst (ei : IA S2x3200000) : IA S3300000 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- An index vector as the one-column matrix a scatter or a gather takes. -/
def rawCol (v : IA S3300000) : IA S3300000x1 :=
  broadcastInDim S3300000x1 ![0] bcast_S3300000_S3300000x1_0 v

/-- The same after a negative entry has had n added to it (array indexing counts a negative index from the end). -/
def wrapCol (v : IA S3300000) : IA S3300000x1 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- The number of edges into each node: ones scattered onto zeros at the targets. -/
def deg (ei : IA S2x3200000) : FA S100000 :=
  Host.scatterAdd (F := Ideal) scatter_S100000_S3300000x1_S3300000_n_0_0_1
    (broadcastInDim S100000 ![] bcast_S_S100000 (constant (F := Ideal) S_ .f32 0x00000000#32))
    (rawCol (edgeDst ei))
    (broadcastInDim S3300000 ![] bcast_S_S3300000 (constant (F := Ideal) S_ .f32 0x3F800000#32))

/-- deg^(-1/2) where the degree is positive, zero elsewhere. -/
def dinv (ei : IA S2x3200000) : FA S100000 :=
  select (cmpf .ogt (deg ei) (broadcastInDim S100000 ![] bcast_S_S100000 (constant (F := Ideal) S_ .f32 0x00000000#32)))
    (Host.rsqrt (F := Ideal) (deg ei))
    (broadcastInDim S100000 ![] bcast_S_S100000 (id (constant (F := Ideal) S_ .f32 0x00000000#32)))

/-- The weight of each edge: dinv at its source times dinv at its target. -/
def norm (ei : IA S2x3200000) : FA S3300000 :=
  mulf (Host.gather gather_S100000_S3300000x1_S3300000_n_0_n_n_0_1_1 (dinv ei) (wrapCol (edgeSrc ei)))
    (Host.gather gather_S100000_S3300000x1_S3300000_n_0_n_n_0_1_1 (dinv ei) (wrapCol (edgeDst ei)))

/-- One aggregation with 16 features: gather the source rows, weight them, add them up at the targets, add the bias. -/
def conv16 (ei : IA S2x3200000) (h : FA S100000x16) (b : FA S16) : FA S100000x16 :=
  addf
    (Host.scatterAdd (F := Ideal) scatter_S100000x16_S3300000x1_S3300000x16_1_0_0_1
      (broadcastInDim S100000x16 ![] bcast_S_S100000x16 (constant (F := Ideal) S_ .f32 0x00000000#32))
      (rawCol (edgeDst ei))
      (mulf (Host.gather gather_S100000x16_S3300000x1_S3300000x16_1_0_n_n_0_1_116 h (wrapCol (edgeSrc ei)))
        (broadcastInDim S3300000x16 ![0, 1] bcast_S3300000x1_S3300000x16_0_1
          (broadcastInDim S3300000x1 ![0] bcast_S3300000_S3300000x1_0 (norm ei)))))
    (broadcastInDim S100000x16 ![0, 1] bcast_S1x16_S100000x16_0_1 (broadcastInDim S1x16 ![1] bcast_S16_S1x16_1 b))

/-- The same with 2 features. -/
def conv2 (ei : IA S2x3200000) (h : FA S100000x2) (b : FA S2) : FA S100000x2 :=
  addf
    (Host.scatterAdd (F := Ideal) scatter_S100000x2_S3300000x1_S3300000x2_1_0_0_1
      (broadcastInDim S100000x2 ![] bcast_S_S100000x2 (constant (F := Ideal) S_ .f32 0x00000000#32))
      (rawCol (edgeDst ei))
      (mulf (Host.gather gather_S100000x2_S3300000x1_S3300000x2_1_0_n_n_0_1_12 h (wrapCol (edgeSrc ei)))
        (broadcastInDim S3300000x2 ![0, 1] bcast_S3300000x1_S3300000x2_0_1
          (broadcastInDim S3300000x1 ![0] bcast_S3300000_S3300000x1_0 (norm ei)))))
    (broadcastInDim S100000x2 ![0, 1] bcast_S1x2_S100000x2_0_1 (broadcastInDim S1x2 ![1] bcast_S2_S1x2_1 b))

/-- The hidden layer: the first aggregation of x W1, negative entries replaced by zero. -/
def hidden (x : FA S100000x128) (ei : IA S2x3200000) (W1 : FA S128x16) (b1 : FA S16) : FA S100000x16 :=
  maximumf (conv16 ei (Host.dotGeneral (F := Ideal) dot_S100000x128_S128x16_S100000x16_1_0_0_1_n_n none x W1) b1)
    (broadcastInDim S100000x16 ![] bcast_S_S100000x16 (constant (F := Ideal) S_ .f32 0x00000000#32))

/-- The second aggregation, of hidden W2. -/
def logits (x : FA S100000x128) (ei : IA S2x3200000) (W1 : FA S128x16) (b1 : FA S16) (W2 : FA S16x2) (b2 : FA S2) : FA S100000x2 :=
  conv2 ei (Host.dotGeneral (F := Ideal) dot_S100000x16_S16x2_S100000x2_1_0_0_1_n_n none (hidden x ei W1 b1) W2) b2

/-- The row maximum (taken once more against -∞) as a full-width array. -/
def rowMaxFull (v : FA S100000x2) : FA S100000x2 :=
  broadcastInDim S100000x2 ![0, 1] bcast_S100000x1_S100000x2_0_1
    (broadcastInDim S100000x1 ![0] bcast_S100000_S100000x1_0
      (maximumf (broadcastInDim S100000 ![] bcast_S_S100000 (constant (F := Ideal) S_ .f32 0xFF800000#32))
        (Host.reduce FloatOps.maximumf v (constant (F := Ideal) S_ .f32 0xFF800000#32) reducesTo_S100000x2_S100000_d1 h_S_)))

/-- Row-wise log-softmax in the form shifted by the row maximum. -/
def logSoftmax (v : FA S100000x2) : FA S100000x2 :=
  subf (subf v (rowMaxFull v))
    (broadcastInDim S100000x2 ![0, 1] bcast_S100000x1_S100000x2_0_1
      (Host.log (F := Ideal)
        (broadcastInDim S100000x1 ![0] bcast_S100000_S100000x1_0
          (Host.reduceAdd (Host.exp (F := Ideal) (subf v (rowMaxFull v))) (constant (F := Ideal) S_ .f32 0x00000000#32)
            reducesTo_S100000x2_S100000_d1 h_S_))))

/-- The reference's result. -/
def refOut (x : FA S100000x128) (ei : IA S2x3200000) (W1 : FA S128x16) (b1 : FA S16) (W2 : FA S16x2) (b2 : FA S2) : FA S100000x2 :=
  logSoftmax (logits x ei W1 b1 W2 b2)

end Cert.ReferenceIdeal.Stages

end
-- ==== Proof.KHost.lean ====
/-
  The idealized kernel's host operations between its three regions, read back at the ideal values.

  Before the first region the host builds the edge sources and targets (the listed edges followed by one self-loop
  per node), counts the edges into every node, and forms the column dinv = (max deg 1)^(-1/2). Between the regions it
  aggregates: the rows a region wrote are gathered at the edge sources and added up at the edge targets, and a bias
  vector is cast to a one-row matrix. Each buffer a later region reads is read here through the boundaries back to
  the stretch that wrote it: a region leaves every buffer but its output as it found it, and a stretch leaves every
  buffer it does not write.
-/
import proofs.«111893_j73220602462645_2_alg».proof.Proof.Gen.KernelIdeal.Frame
import proofs.«111893_j73220602462645_2_alg».proof.Proof.RefStages
import Idealize.ShloMosaic.Lib.StableHlo.Run

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Stages (edgeSrc edgeDst rawCol wrapCol deg FA IA)

/-- The column (max deg 1)^(-1/2), one entry per node. -/
def dinvCol (ei : IA S2x3200000) : FA S100000x1 :=
  shapeCast S100000x1
    (Host.rsqrt (F := Ideal) (maximumf (deg ei) (broadcastInDim S100000 ![] bcast_S_S100000 (constant (F := Ideal) S_ .f32 0x3F800000#32))))
    shapeCasts_S100000_S100000x1

/-- Rows of a 16-column matrix gathered at the edge sources and added up at the edge targets. -/
def agg16 (ei : IA S2x3200000) (g : FA S100000x16) : FA S100000x16 :=
  Host.scatterAdd (F := Ideal) scatter_S100000x16_S3300000x1_S3300000x16_1_0_0_1
    (broadcastInDim S100000x16 ![] bcast_S_S100000x16 (constant (F := Ideal) S_ .f32 0x00000000#32))
    (rawCol (edgeDst ei))
    (Host.gather gather_S100000x16_S3300000x1_S3300000x16_1_0_n_n_0_1_116 g (wrapCol (edgeSrc ei)))

/-- The same for a 2-column matrix. -/
def agg2 (ei : IA S2x3200000) (g : FA S100000x2) : FA S100000x2 :=
  Host.scatterAdd (F := Ideal) scatter_S100000x2_S3300000x1_S3300000x2_1_0_0_1
    (broadcastInDim S100000x2 ![] bcast_S_S100000x2 (constant (F := Ideal) S_ .f32 0x00000000#32))
    (rawCol (edgeDst ei))
    (Host.gather gather_S100000x2_S3300000x1_S3300000x2_1_0_n_n_0_1_12 g (wrapCol (edgeSrc ei)))

/-- A 16-entry bias as a one-row matrix. -/
def biasRow16 (b : FA S16) : FA S1x16 := shapeCast S1x16 b shapeCasts_S16_S1x16
/-- A 2-entry bias as a one-row matrix. -/
def biasRow2 (b : FA S2) : FA S1x2 := shapeCast S1x2 b shapeCasts_S2_S1x2

variable (m : (ℓ : Loc nD τ sig) → Buf (Elt Ideal) ℓ) (ρ : Dev nD → PrngReg) (c : Dev nD)

/-! ## Before the first region -/

theorem W1_src : W1 m ρ c (Proc.devRef .tc main_v3) = edgeSrc (m ((c : Thread nD τ).loc main_arg1)) := by
  show StableHlo.after hostOps0 (W0 m ρ c) (Proc.devRef .tc main_v3) = _
  after_results; rfl

theorem W1_dst : W1 m ρ c (Proc.devRef .tc main_v6) = edgeDst (m ((c : Thread nD τ).loc main_arg1)) := by
  show StableHlo.after hostOps0 (W0 m ρ c) (Proc.devRef .tc main_v6) = _
  after_results; rfl

theorem W1_dinv : W1 m ρ c (Proc.devRef .tc main_v14) = dinvCol (m ((c : Thread nD τ).loc main_arg1)) := by
  show StableHlo.after hostOps0 (W0 m ρ c) (Proc.devRef .tc main_v14) = _
  after_results; rfl

theorem W1_arg (b : Ref sig .tc) (hb : b = main_arg0 ∨ b = main_arg2 ∨ b = main_arg3 ∨ b = main_arg4 ∨ b = main_arg5) :
    W1 m ρ c (Proc.devRef .tc b) = m ((c : Thread nD τ).loc b) := by
  rcases hb with rfl | rfl | rfl | rfl | rfl <;>
  · show StableHlo.after hostOps0 (W0 m ρ c) (Proc.devRef .tc _) = _
    after_results <;> rfl

/-! ## Through the first region: it writes only its output -/

theorem W2_src : W2 m ρ c (Proc.devRef .tc main_v3) = edgeSrc (m ((c : Thread nD τ).loc main_arg1)) :=
  (W2_of_ne m ρ c main_v3 (by decide)).trans (W1_src m ρ c)
theorem W2_dst : W2 m ρ c (Proc.devRef .tc main_v6) = edgeDst (m ((c : Thread nD τ).loc main_arg1)) :=
  (W2_of_ne m ρ c main_v6 (by decide)).trans (W1_dst m ρ c)
theorem W2_dinv : W2 m ρ c (Proc.devRef .tc main_v14) = dinvCol (m ((c : Thread nD τ).loc main_arg1)) :=
  ((W2_arr m ρ c 2).trans (((dat0 (V1 m ρ) c).arrAt_in 2 rfl _).trans (A_eq0 (V1 m ρ) c 2))).trans (W1_dinv m ρ c)
theorem W2_b1 : W2 m ρ c (Proc.devRef .tc main_arg3) = m ((c : Thread nD τ).loc main_arg3) :=
  (W2_of_ne m ρ c main_arg3 (by decide)).trans (W1_arg m ρ c main_arg3 (by simp))
theorem W2_W2 : W2 m ρ c (Proc.devRef .tc main_arg4) = m ((c : Thread nD τ).loc main_arg4) :=
  (W2_of_ne m ρ c main_arg4 (by decide)).trans (W1_arg m ρ c main_arg4 (by simp))
theorem W2_b2 : W2 m ρ c (Proc.devRef .tc main_arg5) = m ((c : Thread nD τ).loc main_arg5) :=
  (W2_of_ne m ρ c main_arg5 (by decide)).trans (W1_arg m ρ c main_arg5 (by simp))

/-! ## The second stretch: the first aggregation and the first bias row -/

theorem W3_agg : W3 m ρ c (Proc.devRef .tc main_v25)
    = agg16 (m ((c : Thread nD τ).loc main_arg1)) (W2 m ρ c (Proc.devRef .tc main_v15)) := by
  show StableHlo.after hostOps1 (W2 m ρ c) (Proc.devRef .tc main_v25) = _
  after_results
  rw [W2_src m ρ c, W2_dst m ρ c]
  rfl
theorem W3_bias : W3 m ρ c (Proc.devRef .tc main_v26) = biasRow16 (m ((c : Thread nD τ).loc main_arg3)) := by
  show StableHlo.after hostOps1 (W2 m ρ c) (Proc.devRef .tc main_v26) = _
  after_results
  rw [W2_b1 m ρ c]
  rfl
theorem W3_dinv : W3 m ρ c (Proc.devRef .tc main_v14) = dinvCol (m ((c : Thread nD τ).loc main_arg1)) := by
  show StableHlo.after hostOps1 (W2 m ρ c) (Proc.devRef .tc main_v14) = _
  after_results
  exact W2_dinv m ρ c
theorem W3_W2 : W3 m ρ c (Proc.devRef .tc main_arg4) = m ((c : Thread nD τ).loc main_arg4) := by
  show StableHlo.after hostOps1 (W2 m ρ c) (Proc.devRef .tc main_arg4) = _
  after_results
  exact W2_W2 m ρ c
theorem W3_src : W3 m ρ c (Proc.devRef .tc main_v3) = edgeSrc (m ((c : Thread nD τ).loc main_arg1)) := by
  show StableHlo.after hostOps1 (W2 m ρ c) (Proc.devRef .tc main_v3) = _
  after_results
  exact W2_src m ρ c
theorem W3_dst : W3 m ρ c (Proc.devRef .tc main_v6) = edgeDst (m ((c : Thread nD τ).loc main_arg1)) := by
  show StableHlo.after hostOps1 (W2 m ρ c) (Proc.devRef .tc main_v6) = _
  after_results
  exact W2_dst m ρ c
theorem W3_b2 : W3 m ρ c (Proc.devRef .tc main_arg5) = m ((c : Thread nD τ).loc main_arg5) := by
  show StableHlo.after hostOps1 (W2 m ρ c) (Proc.devRef .tc main_arg5) = _
  after_results
  exact W2_b2 m ρ c

/-! ## Through the second region -/

theorem W4_src : W4 m ρ c (Proc.devRef .tc main_v3) = edgeSrc (m ((c : Thread nD τ).loc main_arg1)) :=
  (W4_of_ne m ρ c main_v3 (by decide)).trans (W3_src m ρ c)
theorem W4_dst : W4 m ρ c (Proc.devRef .tc main_v6) = edgeDst (m ((c : Thread nD τ).loc main_arg1)) :=
  (W4_of_ne m ρ c main_v6 (by decide)).trans (W3_dst m ρ c)
theorem W4_dinv : W4 m ρ c (Proc.devRef .tc main_v14) = dinvCol (m ((c : Thread nD τ).loc main_arg1)) :=
  ((W4_arr m ρ c 1).trans (((dat1 (V3 m ρ) c).arrAt_in 1 rfl _).trans (A_eq1 (V3 m ρ) c 1))).trans (W3_dinv m ρ c)
theorem W4_b2 : W4 m ρ c (Proc.devRef .tc main_arg5) = m ((c : Thread nD τ).loc main_arg5) :=
  (W4_of_ne m ρ c main_arg5 (by decide)).trans (W3_b2 m ρ c)

/-! ## The third stretch: the second aggregation and the second bias row -/

theorem W5_agg : W5 m ρ c (Proc.devRef .tc main_v37)
    = agg2 (m ((c : Thread nD τ).loc main_arg1)) (W4 m ρ c (Proc.devRef .tc main_v27)) := by
  show StableHlo.after hostOps2 (W4 m ρ c) (Proc.devRef .tc main_v37) = _
  after_results
  rw [W4_src m ρ c, W4_dst m ρ c]
  rfl
theorem W5_bias : W5 m ρ c (Proc.devRef .tc main_v38) = biasRow2 (m ((c : Thread nD τ).loc main_arg5)) := by
  show StableHlo.after hostOps2 (W4 m ρ c) (Proc.devRef .tc main_v38) = _
  after_results
  rw [W4_b2 m ρ c]
  rfl
theorem W5_dinv : W5 m ρ c (Proc.devRef .tc main_v14) = dinvCol (m ((c : Thread nD τ).loc main_arg1)) := by
  show StableHlo.after hostOps2 (W4 m ρ c) (Proc.devRef .tc main_v14) = _
  after_results
  exact W4_dinv m ρ c

end Cert.KernelIdeal.KHost

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.KReg0.lean ====
import proofs.«111893_j73220602462645_2_alg».proof.Proof.Gen.KernelIdeal.Frame
import proofs.«111893_j73220602462645_2_alg».proof.Proof.LibLayout
import proofs.«111893_j73220602462645_2_alg».proof.Proof.LibMatmulIx
import Idealize.ShloMosaic.Lib.Pipeline.Value
import Idealize.ShloMosaic.Lib.ValueLayout

/-
  The value of the first blocked region, from blocks to whole arrays: the region's output array ends holding, at
  `(n, j)`, the column's entry of row `n` times the product of row `n` of the left matrix with column `j` of the
  right one. Each grid point handles 5000 consecutive rows; the body's stored block is read at an index, each input
  block is identified as rows of its array, and the 20 row blocks cover the output array.
-/

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The first product: rows of `x · W1`, each scaled by its row's entry of a column -/

/-- The whole-array value: entry `(n, j)` is the column's entry of row `n` times the product of row `n` of the
    left matrix with column `j` of the right one. -/
def scaledProduct (x : S100000x128.Idx → EReal) (w : S128x16.Idx → EReal) (d : S100000x1.Idx → EReal) :
    S100000x16.Idx → EReal :=
  fun i => d (ix2 (⟨(i 0).val, (i 0).isLt⟩ : Fin 100000) (0 : Fin 1))
    * ∑ k : Fin 128, x (ix2 (⟨(i 0).val, (i 0).isLt⟩ : Fin 100000) k) * w (ix2 k (⟨(i 1).val, (i 1).isLt⟩ : Fin 16))

/-- The whole-array value at `(n, j)`. -/
theorem scaledProduct_apply (x : S100000x128.Idx → EReal) (w : S128x16.Idx → EReal) (d : S100000x1.Idx → EReal)
    (n : Fin 100000) (j : Fin 16) :
    scaledProduct x w d (ix2 n j) = d (ix2 n (0 : Fin 1)) * ∑ k : Fin 128, x (ix2 n k) * w (ix2 k j) := rfl

/-- The zero offsets of a whole-buffer access, however spelt. -/
theorem off00 : (![0, 0] : Fin 2 → Nat) = fun _ => 0 := funext fun a => by fin_cases a <;> rfl

/-! ### The block's payload at an index -/

/-- The dimension numbers of the block product: the left operand's columns contracted with the right operand's rows. -/
abbrev dims0 := dot_S5000x128_S128x16_S5000x16_1_0_0_1_n_n

theorem dims0_l0 (i : S5000x16.Idx) (q : dims0.contr.Idx) : (dims0.lhsIdx i q 0).val = (i 0).val := by
  unfold DotDims.lhsIdx
  rw [dif_neg (show ¬(0 : Fin S5000x128.rank) ∈ dims0.lhsBatch by decide), dif_pos (show (0 : Fin S5000x128.rank) ∈ dims0.lhsNonContracting by decide)]
  rfl
theorem dims0_l1 (i : S5000x16.Idx) (q : dims0.contr.Idx) : (dims0.lhsIdx i q 1).val = (q ⟨0, by decide⟩).val :=
  dims0.lhsIdx_val_of_single rfl i q
theorem dims0_r0 (i : S5000x16.Idx) (q : dims0.contr.Idx) : (dims0.rhsIdx i q 0).val = (q ⟨0, by decide⟩).val :=
  dims0.rhsIdx_val_of_single rfl i q
theorem dims0_r1 (i : S5000x16.Idx) (q : dims0.contr.Idx) : (dims0.rhsIdx i q 1).val = (i 1).val := by
  unfold DotDims.rhsIdx
  rw [dif_neg (show ¬(1 : Fin S128x16.rank) ∈ dims0.rhsBatch by decide), dif_pos (show (1 : Fin S128x16.rank) ∈ dims0.rhsNonContracting by decide)]
  rfl

/-- What the body stores, at `(p, q)` of the block: the column block's entry of row `p` times the sum over `k` of the
    left block's `(p, k)` entry times the right matrix's `(k, q)` entry (rounding to the narrower format is the identity on
    the extended reals, and a product accumulated into zero is the plain sum). -/
theorem pay0_apply (x0 : Vec Ideal S5000x128 .f32) (x1 : Vec Ideal S128x16 .f32) (x2 : Vec Ideal S5000x1 .f32)
    (p : Fin 5000) (q : Fin 16) :
    k0_pay1 (F := Ideal) x0 x1 x2 (ix2 p q)
      = x2 (ix2 p (0 : Fin 1)) * ∑ k : Fin 128, x0 (ix2 p k) * x1 (ix2 k q) := by
  unfold k0_pay1
  rw [mulf_apply, Cert.Attn.Layout.broadcastTo_a1_ab_apply, shapeCast_self]
  rw [MatmulIx.matmul_zero_ix2 dims0 rfl rfl dims0_l0 dims0_l1 dims0_r0 dims0_r1]
  rfl

/-- The same, for blocks that are rows `5000·b … 5000·b + 4999` of whole arrays (`h0`, `h2`; the right matrix whole,
    `h1`): the payload at an index of the block is the whole-array value at the index it sits at in the array. -/
theorem pay0_block (A0 : S100000x128.Idx → EReal) (A1 : S128x16.Idx → EReal) (A2 : S100000x1.Idx → EReal)
    (x0 : Vec Ideal S5000x128 .f32) (x1 : Vec Ideal S128x16 .f32) (x2 : Vec Ideal S5000x1 .f32) (b : Nat)
    (h0 : ∀ (z : S5000x128.Idx) (k : S100000x128.Idx), (k 0).val = b * 5000 + (z 0).val → (k 1).val = (z 1).val → x0 z = A0 k)
    (h1 : ∀ z : S128x16.Idx, x1 z = A1 z)
    (h2 : ∀ (z : S5000x1.Idx) (k : S100000x1.Idx), (k 0).val = b * 5000 + (z 0).val → (k 1).val = (z 1).val → x2 z = A2 k)
    (y : S5000x16.Idx) (i : S100000x16.Idx) (hi0 : (i 0).val = b * 5000 + (y 0).val) (hi1 : (i 1).val = (y 1).val) :
    k0_pay1 (F := Ideal) x0 x1 x2 y = scaledProduct A0 A1 A2 i := by
  obtain ⟨p, q, rfl⟩ : ∃ (p : Fin 5000) (q : Fin 16), y = ix2 p q := ⟨y 0, y 1, eq_ix2 y⟩
  obtain ⟨r, s, rfl⟩ : ∃ (r : Fin 100000) (s : Fin 16), i = ix2 r s := ⟨i 0, i 1, eq_ix2 i⟩
  have hr : r.val = b * 5000 + p.val := hi0
  obtain rfl : s = q := Fin.ext hi1
  rw [pay0_apply]
  show _ = A2 (ix2 r (0 : Fin 1)) * ∑ k : Fin 128, A0 (ix2 r k) * A1 (ix2 k s)
  rw [h2 (ix2 p (0 : Fin 1)) (ix2 r (0 : Fin 1)) hr rfl]
  congr 1
  refine Finset.sum_congr rfl fun k _ => ?_
  rw [h0 (ix2 p k) (ix2 r k) hr rfl, h1]

/-! ### The windows' blocks as rows of the arrays -/

variable (V : (c : Dev nD) → (b : Ref sig .tc) → Buf (Elt Ideal) ((c : Thread nD τ).loc b))

/-- The windows' index maps, decided over the grid: the row-blocked windows are at block row `t`, block column 0;
    the right matrix's window stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left matrix's block at point `t` is its rows `5000·t … 5000·t + 4999`. -/
theorem iblk0_0_apply (c : Dev nD) (t : Fin cfg0.N) (z : S5000x128.Idx) (k : S100000x128.Idx)
    (hk0 : (k 0).val = t.val * 5000 + (z 0).val) (hk1 : (k 1).val = (z 1).val) :
    (iblk0 V c 0 t : Vec Ideal S5000x128 .f32) z = (V c main_arg0 : S100000x128.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 5000 + 1 * (z 0).val = (k 0).val; rw [e0, hk0]; omega
  | ⟨1, _⟩ => show win0_0.index t 1 * 128 + 1 * (z 1).val = (k 1).val; rw [e1, hk1]; omega

/-- The right matrix's block at every point is the whole matrix. -/
theorem iblk0_1_apply (c : Dev nD) (t : Fin cfg0.N) (z : S128x16.Idx) :
    (iblk0 V c 1 t : Vec Ideal S128x16 .f32) z = (V c main_arg2 : S128x16.Idx → EReal) z := by
  obtain ⟨-, -, e0, e1, -⟩ := idx0 t
  unfold iblk0
  rw [View.read_apply]
  show V c main_arg2 _ = V c main_arg2 _
  congr 1
  funext a
  apply Fin.ext
  match a with
  | ⟨0, _⟩ => show win0_1.index t 0 * 128 + 1 * (z 0).val = (z 0).val; rw [e0]; omega
  | ⟨1, _⟩ => show win0_1.index t 1 * 16 + 1 * (z 1).val = (z 1).val; rw [e1]; omega

/-- The column's block at point `t` is its rows `5000·t … 5000·t + 4999`. -/
theorem iblk0_2_apply (c : Dev nD) (t : Fin cfg0.N) (z : S5000x1.Idx) (k : S100000x1.Idx)
    (hk0 : (k 0).val = t.val * 5000 + (z 0).val) (hk1 : (k 1).val = (z 1).val) :
    (iblk0 V c 2 t : Vec Ideal S5000x1 .f32) z = (V c main_v14 : S100000x1.Idx → EReal) k := by
  obtain ⟨-, -, -, -, e0, e1, -⟩ := idx0 t
  unfold iblk0
  rw [View.read_apply]
  show V c main_v14 _ = V c main_v14 _
  congr 1
  funext a
  apply Fin.ext
  match a with
  | ⟨0, _⟩ => show win0_2.index t 0 * 5000 + 1 * (z 0).val = (k 0).val; rw [e0, hk0]; omega
  | ⟨1, _⟩ => show win0_2.index t 1 * 1 + 1 * (z 1).val = (k 1).val; rw [e1, hk1]; omega

/-! ### From blocks to the array -/

/-- What point `t` writes back is block `t` of the whole-array value of the arrays as the region finds them. -/
theorem flushed0 (c : Dev nD) (t : Fin cfg0.N) :
    (dat0 (F := Ideal) V c).flushed 3 t
      = ((cfg0.win 3).blk t).view.read (Elt Ideal) (scaledProduct (V c main_arg0) (V c main_arg2) (V c main_v14)) := by
  show (cfg0.win 3).cut (grid0.coords t) ((dat0 V c).after 3 t) = _
  rw [after0_3]
  unfold out0_3
  rw [View.canon_unit_zero off00]
  simp only [View.ld_unit_zero (S := S5000x128) off00, View.ld_unit_zero (S := S128x16) off00, View.ld_unit_zero (S := S5000x1) off00]
  obtain ⟨-, -, -, -, -, -, e0, e1⟩ := idx0 t
  funext y
  show k0_pay1 (F := Ideal) (iblk0 V c 0 t) (iblk0 V c 1 t) (iblk0 V c 2 t) ((cfg0.win 3).xinj (grid0.coords t) y)
    = scaledProduct (V c main_arg0) (V c main_arg2) (V c main_v14) (((cfg0.win 3).blk t).view.emb y)
  refine pay0_block (V c main_arg0) (V c main_arg2) (V c main_v14) (iblk0 V c 0 t) (iblk0 V c 1 t) (iblk0 V c 2 t) t.val
    (fun z k hk0 hk1 => iblk0_0_apply V c t z k hk0 hk1) (fun z => iblk0_1_apply V c t z)
    (fun z k hk0 hk1 => iblk0_2_apply V c t z k hk0 hk1)
    ((cfg0.win 3).xinj (grid0.coords t) y) (((cfg0.win 3).blk t).view.emb y) ?_ ?_
  · show win0_3.index t 0 * 5000 + 1 * (y 0).val = t.val * 5000 + (y 0).val; rw [e0]; omega
  · show win0_3.index t 1 * 16 + 1 * (y 1).val = (y 1).val; rw [e1]; omega

/-- An index of the output array is in point `t`'s block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v15).slice (win0_3.rect t)).set ↔ _
  rw [View.set_slice_whole, Rect.mem_set_unit]
  exact Iff.rfl

/-- Row `r` of the output array is in the block of point `r / 5000`, which writes back. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 20 := N_0
  have ht : (i 0).val / 5000 < cfg0.N := by show (i 0).val / 5000 < grid0.N; rw [hN]; omega
  refine ⟨⟨(i 0).val / 5000, ht⟩, flush0_3 _, ?_⟩
  rw [mem_blk0]
  obtain ⟨-, -, -, -, -, -, e0, e1⟩ := idx0 ⟨(i 0).val / 5000, ht⟩
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_3.index ⟨(i 0).val / 5000, ht⟩ 1 * 16 ≤ (i 1).val ∧ (i 1).val < win0_3.index ⟨(i 0).val / 5000, ht⟩ 1 * 16 + 16
    rw [e1]; omega

/-- THE ARRAY after the region: the whole-array value of the arrays as the region finds them. -/
theorem reg0_array (c : Dev nD) :
    (dat0 (F := Ideal) V c).arrAt 3 cfg0.N = scaledProduct (V c main_arg0) (V c main_arg2) (V c main_v14) :=
  (dat0 (F := Ideal) V c).arrAt_eq_of_cover 3 _ (fun t _ => flushed0 V c t) cover0

/-- Entry `(n, j)` of the array after the region, the three arrays the region reads named `x`, `w`, `d`. -/
theorem reg0_value (c : Dev nD) (n : Fin 100000) (j : Fin 16)
    {x : S100000x128.Idx → EReal} {w : S128x16.Idx → EReal} {d : S100000x1.Idx → EReal}
    (hx : V c main_arg0 = x) (hw : V c main_arg2 = w) (hd : V c main_v14 = d) :
    (dat0 (F := Ideal) V c).arrAt 3 cfg0.N (ix2 n j) = d (ix2 n (0 : Fin 1)) * ∑ k : Fin 128, x (ix2 n k) * w (ix2 k j) := by
  subst hx hw hd
  rw [reg0_array]
  rfl

end Cert.KernelIdeal.RegVal

end
-- ==== Proof.KReg1.lean ====
import proofs.«111893_j73220602462645_2_alg».proof.Proof.Gen.KernelIdeal.Frame
import proofs.«111893_j73220602462645_2_alg».proof.Proof.LibLayout
import proofs.«111893_j73220602462645_2_alg».proof.Proof.LibMatmulIx
import Idealize.ShloMosaic.Lib.Pipeline.Value
import Idealize.ShloMosaic.Lib.ValueLayout

/-
  The value of the second blocked region, from blocks to whole arrays: the region's output array ends holding, at
  `(n, j)`, the column's entry `d n` of row `n` times the product of row `n` of the rectified hidden matrix — entry
  `(n, k)` is `max (d n · h (n, k) + b k, 0)` — with column `j` of the right matrix. Each grid point handles 5000
  consecutive rows; the body's stored block is read at an index, each input block is identified as rows of its array,
  and the 20 row blocks cover the output array.
-/

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## The second product: rows of `max (d · h + b, 0) · W2`, each scaled by its row's entry of the column `d` -/

/-- The whole-array value: entry `(n, j)` is the column's entry `d n` of row `n` times the product of row `n` of the
    rectified, scaled and shifted hidden matrix — entry `(n, k)` is `max (d n · h (n, k) + b k, 0)` — with column `j` of
    the right matrix. -/
def scaledReluProduct (h : S100000x16.Idx → EReal) (d : S100000x1.Idx → EReal) (b : S1x16.Idx → EReal)
    (w : S16x2.Idx → EReal) : S100000x2.Idx → EReal :=
  fun i => d (ix2 (⟨(i 0).val, (i 0).isLt⟩ : Fin 100000) (0 : Fin 1))
    * ∑ k : Fin 16, max (d (ix2 (⟨(i 0).val, (i 0).isLt⟩ : Fin 100000) (0 : Fin 1))
          * h (ix2 (⟨(i 0).val, (i 0).isLt⟩ : Fin 100000) k) + b (ix2 (0 : Fin 1) k)) 0
        * w (ix2 k (⟨(i 1).val, (i 1).isLt⟩ : Fin 2))

/-- The whole-array value at `(n, j)`. -/
theorem scaledReluProduct_apply (h : S100000x16.Idx → EReal) (d : S100000x1.Idx → EReal) (b : S1x16.Idx → EReal)
    (w : S16x2.Idx → EReal) (n : Fin 100000) (j : Fin 2) :
    scaledReluProduct h d b w (ix2 n j)
      = d (ix2 n (0 : Fin 1)) * ∑ k : Fin 16, max (d (ix2 n (0 : Fin 1)) * h (ix2 n k) + b (ix2 (0 : Fin 1) k)) 0 * w (ix2 k j) := rfl

/-- The zero offsets of a whole-buffer access, however spelt. -/
theorem zeroOff : (![0, 0] : Fin 2 → Nat) = fun _ => 0 := funext fun a => by fin_cases a <;> rfl

/-! ### The block's payload at an index -/

/-- The dimension numbers of the block product: the left operand's columns contracted with the right operand's rows. -/
abbrev dims1 := dot_S5000x16_S16x2_S5000x2_1_0_0_1_n_n

theorem dims1_l0 (i : S5000x2.Idx) (q : dims1.contr.Idx) : (dims1.lhsIdx i q 0).val = (i 0).val := by
  unfold DotDims.lhsIdx
  rw [dif_neg (show ¬(0 : Fin S5000x16.rank) ∈ dims1.lhsBatch by decide), dif_pos (show (0 : Fin S5000x16.rank) ∈ dims1.lhsNonContracting by decide)]
  rfl
theorem dims1_l1 (i : S5000x2.Idx) (q : dims1.contr.Idx) : (dims1.lhsIdx i q 1).val = (q ⟨0, by decide⟩).val :=
  dims1.lhsIdx_val_of_single rfl i q
theorem dims1_r0 (i : S5000x2.Idx) (q : dims1.contr.Idx) : (dims1.rhsIdx i q 0).val = (q ⟨0, by decide⟩).val :=
  dims1.rhsIdx_val_of_single rfl i q
theorem dims1_r1 (i : S5000x2.Idx) (q : dims1.contr.Idx) : (dims1.rhsIdx i q 1).val = (i 1).val := by
  unfold DotDims.rhsIdx
  rw [dif_neg (show ¬(1 : Fin S16x2.rank) ∈ dims1.rhsBatch by decide), dif_pos (show (1 : Fin S16x2.rank) ∈ dims1.rhsNonContracting by decide)]
  rfl

/-- The left operand of the block product at `(p, k)`: the hidden block's entry scaled by the column block's entry of
    its row, shifted by the bias row's entry of its column, rectified (rounding to the narrower format is the identity
    on the extended reals, and the zero word is zero). -/
theorem relu_apply (xd : Vec Ideal S5000x1 .f32) (xh : Vec Ideal S5000x16 .f32) (xb : Vec Ideal S1x16 .f32)
    (p : Fin 5000) (k : Fin 16) :
    (truncf (F := Ideal) .bf16
        (maximumf (addf (mulf (broadcastTo S5000x16 xd broadcasts_S5000x1_S5000x16)
              (shapeCast S5000x16 xh shapeCasts_S5000x16_S5000x16))
            (broadcastTo S5000x16 (shapeCast S1x16 xb shapeCasts_S1x16_S1x16) broadcasts_S1x16_S5000x16))
          (broadcast S5000x16 (Scalar.ofBits .f32 0x00000000#32)))
        bitsLt_bf16_f32 : FVec Ideal S5000x16 .bf16) (ix2 p k)
      = max (xd (ix2 p (0 : Fin 1)) * xh (ix2 p k) + xb (ix2 (0 : Fin 1) k)) 0 := by
  rw [truncf_apply, maximumf_apply, addf_apply, mulf_apply, Cert.Attn.Layout.broadcastTo_a1_ab_apply,
    broadcastTo_1b_ab_apply, shapeCast_self, shapeCast_self, broadcast_apply]
  show max _ (Ideal.ofBits .f32 0x00000000#32) = _
  rw [Ideal.ofBits_zero_f32]

/-- What the body stores, at `(p, q)` of the block. -/
theorem pay1_apply (xd : Vec Ideal S5000x1 .f32) (xh : Vec Ideal S5000x16 .f32) (xb : Vec Ideal S1x16 .f32)
    (xw : Vec Ideal S16x2 .f32) (p : Fin 5000) (q : Fin 2) :
    k1_pay1 (F := Ideal) xd xh xb xw (ix2 p q)
      = xd (ix2 p (0 : Fin 1))
        * ∑ k : Fin 16, max (xd (ix2 p (0 : Fin 1)) * xh (ix2 p k) + xb (ix2 (0 : Fin 1) k)) 0 * xw (ix2 k q) := by
  unfold k1_pay1
  rw [mulf_apply, Cert.Attn.Layout.broadcastTo_a1_ab_apply, shapeCast_self]
  rw [MatmulIx.matmul_zero_ix2 dims1 rfl rfl dims1_l0 dims1_l1 dims1_r0 dims1_r1]
  congr 1
  refine Finset.sum_congr rfl fun k _ => ?_
  rw [relu_apply]
  rfl

/-- The same, for blocks that are rows `5000·t … 5000·t + 4999` of whole arrays (`hh`, `hd`; the bias row and the right
    matrix whole, `hb`, `hw`): the payload at an index of the block is the whole-array value at the index it sits at in
    the array. -/
theorem pay1_block (Ah : S100000x16.Idx → EReal) (Ad : S100000x1.Idx → EReal) (Ab : S1x16.Idx → EReal) (Aw : S16x2.Idx → EReal)
    (xd : Vec Ideal S5000x1 .f32) (xh : Vec Ideal S5000x16 .f32) (xb : Vec Ideal S1x16 .f32) (xw : Vec Ideal S16x2 .f32) (t : Nat)
    (hd : ∀ (z : S5000x1.Idx) (k : S100000x1.Idx), (k 0).val = t * 5000 + (z 0).val → (k 1).val = (z 1).val → xd z = Ad k)
    (hh : ∀ (z : S5000x16.Idx) (k : S100000x16.Idx), (k 0).val = t * 5000 + (z 0).val → (k 1).val = (z 1).val → xh z = Ah k)
    (hb : ∀ z : S1x16.Idx, xb z = Ab z)
    (hw : ∀ z : S16x2.Idx, xw z = Aw z)
    (y : S5000x2.Idx) (i : S100000x2.Idx) (hi0 : (i 0).val = t * 5000 + (y 0).val) (hi1 : (i 1).val = (y 1).val) :
    k1_pay1 (F := Ideal) xd xh xb xw y = scaledReluProduct Ah Ad Ab Aw i := by
  obtain ⟨p, q, rfl⟩ : ∃ (p : Fin 5000) (q : Fin 2), y = ix2 p q := ⟨y 0, y 1, eq_ix2 y⟩
  obtain ⟨r, s, rfl⟩ : ∃ (r : Fin 100000) (s : Fin 2), i = ix2 r s := ⟨i 0, i 1, eq_ix2 i⟩
  have hr : r.val = t * 5000 + p.val := hi0
  obtain rfl : s = q := Fin.ext hi1
  rw [pay1_apply, scaledReluProduct_apply]
  rw [hd (ix2 p (0 : Fin 1)) (ix2 r (0 : Fin 1)) hr rfl]
  congr 1
  refine Finset.sum_congr rfl fun k _ => ?_
  rw [hh (ix2 p k) (ix2 r k) hr rfl, hb, hw]

/-! ### The windows' blocks as rows of the arrays -/

variable (V : (c : Dev nD) → (b : Ref sig .tc) → Buf (Elt Ideal) ((c : Thread nD τ).loc b))

/-- The windows' index maps, decided over the grid: the row-blocked windows are at block row `t`, block column 0; the
    bias row's and the right matrix's windows stay at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The hidden matrix's block at point `t` is its rows `5000·t … 5000·t + 4999`. -/
theorem iblk1_0_apply (c : Dev nD) (t : Fin cfg1.N) (z : S5000x16.Idx) (k : S100000x16.Idx)
    (hk0 : (k 0).val = t.val * 5000 + (z 0).val) (hk1 : (k 1).val = (z 1).val) :
    (iblk1 V c 0 t : Vec Ideal S5000x16 .f32) z = (V c main_v25 : S100000x16.Idx → EReal) k := by
  obtain ⟨e0, e1, -⟩ := idx1 t
  unfold iblk1
  rw [View.read_apply]
  show V c main_v25 _ = V c main_v25 _
  congr 1
  funext a
  apply Fin.ext
  match a with
  | ⟨0, _⟩ => show win1_0.index t 0 * 5000 + 1 * (z 0).val = (k 0).val; rw [e0, hk0]; omega
  | ⟨1, _⟩ => show win1_0.index t 1 * 16 + 1 * (z 1).val = (k 1).val; rw [e1, hk1]; omega

/-- The column's block at point `t` is its rows `5000·t … 5000·t + 4999`. -/
theorem iblk1_1_apply (c : Dev nD) (t : Fin cfg1.N) (z : S5000x1.Idx) (k : S100000x1.Idx)
    (hk0 : (k 0).val = t.val * 5000 + (z 0).val) (hk1 : (k 1).val = (z 1).val) :
    (iblk1 V c 1 t : Vec Ideal S5000x1 .f32) z = (V c main_v14 : S100000x1.Idx → EReal) k := by
  obtain ⟨-, -, e0, e1, -⟩ := idx1 t
  unfold iblk1
  rw [View.read_apply]
  show V c main_v14 _ = V c main_v14 _
  congr 1
  funext a
  apply Fin.ext
  match a with
  | ⟨0, _⟩ => show win1_1.index t 0 * 5000 + 1 * (z 0).val = (k 0).val; rw [e0, hk0]; omega
  | ⟨1, _⟩ => show win1_1.index t 1 * 1 + 1 * (z 1).val = (k 1).val; rw [e1, hk1]; omega

/-- The bias row's block at every point is the whole row. -/
theorem iblk1_2_apply (c : Dev nD) (t : Fin cfg1.N) (z : S1x16.Idx) :
    (iblk1 V c 2 t : Vec Ideal S1x16 .f32) z = (V c main_v26 : S1x16.Idx → EReal) z := by
  obtain ⟨-, -, -, -, e0, e1, -⟩ := idx1 t
  unfold iblk1
  rw [View.read_apply]
  show V c main_v26 _ = V c main_v26 _
  congr 1
  funext a
  apply Fin.ext
  match a with
  | ⟨0, _⟩ => show win1_2.index t 0 * 1 + 1 * (z 0).val = (z 0).val; rw [e0]; omega
  | ⟨1, _⟩ => show win1_2.index t 1 * 16 + 1 * (z 1).val = (z 1).val; rw [e1]; omega

/-- The right matrix's block at every point is the whole matrix. -/
theorem iblk1_3_apply (c : Dev nD) (t : Fin cfg1.N) (z : S16x2.Idx) :
    (iblk1 V c 3 t : Vec Ideal S16x2 .f32) z = (V c main_arg4 : S16x2.Idx → EReal) z := by
  obtain ⟨-, -, -, -, -, -, e0, e1, -⟩ := idx1 t
  unfold iblk1
  rw [View.read_apply]
  show V c main_arg4 _ = V c main_arg4 _
  congr 1
  funext a
  apply Fin.ext
  match a with
  | ⟨0, _⟩ => show win1_3.index t 0 * 16 + 1 * (z 0).val = (z 0).val; rw [e0]; omega
  | ⟨1, _⟩ => show win1_3.index t 1 * 2 + 1 * (z 1).val = (z 1).val; rw [e1]; omega

/-! ### From blocks to the array -/

/-- What point `t` writes back is block `t` of the whole-array value of the arrays as the region finds them. -/
theorem flushed1 (c : Dev nD) (t : Fin cfg1.N) :
    (dat1 (F := Ideal) V c).flushed 4 t
      = ((cfg1.win 4).blk t).view.read (Elt Ideal)
          (scaledReluProduct (V c main_v25) (V c main_v14) (V c main_v26) (V c main_arg4)) := by
  show (cfg1.win 4).cut (grid1.coords t) ((dat1 V c).after 4 t) = _
  rw [after1_4]
  unfold out1_4
  rw [View.canon_unit_zero zeroOff]
  simp only [View.ld_unit_zero (S := S5000x1) zeroOff, View.ld_unit_zero (S := S5000x16) zeroOff,
    View.ld_unit_zero (S := S1x16) zeroOff, View.ld_unit_zero (S := S16x2) zeroOff]
  obtain ⟨-, -, -, -, -, -, -, -, e0, e1⟩ := idx1 t
  funext y
  show k1_pay1 (F := Ideal) (iblk1 V c 1 t) (iblk1 V c 0 t) (iblk1 V c 2 t) (iblk1 V c 3 t) ((cfg1.win 4).xinj (grid1.coords t) y)
    = scaledReluProduct (V c main_v25) (V c main_v14) (V c main_v26) (V c main_arg4) (((cfg1.win 4).blk t).view.emb y)
  refine pay1_block (V c main_v25) (V c main_v14) (V c main_v26) (V c main_arg4)
    (iblk1 V c 1 t) (iblk1 V c 0 t) (iblk1 V c 2 t) (iblk1 V c 3 t) t.val
    (fun z k hk0 hk1 => iblk1_1_apply V c t z k hk0 hk1) (fun z k hk0 hk1 => iblk1_0_apply V c t z k hk0 hk1)
    (fun z => iblk1_2_apply V c t z) (fun z => iblk1_3_apply V c t z)
    ((cfg1.win 4).xinj (grid1.coords t) y) (((cfg1.win 4).blk t).view.emb y) ?_ ?_
  · show win1_4.index t 0 * 5000 + 1 * (y 0).val = t.val * 5000 + (y 0).val; rw [e0]; omega
  · show win1_4.index t 1 * 2 + 1 * (y 1).val = (y 1).val; rw [e1]; omega

/-- An index of the output array is in point `t`'s block iff each coordinate is in the block's range on its axis. -/
theorem mem_blk1 (t : Fin cfg1.N) (i : S100000x2.Idx) :
    i ∈ ((cfg1.win 4).blk t).view.set ↔ ∀ a : Fin 2, win1_4.index t a * S5000x2.size a ≤ (i a).val ∧ (i a).val < win1_4.index t a * S5000x2.size a + S5000x2.size a := by
  show i ∈ ((View.whole main_v27).slice (win1_4.rect t)).set ↔ _
  rw [View.set_slice_whole, Rect.mem_set_unit]
  exact Iff.rfl

/-- Row `r` of the output array is in the block of point `r / 5000`, which writes back. -/
theorem cover1 (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  have hN : grid1.N = 20 := N_1
  have ht : (i 0).val / 5000 < cfg1.N := by show (i 0).val / 5000 < grid1.N; rw [hN]; omega
  refine ⟨⟨(i 0).val / 5000, ht⟩, flush1_4 _, ?_⟩
  rw [mem_blk1]
  obtain ⟨-, -, -, -, -, -, -, -, e0, e1⟩ := idx1 ⟨(i 0).val / 5000, ht⟩
  intro a
  match a with
  | ⟨0, _⟩ =>
    show win1_4.index ⟨(i 0).val / 5000, ht⟩ 0 * 5000 ≤ (i 0).val ∧ (i 0).val < win1_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ 1 * 2 ≤ (i 1).val ∧ (i 1).val < win1_4.index ⟨(i 0).val / 5000, ht⟩ 1 * 2 + 2
    rw [e1]; omega

/-- THE ARRAY after the region: the whole-array value of the arrays as the region finds them. -/
theorem reg1_array (c : Dev nD) :
    (dat1 (F := Ideal) V c).arrAt 4 cfg1.N
      = scaledReluProduct (V c main_v25) (V c main_v14) (V c main_v26) (V c main_arg4) :=
  (dat1 (F := Ideal) V c).arrAt_eq_of_cover 4 _ (fun t _ => flushed1 V c t) cover1

/-- Entry `(n, j)` of the array after the region, the four arrays the region reads named `h`, `d`, `b`, `w`. -/
theorem reg1_value (c : Dev nD) (n : Fin 100000) (j : Fin 2)
    {h : S100000x16.Idx → EReal} {d : S100000x1.Idx → EReal} {b : S1x16.Idx → EReal} {w : S16x2.Idx → EReal}
    (hh : V c main_v25 = h) (hd : V c main_v14 = d) (hb : V c main_v26 = b) (hw : V c main_arg4 = w) :
    (dat1 (F := Ideal) V c).arrAt 4 cfg1.N (ix2 n j)
      = d (ix2 n (0 : Fin 1))
        * ∑ k : Fin 16, max (d (ix2 n (0 : Fin 1)) * h (ix2 n k) + b (ix2 (0 : Fin 1) k)) 0 * w (ix2 k j) := by
  subst hh hd hb hw
  rw [reg1_array]
  rfl

end Cert.KernelIdeal.RegVal

end
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«111893_j73220602462645_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.LibRowLsm.lean ====
/-
  Row-wise log-softmax in the form shifted by the row maximum, on the extended reals:
  entry (p, q) of an [a, b] array Y goes to  (Y p q - M p) - log (∑ k, exp (Y p k - M p)),  M p the largest entry of row p
  (the fold of max from ⊥ over the row). The vector unit's spelling of it (two lane reductions, their results cast to a
  column and broadcast along the rows) and the host's spelling (two reductions over axis 1, a further max against a
  splat of -∞, two broadcasts each) both read, at an entry, as that expression.
-/
import Idealize.ShloMosaic.Lib.ValueIdx
import Idealize.ShloMosaic.Lib.ValueLayout
import Idealize.ShloMosaic.Lib.Pipeline.Value
import Idealize.ShloMosaic.PureOps.Ideal.Laws
import proofs.«111893_j73220602462645_2_alg».proof.Proof.LibLayout
import proofs.«111893_j73220602462645_2_alg».proof.Proof.LibLay3

noncomputable section

namespace Cert.RowLsm

open Idealize.ShloMosaic Idealize.ShloMosaic.ValueIdx

/-- The largest entry of row `p`, taken from `⊥`. -/
def rowMax {a b : ℕ} (Y : (⟨2, ![a, b]⟩ : Shape).Idx → EReal) (p : Fin a) : EReal :=
  (Finset.univ : Finset (Fin b)).fold max ⊥ (fun k => Y (ix2 p k))

/-- Log-softmax of row `p` at column `q`, shifted by the row's largest entry. -/
def lsm {a b : ℕ} (Y : (⟨2, ![a, b]⟩ : Shape).Idx → EReal) (p : Fin a) (q : Fin b) : EReal :=
  (Y (ix2 p q) - rowMax Y p) - Ideal.log (∑ k : Fin b, Ideal.exp (Y (ix2 p k) - rowMax Y p))

/-- The float pattern of -∞ is `⊥`. -/
theorem ofBits_neg_inf : Ideal.ofBits .f32 0xFF800000#32 = ⊥ := by simp [Ideal.ofBits, Ideal.ieee]

/-- The vector unit's row maximum, cast to a column and broadcast along the rows, is `rowMax` at every entry of the row. -/
theorem vec_rowMax {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hcast : (⟨1, ![a]⟩ : Shape).ShapeCasts ⟨2, ![a, 1]⟩)
    (hbc : (⟨2, ![a, 1]⟩ : Shape).Broadcasts ⟨2, ![a, b]⟩) (p : Fin a) (c : Fin b) :
    broadcastTo ⟨2, ![a, b]⟩ (shapeCast ⟨2, ![a, 1]⟩
      (multiReduction .maximumf [1] (⟨1, ![a]⟩ : Shape) v 0xFF800000#32 hred hφ hmax) hcast) hbc (ix2 p c) = rowMax v p := by
  rw [Cert.Attn.Layout.broadcastTo_a1_ab_apply, Cert.Attn.Layout.shapeCast_a_a1_apply, Cert.GQA.Lay.rowMax_apply,
    ofBits_neg_inf]
  rfl

/-- THE VECTOR UNIT'S SPELLING at an entry. -/
theorem vec_lsm {a b : ℕ} (v : FVec Ideal ⟨2, ![a, b]⟩ .f32)
    (hred : (⟨2, ![a, b]⟩ : Shape).Reduces [1] (⟨1, ![a]⟩ : Shape)) (hφ : FKind.Formats .f32)
    (hmax : (0xFF800000#32 : BitVec 32) = FKind.maximumf.neutral .f32 hφ)
    (hadd : (0x00000000#32 : BitVec 32) = FKind.add.neutral .f32 hφ)
    (hcast : (⟨1, ![a]⟩ : Shape).ShapeCasts ⟨2, ![a, 1]⟩)
    (hbc : (⟨2, ![a, 1]⟩ : Shape).Broadcasts ⟨2, ![a, b]⟩) (p : Fin a) (q : Fin b) :
    subf (subf v (broadcastTo ⟨2, ![a, b]⟩ (shapeCast ⟨2, ![a, 1]⟩
        (multiReduction .maximumf [1] (⟨1, ![a]⟩ : Shape) v 0xFF800000#32 hred hφ hmax) hcast) hbc))
      (broadcastTo ⟨2, ![a, b]⟩ (log (shapeCast ⟨2, ![a, 1]⟩
        (multiReduction .add [1] (⟨1, ![a]⟩ : Shape)
          (exp (subf v (broadcastTo ⟨2, ![a, b]⟩ (shapeCast ⟨2, ![a, 1]⟩
            (multiReduction .maximumf [1] (⟨1, ![a]⟩ : Shape) v 0xFF800000#32 hred hφ hmax) hcast) hbc)))
          0x00000000#32 hred hφ hadd) hcast)) hbc) (ix2 p q)
      = lsm v p q := by
  rw [subf_apply, subf_apply, vec_rowMax, Cert.Attn.Layout.broadcastTo_a1_ab_apply]
  show _ - Ideal.log (shapeCast ⟨2, ![a, 1]⟩ _ hcast (ix2 p (0 : Fin 1))) = _
  rw [Cert.Attn.Layout.shapeCast_a_a1_apply, Cert.Attn.Layout.rowSum_apply]
  unfold lsm
  refine congrArg (fun s => (v (ix2 p q) - rowMax v p) - Ideal.log s) (Finset.sum_congr rfl fun k _ => ?_)
  show Ideal.exp (v (ix2 p k) - _) = _
  rw [vec_rowMax]

end Cert.RowLsm

end
-- ==== Proof.KReg2.lean ====
/-
  The value of the final log-softmax epilogue region, from blocks to the whole array.

  The region's output array has 100000 rows of 2 entries; grid point t computes rows 5000 t … 5000 t + 4999 from the
  same rows of the aggregated array (two entries a row), of the column of inverse square-root degrees (one entry a row),
  and from the one row of biases. Entry (n, q) of the array the log-softmax is taken of is
      dinv n * agg (n, q) + bias q,
  and entry (n, j) of the output is that array's row n, shifted by its largest entry, minus the logarithm of the sum of
  the exponentials of the shifted row. A row's log-softmax depends on that row's entries only, so a block of rows of the
  whole array's log-softmax is the log-softmax of the block of rows.
-/
import proofs.«111893_j73220602462645_2_alg».proof.Proof.Gen.KernelIdeal.Frame
import proofs.«111893_j73220602462645_2_alg».proof.Proof.LibRowLsm
import Idealize.ShloMosaic.Lib.Pipeline.Value
import Idealize.ShloMosaic.Lib.ValueIdx
import Idealize.ShloMosaic.Lib.ValueLayout

noncomputable section

namespace Cert.KernelIdeal.RegVal

open Cert.KernelIdeal Cert.KernelIdeal.Gen Idealize.ShloMosaic Idealize.ShloMosaic.TcCoe Idealize.SL.Sem
open Idealize.ShloMosaic.ValueIdx
open Idealize.ShloMosaic.Pipeline (Dat)

/-! ## A row's log-softmax depends on that row only -/

/-- The largest entry of a row is a function of the row's entries. -/
theorem rowMax_congr_row {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) :
    Cert.RowLsm.rowMax Y p = Cert.RowLsm.rowMax Y' p' := by
  unfold Cert.RowLsm.rowMax
  exact congrArg (fun f => (Finset.univ : Finset (Fin b)).fold max ⊥ f) (funext h)

/-- Two arrays that agree on a row have the same log-softmax along that row, whatever their other rows are. -/
theorem lsm_congr_row {a a' b : ℕ} (Y : (⟨2, ![a, b]⟩ : Shape).Idx → EReal) (Y' : (⟨2, ![a', b]⟩ : Shape).Idx → EReal)
    (p : Fin a) (p' : Fin a') (h : ∀ k : Fin b, Y (ix2 p k) = Y' (ix2 p' k)) (q : Fin b) :
    Cert.RowLsm.lsm Y p q = Cert.RowLsm.lsm Y' p' q := by
  unfold Cert.RowLsm.lsm
  rw [rowMax_congr_row Y Y' p p' h, h q]
  exact congrArg (fun s => (Y' (ix2 p' q) - Cert.RowLsm.rowMax Y' p') - Ideal.log s)
    (Finset.sum_congr rfl fun k _ => by rw [h k])

/-! ## The body's payload at an entry -/

/-- The array the body takes the log-softmax of, from the three blocks it loads: the column scales the rows of the
    two-entry block, and the one row of biases is added to every row. -/
def scaled (x0 : Vec Ideal S5000x2 .f32) (x1 : Vec Ideal S5000x1 .f32) (x2 : Vec Ideal S1x2 .f32) : FVec Ideal S5000x2 .f32 :=
  addf (mulf (broadcastTo S5000x2 (shapeCast S5000x1 x1 shapeCasts_S5000x1_S5000x1) broadcasts_S5000x1_S5000x2)
      (shapeCast S5000x2 x0 shapeCasts_S5000x2_S5000x2))
    (broadcastTo S5000x2 (shapeCast S1x2 x2 shapeCasts_S1x2_S1x2) broadcasts_S1x2_S5000x2)

/-- Entry (p, k) of that array: the column's entry of row p times the block's entry, plus bias k. -/
theorem scaled_apply (x0 : Vec Ideal S5000x2 .f32) (x1 : Vec Ideal S5000x1 .f32) (x2 : Vec Ideal S1x2 .f32)
    (p : Fin 5000) (k : Fin 2) :
    scaled x0 x1 x2 (ix2 p k) = x1 (ix2 p (0 : Fin 1)) * x0 (ix2 p k) + x2 (ix2 (0 : Fin 1) k) := by
  unfold scaled
  rw [addf_apply, mulf_apply, shapeCast_self, shapeCast_self, shapeCast_self,
    Cert.Attn.Layout.broadcastTo_a1_ab_apply, broadcastTo_1b_ab_apply]

/-- The body's payload at entry (p, q) is the log-softmax of row p of the scaled and shifted block. -/
theorem payload_apply (x0 : Vec Ideal S5000x2 .f32) (x1 : Vec Ideal S5000x1 .f32) (x2 : Vec Ideal S1x2 .f32)
    (p : Fin 5000) (q : Fin 2) :
    k2_pay1 x1 x0 x2 (ix2 p q) = Cert.RowLsm.lsm (scaled x0 x1 x2) p q := by
  unfold k2_pay1
  exact Cert.RowLsm.vec_lsm (scaled x0 x1 x2) reduces_S5000x2_S5000 (.inl rfl) rfl rfl shapeCasts_S5000_S5000x1
    broadcasts_S5000x1_S5000x2 p q

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two row-blocked inputs and the output are at row block t at point t, in
    their only column block; the biases' one block is the whole array. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregated array's block at point t is its rows 5000 t … 5000 t + 4999. -/
theorem agg_block_apply (c : Dev nD) (t : Fin cfg2.N) (x : S5000x2.Idx) (k : S100000x2.Idx)
    (hk0 : (k 0).val = 5000 * t.val + (x 0).val) (hk1 : (k 1).val = (x 1).val) :
    (iblk2 V c 0 t : Vec Ideal S5000x2 .f32) x = (V c main_v37 : S100000x2.Idx → Ideal .f32) k := by
  obtain ⟨e0, e1, -⟩ := index_facts t
  unfold iblk2
  rw [View.read_apply]
  show V c main_v37 _ = V c main_v37 _
  congr 1
  funext a
  apply Fin.ext
  match a with
  | ⟨0, _⟩ => show win2_0.index t 0 * 5000 + 1 * (x 0).val = (k 0).val; rw [e0, hk0]; omega
  | ⟨1, _⟩ => show win2_0.index t 1 * 2 + 1 * (x 1).val = (k 1).val; rw [e1, hk1]; omega

/-- The column's block at point t is its rows 5000 t … 5000 t + 4999. -/
theorem dinv_block_apply (c : Dev nD) (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v14 : S100000x1.Idx → Ideal .f32) k := by
  obtain ⟨-, -, e0, e1, -⟩ := index_facts t
  unfold iblk2
  rw [View.read_apply]
  show V c main_v14 _ = V c main_v14 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The biases' block at every point is the whole one-row array. -/
theorem bias_block_apply (c : Dev nD) (t : Fin cfg2.N) (x : S1x2.Idx) (k : S1x2.Idx)
    (hk0 : (k 0).val = (x 0).val) (hk1 : (k 1).val = (x 1).val) :
    (iblk2 V c 2 t : Vec Ideal S1x2 .f32) x = (V c main_v38 : S1x2.Idx → Ideal .f32) k := by
  obtain ⟨-, -, -, -, e0, e1, -⟩ := index_facts t
  unfold iblk2
  rw [View.read_apply]
  show V c main_v38 _ = V c main_v38 _
  congr 1
  funext a
  apply Fin.ext
  match a with
  | ⟨0, _⟩ => show win2_2.index t 0 * 1 + 1 * (x 0).val = (k 0).val; rw [e0, hk0]; omega
  | ⟨1, _⟩ => show win2_2.index t 1 * 2 + 1 * (x 1).val = (k 1).val; rw [e1, hk1]; omega

/-- The column of inverse square-root degrees as the region finds it, as a function to the extended reals. -/
abbrev dinvArr (c : Dev nD) : S100000x1.Idx → EReal := V c main_v14
/-- The aggregated array as the region finds it. -/
abbrev aggArr (c : Dev nD) : S100000x2.Idx → EReal := V c main_v37
/-- The one row of biases as the region finds it. -/
abbrev biasArr (c : Dev nD) : S1x2.Idx → EReal := V c main_v38

/-- The array the log-softmax is taken of: entry (n, q) is dinv n * agg (n, q) + bias q. -/
abbrev scaledArr (c : Dev nD) : S100000x2.Idx → EReal :=
  fun i => dinvArr V c (ix2 (i 0) (0 : Fin 1)) * aggArr V c i + biasArr V c (ix2 (0 : Fin 1) (i 1))

/-- The whole output array: the row-wise log-softmax of the scaled and shifted array. -/
abbrev lsmArr (c : Dev nD) : S100000x2.Idx → Ideal .f32 :=
  fun i => Cert.RowLsm.lsm (a := 100000) (b := 2) (scaledArr V c) (i 0) (i 1)

/-- The payload at an entry of the block, given where the block's row sits in a larger array with the same row there. -/
theorem payload_row (x0 : Vec Ideal S5000x2 .f32) (x1 : Vec Ideal S5000x1 .f32) (x2 : Vec Ideal S1x2 .f32)
    (y : S5000x2.Idx) (Y : S100000x2.Idx → EReal) (i : S100000x2.Idx) (hq : (i 1).val = (y 1).val)
    (h : ∀ k : Fin 2, x1 (ix2 (y 0) (0 : Fin 1)) * x0 (ix2 (y 0) k) + x2 (ix2 (0 : Fin 1) k) = Y (ix2 (i 0) k)) :
    k2_pay1 x1 x0 x2 y = Cert.RowLsm.lsm (a := 100000) (b := 2) Y (i 0) (i 1) := by
  have e : (i 1 : Fin 2) = y 1 := Fin.ext hq
  rw [e]
  exact (congrArg (k2_pay1 x1 x0 x2) (eq_ix2 y)).trans ((payload_apply x0 x1 x2 (y 0) (y 1)).trans
    (lsm_congr_row (scaled x0 x1 x2) Y (y 0) (i 0) (fun k => (scaled_apply x0 x1 x2 (y 0) k).trans (h k)) (y 1)))

/-- WHAT POINT t WRITES BACK is block t of the whole array's row-wise log-softmax. -/
theorem flushed_eq (c : Dev nD) (t : Fin cfg2.N) :
    (dat2 V c).flushed 3 t = ((cfg2.win 3).blk t).view.read (Elt Ideal) (lsmArr V c) := by
  show (cfg2.win 3).cut (grid2.coords t) ((dat2 V c).after 3 t) = _
  rw [after2_3]
  unfold out2_3
  rw [View.canon_unit_zero zero_offsets]
  simp only [View.ld_unit_zero (S := S5000x1) zero_offsets, View.ld_unit_zero (S := S5000x2) zero_offsets,
    View.ld_unit_zero (S := S1x2) zero_offsets]
  obtain ⟨-, -, -, -, -, -, e0, e1⟩ := index_facts t
  funext y
  refine payload_row (iblk2 V c 0 t) (iblk2 V c 1 t) (iblk2 V c 2 t) y (scaledArr V c)
    (((cfg2.win 3).blk t).view.emb y) ?_ (fun k => ?_)
  · show win2_3.index t 1 * 2 + 1 * (y 1).val = (y 1).val
    rw [e1]; omega
  · have hrow : ((((cfg2.win 3).blk t).view.emb y) 0).val = 5000 * t.val + (y 0).val := by
      show win2_3.index t 0 * 5000 + 1 * (y 0).val = _
      rw [e0]; omega
    refine congrArg₂ (· + ·) (congrArg₂ (· * ·)
      (dinv_block_apply V c t _ _ hrow rfl) (agg_block_apply V c t _ _ hrow rfl)) (bias_block_apply V c t _ _ rfl rfl)

/-- An index of the output array is in point t's block iff each coordinate is in the block's range on its axis. -/
theorem mem_block (t : Fin cfg2.N) (i : S100000x2.Idx) :
    i ∈ ((cfg2.win 3).blk t).view.set ↔ ∀ a : Fin 2, win2_3.index t a * S5000x2.size a ≤ (i a).val
      ∧ (i a).val < win2_3.index t a * S5000x2.size a + S5000x2.size a := by
  show i ∈ ((View.whole main_v39).slice (win2_3.rect t)).set ↔ _
  rw [View.set_slice_whole, Rect.mem_set_unit]
  exact Iff.rfl

/-- Every row of the output array is in the block of the point its number divided by 5000 names: the 20 blocks of 5000 rows
    fill the 100000 rows. -/
theorem covered (i : S100000x2.Idx) :
    ∃ t : Fin cfg2.N, (cfg2.win 3).flush t = true ∧ i ∈ ((cfg2.win 3).blk t).view.set := by
  have hi0 : (i 0).val < 100000 := (i 0).isLt
  have hi1 : (i 1).val < 2 := (i 1).isLt
  have hN : grid2.N = 20 := N_2
  have ht : (i 0).val / 5000 < cfg2.N := by show (i 0).val / 5000 < grid2.N; rw [hN]; omega
  obtain ⟨-, -, -, -, -, -, e0, e1⟩ := index_facts ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ (1 : Fin 2) * 2 ≤ (i 1).val
      ∧ (i 1).val < win2_3.index ⟨(i 0).val / 5000, ht⟩ (1 : Fin 2) * 2 + 2
    rw [e1]; omega

/-- THE OUTPUT ARRAY after the region: the row-wise log-softmax of the scaled and shifted array. -/
theorem reg2_array (c : Dev nD) : (dat2 V c).arrAt 3 cfg2.N = lsmArr V c :=
  (dat2 V c).arrAt_eq_of_cover 3 (lsmArr V c) (fun t _ => flushed_eq V c t) covered

/-- THE VALUE OF THE REGION at an entry: entry (n, j) of the output array is the log-softmax, shifted by the row's largest
    entry, of row n of the array whose (n, q) entry is dinv n * agg (n, q) + bias q. -/
theorem reg2_value (c : Dev nD) (n : Fin 100000) (j : Fin 2) :
    ((dat2 V c).arrAt 3 cfg2.N : S100000x2.Idx → EReal) (ix2 n j)
      = Cert.RowLsm.lsm (a := 100000) (b := 2)
          (fun i => dinvArr V c (ix2 (i 0) (0 : Fin 1)) * aggArr V c i + biasArr V c (ix2 (0 : Fin 1) (i 1))) n j := by
  rw [reg2_array]

/-- The array under the log-softmax at an entry given by coordinates. -/
theorem scaledArr_apply (c : Dev nD) (n : Fin 100000) (q : Fin 2) :
    scaledArr V c (ix2 n q)
      = dinvArr V c (ix2 n (0 : Fin 1)) * aggArr V c (ix2 n q) + biasArr V c (ix2 (0 : Fin 1) q) := rfl

end Cert.KernelIdeal.RegVal

end
-- ==== Proof.KValue.lean ====
/-
  The idealized kernel's three written arrays at an entry, over the argument arrays.

  With D = the dinv column of the edge list: the first region writes g1(n, j) = D(n) · Σ_k x(n, k) W1(k, j); the second,
  reading the aggregation A1 of g1's rows, writes g2(n, j) = D(n) · Σ_k max(D(n) · A1(n, k) + b1(k), 0) · W2(k, j); the
  third, reading the aggregation A2 of g2's rows, writes the row-wise log-softmax of D(n) · A2(n, j) + b2(j). Each is
  the region's whole-array value at the contents the host operations left at its entry.
-/
import proofs.«111893_j73220602462645_2_alg».proof.Proof.KHost
import proofs.«111893_j73220602462645_2_alg».proof.Proof.KReg0
import proofs.«111893_j73220602462645_2_alg».proof.Proof.KReg1
import proofs.«111893_j73220602462645_2_alg».proof.Proof.KReg2

set_option maxRecDepth 16384

noncomputable section

namespace Cert.KernelIdeal.KValue

open Cert.KernelIdeal Cert.KernelIdeal.Gen Cert.KernelIdeal.KHost Cert.KernelIdeal.RegVal
open Idealize.ShloMosaic Idealize.ShloMosaic.TcCoe Idealize.SL.Sem Idealize.ShloMosaic.ValueIdx
open Cert.ReferenceIdeal.Stages (FA IA)
open scoped BigOperators

variable (m : (ℓ : Loc nD τ sig) → Buf (Elt Ideal) ℓ) (ρ : Dev nD → PrngReg) (c : Dev nD)

/-- The argument arrays as launched. -/
abbrev xArr : S100000x128.Idx → EReal := m ((c : Thread nD τ).loc main_arg0)
abbrev eiArr : IA S2x3200000 := m ((c : Thread nD τ).loc main_arg1)
abbrev w1Arr : S128x16.Idx → EReal := m ((c : Thread nD τ).loc main_arg2)
abbrev b1Arr : S16.Idx → EReal := m ((c : Thread nD τ).loc main_arg3)
abbrev w2Arr : S16x2.Idx → EReal := m ((c : Thread nD τ).loc main_arg4)
abbrev b2Arr : S2.Idx → EReal := m ((c : Thread nD τ).loc main_arg5)

/-- What the first, second and third region leave in their output arrays. -/
def g1 : S100000x16.Idx → EReal := W2 m ρ c (Proc.devRef .tc main_v15)
def g2 : S100000x2.Idx → EReal := W4 m ρ c (Proc.devRef .tc main_v27)
def kout : S100000x2.Idx → EReal := W6 m ρ c (Proc.devRef .tc main_v39)

/-- The dinv column and the two bias rows, as real-valued arrays. -/
abbrev dCol : S100000x1.Idx → EReal := dinvCol (eiArr m c)
abbrev b1Row : S1x16.Idx → EReal := biasRow16 (b1Arr m c)
abbrev b2Row : S1x2.Idx → EReal := biasRow2 (b2Arr m c)
abbrev a1Arr : S100000x16.Idx → EReal := agg16 (eiArr m c) (g1 m ρ c)
abbrev a2Arr : S100000x2.Idx → EReal := agg2 (eiArr m c) (g2 m ρ c)

theorem g1_apply (n : Fin 100000) (j : Fin 16) :
    g1 m ρ c (ix2 n j) = dCol m c (ix2 n (0 : Fin 1)) * ∑ k : Fin 128, xArr m c (ix2 n k) * w1Arr m c (ix2 k j) := by
  have h := reg0_value (V1 m ρ) c n j (x := xArr m c) (w := w1Arr m c) (d := dCol m c)
    (W1_arg m ρ c main_arg0 (by simp)) (W1_arg m ρ c main_arg2 (by simp)) (W1_dinv m ρ c)
  rw [← h]
  unfold g1
  exact congrFun (W2_arr m ρ c 3) (ix2 n j)

theorem g2_apply (n : Fin 100000) (j : Fin 2) :
    g2 m ρ c (ix2 n j) = dCol m c (ix2 n (0 : Fin 1)) * ∑ k : Fin 16,
      max (dCol m c (ix2 n (0 : Fin 1)) * a1Arr m ρ c (ix2 n k) + b1Row m c (ix2 (0 : Fin 1) k)) 0 * w2Arr m c (ix2 k j) := by
  have h := reg1_value (V3 m ρ) c n j (h := a1Arr m ρ c) (d := dCol m c) (b := b1Row m c) (w := w2Arr m c)
    (W3_agg m ρ c) (W3_dinv m ρ c) (W3_bias m ρ c) (W3_W2 m ρ c)
  rw [← h]
  unfold g2
  exact congrFun (W4_arr m ρ c 4) (ix2 n j)

theorem kout_apply (n : Fin 100000) (j : Fin 2) :
    kout m ρ c (ix2 n j) = Cert.RowLsm.lsm (a := 100000) (b := 2)
      (fun i => dCol m c (ix2 (i 0) (0 : Fin 1)) * a2Arr m ρ c i + b2Row m c (ix2 (0 : Fin 1) (i 1))) n j := by
  have h := reg2_value (V5 m ρ) c n j
  have e1 : dinvArr (V5 m ρ) c = dCol m c := W5_dinv m ρ c
  have e2 : aggArr (V5 m ρ) c = a2Arr m ρ c := W5_agg m ρ c
  have e3 : biasArr (V5 m ρ) c = b2Row m c := W5_bias m ρ c
  rw [e1, e2, e3] at h
  rw [← h]
  unfold kout
  exact congrFun (W6_arr m ρ c 3) (ix2 n j)

end Cert.KernelIdeal.KValue

end
-- ==== Proof.LibGatherRows.lean ====
/-
  ROW GATHER AND ROW SCATTER READ AT AN INDEX.

  x[idx] for the rows of a matrix x : [N, D] at an integer column idx : [E, 1] is the gather with offset axis 1,
  collapsed axis 0, start index map [0], index vector axis 1 and slice sizes [1, D]: result element (e, k) is x at row
  idx[e, 0], read as a signed integer and clamped into [0, N - 1], and column k. The same for a flat operand x : [N].
  The matching scatter (update window axis 1, inserted window axis 0, map [0], index vector axis 1) sends update
  element (e, k) to row idx[e, 0], read signed and NOT clamped, column k, and drops it when that row is outside the operand.
-/
import Idealize.ShloMosaic.Lib.ValueIdx
import Idealize.ShloMosaic.PureOps.Ideal

noncomputable section

namespace Idealize.ShloMosaic.GatherRows

open Idealize.ShloMosaic Idealize.ShloMosaic.ValueIdx

/-- The row a start word selects: read signed, clamped into [0, N-1]. -/
def clampRow (N : Nat) (hN : 0 < N) {w : Nat} (v : BitVec w) : Fin N := ⟨min v.toInt.toNat (N - 1), by omega⟩

/-- A start word whose signed reading is a row number already in range selects that row: the clamp does nothing. -/
theorem clampRow_of_toInt {N : Nat} (hN : 0 < N) {w : Nat} (v : BitVec w) (n : Fin N) (h : v.toInt = (n.val : Int)) :
    clampRow N hN v = n := by
  apply Fin.ext
  show min v.toInt.toNat (N - 1) = n.val
  rw [h, Int.toNat_natCast]
  have := n.isLt
  omega

/-- x[idx] for rows of a matrix: operand [N, D], start indices [E, 1], result [E, D]. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, k): the operand at row idx[e, 0], read signed and clamped into [0, N - 1], column k. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e ⟨0, Nat.one_pos⟩))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = _
    have hst : (rowsDims N E D wf).start (ix2 e k) idx 1 = 0 := by
      unfold GatherDims.start
      rw [dif_neg (fun h => absurd (List.mem_singleton.mp h) (show (1 : Fin 2) ≠ 0 by decide))]
    have hk : (1 : Fin 2) ∈ (rowsDims N E D wf).sKept :=
      (GatherDims.mem_sKept _ _).mpr ⟨fun h => absurd (List.mem_singleton.mp h) (show (1 : Fin 2) ≠ 0 by decide), List.not_mem_nil⟩
    have hoff : (rowsDims N E D wf).offCoord (ix2 e k) 1 = k.val := by
      unfold GatherDims.offCoord
      rw [dif_pos hk]
      rfl
    rw [hst, GatherDims.batchCoord_eq_zero _ _ _ List.not_mem_nil, hoff]
    simp only [Nat.add_zero, Nat.zero_add]

/-- x[idx] of a flat array: operand [N], start indices [E, 1], result [E] (offset_dims [], collapsed_slice_dims [0],
    start_index_map [0], index_vector_dim 1, slice_sizes [1]). -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT e: the operand at idx[e, 0], read signed and clamped into [0, N - 1]. -/
theorem gather_flat_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (clampRow N hN (idx (ix2 e ⟨0, Nat.one_pos⟩)))) := by
  unfold Host.gather
  congr 1
  funext a
  obtain rfl : a = 0 := Subsingleton.elim _ _
  refine Fin.ext ?_
  show (flatDims N E wf).start (ix1 e) idx 0 + (flatDims N E wf).batchCoord (ix1 e) 0
    + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- Row scatter: operand [N, D], scatter indices [E, 1], updates [E, D]; update_window_dims [1], inserted_window_dims [0],
    scatter_dims_to_operand_dims [0], index_vector_dim 1. -/
abbrev rowsScatterDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index update (e, k) reads its one start component at: [e, 0]. -/
theorem scatter_rows_siIdx {N E D : Nat} (wf : ScatterDims.WF ⟨2, ![N, D]⟩ ⟨2, ![E, 1]⟩ ⟨2, ![E, D]⟩ [1] [0] [0] 1)
    (e : Fin E) (k : Fin D) (c : Fin (rowsScatterDims N E D wf).scatterDimsToOperandDims.length) :
    (rowsScatterDims N E D wf).siIdx (ix2 e k) c = ix2 e ⟨0, Nat.one_pos⟩ := by
  funext b; refine Fin.ext ?_
  match b with
  | ⟨0, _⟩ => rfl
  | ⟨1, _⟩ =>
    show c.val = 0
    have := c.isLt
    simp only [List.length_singleton] at this
    omega

/-- Where an update lands: update (e, k) lands on (n, j) only if the start word of row e, read signed, is n, and k = j. -/
theorem scatter_rows_lands {N E D w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (j : Fin D)
    (h : (rowsScatterDims N E D wf).resultIdx? (ix2 e k) idx = some (ix2 n j)) :
    (idx (ix2 e ⟨0, Nat.one_pos⟩)).toInt = (n.val : Int) ∧ k = j := by
  have hs0 : (rowsScatterDims N E D wf).start (ix2 e k) idx 0 = (idx (ix2 e ⟨0, Nat.one_pos⟩)).toInt := by
    unfold ScatterDims.start
    rw [dif_pos (show (0 : Fin 2) ∈ (rowsScatterDims N E D wf).scatterDimsToOperandDims from List.mem_singleton.mpr rfl),
      scatter_rows_siIdx]
  have hw0 : (rowsScatterDims N E D wf).window (ix2 e k) 0 = 0 := by
    unfold ScatterDims.window
    rw [dif_neg (fun h => by
      have := (List.mem_filter.mp h).2
      simp at this)]
  have hs1 : (rowsScatterDims N E D wf).start (ix2 e k) idx 1 = 0 := by
    unfold ScatterDims.start
    rw [dif_neg (fun h => absurd (List.mem_singleton.mp h) (show (1 : Fin 2) ≠ 0 by decide))]
  have hk : (1 : Fin 2) ∈ (rowsScatterDims N E D wf).sKept :=
    List.mem_filter.mpr ⟨List.mem_finRange _,
      decide_eq_true (fun h => absurd (List.mem_singleton.mp h) (show (1 : Fin 2) ≠ 0 by decide))⟩
  have hw1 : (rowsScatterDims N E D wf).window (ix2 e k) 1 = k.val := by
    unfold ScatterDims.window
    rw [dif_pos hk]
    rfl
  unfold ScatterDims.resultIdx? at h
  split at h
  · rename_i hall
    have h' := Option.some.inj h
    have h0 := congrArg Fin.val (congrFun h' 0)
    have h1 := congrArg Fin.val (congrFun h' 1)
    have hb0 := hall 0
    simp only [hs0, hw0] at h0 hb0
    simp only [hs1, hw1] at h1
    refine ⟨?_, Fin.ext ?_⟩
    · have h0' : ((idx (ix2 e ⟨0, Nat.one_pos⟩)).toInt + ((0 : Nat) : Int)).toNat = n.val := h0
      have := hb0.1
      omega
    · have h1' : (0 + (k.val : Int)).toNat = j.val := h1
      omega
  · exact absurd h (by simp)

end Idealize.ShloMosaic.GatherRows

end
-- ==== Proof.LibRealSums.lean ====
import Mathlib.Data.EReal.Operations
import Mathlib.Algebra.BigOperators.Ring.Finset
import Mathlib.Tactic.Ring

/-!
# Finite sums of extended reals that are all real numbers

Multiplication of extended reals does not distribute over addition when
infinities are present, so the usual algebra of finite sums (pulling a constant
factor out of a sum, reassociating products under a sum) is not available in
general.  When every term is a genuine real number, each identity can be moved
to the field of real numbers through the coercion, proved there by ring
algebra, and moved back.  This file collects the small amount of that
machinery needed to rescale contractions and aggregations by a real constant.
-/

namespace Cert.RealSums

open scoped BigOperators

/-- An extended real that is a real number. -/
def IsReal (x : EReal) : Prop := ∃ r : ℝ, x = (r : EReal)

/-- Zero is a real number. -/
theorem IsReal.zero : IsReal 0 := ⟨0, EReal.coe_zero.symm⟩

/-- The coercion of a real number is a real number. -/
theorem IsReal.coe (r : ℝ) : IsReal (r : EReal) := ⟨r, rfl⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The larger of two real numbers is a real number: it is one of the two. -/
theorem IsReal.max {x y : EReal} (hx : IsReal x) (hy : IsReal y) : IsReal (max x y) := by
  rcases max_choice x y with h | h
  · rw [h]; exact hx
  · rw [h]; exact hy

/-- The coercion from the reals commutes with finite sums. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- A family of extended reals that are real on a finite set is, on that set,
the coercion of a real-valued family (take the real part of each term). -/
theorem exists_real_fun {ι : Type*} (s : Finset ι) (f : ι → EReal)
    (h : ∀ i ∈ s, IsReal (f i)) : ∃ g : ι → ℝ, ∀ i ∈ s, f i = (g i : EReal) := by
  refine ⟨fun i => (f i).toReal, fun i hi => ?_⟩
  obtain ⟨r, hr⟩ := h i hi
  show f i = (((f i).toReal : ℝ) : EReal)
  rw [hr, EReal.toReal_coe]

/-- A finite sum of real numbers is a real number. -/
theorem IsReal.sum {ι : Type*} (s : Finset ι) (f : ι → EReal)
    (h : ∀ i ∈ s, IsReal (f i)) : IsReal (∑ i ∈ s, f i) := by
  obtain ⟨g, hg⟩ := exists_real_fun s f h
  refine ⟨∑ i ∈ s, g i, ?_⟩
  rw [coe_sum]
  exact Finset.sum_congr rfl hg

/-- Scaling every left factor of a contraction by one real D scales the
contraction: Σ_k (a k · D) · w k = (Σ_k a k · w k) · D. -/
theorem sum_mul_scale {κ : Type*} (s : Finset κ) (a w : κ → EReal) (D : EReal)
    (ha : ∀ k ∈ s, IsReal (a k)) (hw : ∀ k ∈ s, IsReal (w k)) (hD : IsReal D) :
    ∑ k ∈ s, (a k * D) * w k = (∑ k ∈ s, a k * w k) * D := by
  obtain ⟨a', ha'⟩ := exists_real_fun s a ha
  obtain ⟨w', hw'⟩ := exists_real_fun s w hw
  obtain ⟨d, rfl⟩ := hD
  -- both sides are coercions of real sums
  have h1 : ∑ k ∈ s, (a k * (d : EReal)) * w k
      = ((∑ k ∈ s, (a' k * d) * w' k : ℝ) : EReal) := by
    rw [coe_sum]
    refine Finset.sum_congr rfl fun k hk => ?_
    rw [ha' k hk, hw' k hk, EReal.coe_mul, EReal.coe_mul]
  have h2 : ∑ k ∈ s, a k * w k = ((∑ k ∈ s, a' k * w' k : ℝ) : EReal) := by
    rw [coe_sum]
    refine Finset.sum_congr rfl fun k hk => ?_
    rw [ha' k hk, hw' k hk, EReal.coe_mul]
  -- in the reals: pull the constant out of the sum, term by term
  have h3 : (∑ k ∈ s, (a' k * d) * w' k : ℝ) = (∑ k ∈ s, a' k * w' k) * d := by
    rw [Finset.sum_mul]
    refine Finset.sum_congr rfl fun k _ => ?_
    ring
  rw [h1, h2, h3, EReal.coe_mul]

/-- The aggregation law: if every summand P u is Q u scaled by ds u, and dd is
the constant D on the set, then scaling the sum of the P's by D gives the sum of
the Q's scaled by ds·dd.  (The leading 0 + is how the sums arrive: an
accumulation into zero.) -/
theorem agg_scale {U : Type*} (A : Finset U) (P Q ds dd : U → EReal) (D : EReal)
    (hQ : ∀ u ∈ A, IsReal (Q u)) (hds : ∀ u ∈ A, IsReal (ds u)) (hD : IsReal D)
    (hP : ∀ u ∈ A, P u = Q u * ds u) (hdd : ∀ u ∈ A, dd u = D) :
    (0 + ∑ u ∈ A, P u) * D = 0 + ∑ u ∈ A, Q u * (ds u * dd u) := by
  obtain ⟨q, hq⟩ := exists_real_fun A Q hQ
  obtain ⟨e, he⟩ := exists_real_fun A ds hds
  obtain ⟨d, rfl⟩ := hD
  have h1 : ∑ u ∈ A, P u = ((∑ u ∈ A, q u * e u : ℝ) : EReal) := by
    rw [coe_sum]
    refine Finset.sum_congr rfl fun u hu => ?_
    rw [hP u hu, hq u hu, he u hu, EReal.coe_mul]
  have h2 : ∑ u ∈ A, Q u * (ds u * dd u)
      = ((∑ u ∈ A, q u * (e u * d) : ℝ) : EReal) := by
    rw [coe_sum]
    refine Finset.sum_congr rfl fun u hu => ?_
    rw [hq u hu, he u hu, hdd u hu, EReal.coe_mul, EReal.coe_mul]
  -- in the reals: (Σ q·e)·d = Σ q·(e·d)
  have h3 : (∑ u ∈ A, q u * e u : ℝ) * d = ∑ u ∈ A, q u * (e u * d) := by
    rw [Finset.sum_mul]
    refine Finset.sum_congr rfl fun u _ => ?_
    ring
  rw [zero_add, zero_add, h1, h2, ← EReal.coe_mul, h3]

/-- and the same sum is a real number -/
theorem agg_isReal {U : Type*} (A : Finset U) (Q ds dd : U → EReal) (D : EReal)
    (hQ : ∀ u ∈ A, IsReal (Q u)) (hds : ∀ u ∈ A, IsReal (ds u)) (hD : IsReal D)
    (hdd : ∀ u ∈ A, dd u = D) :
    IsReal (0 + ∑ u ∈ A, Q u * (ds u * dd u)) := by
  rw [zero_add]
  refine IsReal.sum A _ fun u hu => ?_
  rw [hdd u hu]
  exact (hQ u hu).mul ((hds u hu).mul hD)

end Cert.RealSums
-- ==== Proof.LibGraphAgg.lean ====
/-
  One aggregation step of a graph convolution, in its two arrangements.

  Edges e = 0 … E-1 carry a source node s(e); a row scatter sends update row e to the node its target word names
  (read signed; an edge whose word names no node is dropped). Let D be a real weight per node and h a real feature
  matrix. The arrangement that scales before gathering scatters the rows D(s e) · h(s e, ·) and multiplies the sum at
  node n by D(n); the other scatters h(s e, ·) · (D(s e) · D(t e)), t(e) the target of e read as a gather reads it.
  On an edge that lands at n the two readings of the target agree, t(e) = n, so both sums are
  Σ_{e → n} h(s e, j) · D(s e) · D(n): for real numbers the factor D(n) moves out of the finite sum.
-/
import proofs.«111893_j73220602462645_2_alg».proof.Proof.LibGatherRows
import proofs.«111893_j73220602462645_2_alg».proof.Proof.LibRealSums

noncomputable section

namespace Cert.GraphConv

open Idealize.ShloMosaic Idealize.ShloMosaic.ValueIdx Idealize.ShloMosaic.GatherRows Cert.RealSums
open scoped BigOperators

/-- The update rows that land on entry (n, j) of the operand. -/
def landing {N E d : Nat} (wf : ScatterDims.WF ⟨2, ![N, d]⟩ ⟨2, ![E, 1]⟩ ⟨2, ![E, d]⟩ [1] [0] [0] 1)
    (idx : IVec ⟨2, ![E, 1]⟩ 32) (n : Fin N) (j : Fin d) : Finset (⟨2, ![E, d]⟩ : Shape).Idx :=
  Finset.univ.filter (fun u => (rowsScatterDims N E d wf).resultIdx? u idx = some (ix2 n j))

/-- THE AGGREGATION STEP: scaling by D(n) the sum of the pre-scaled rows gives the sum of the rows weighted edge by
    edge, and that sum is a real number. -/
theorem layer {N E d : Nat} (wf : ScatterDims.WF ⟨2, ![N, d]⟩ ⟨2, ![E, 1]⟩ ⟨2, ![E, d]⟩ [1] [0] [0] 1)
    (idx : IVec ⟨2, ![E, 1]⟩ 32) (sR tR : Fin E → Fin N) (D : Fin N → EReal)
    (h : (⟨2, ![N, d]⟩ : Shape).Idx → EReal) (gK updR : (⟨2, ![E, d]⟩ : Shape).Idx → EReal)
    (hD : ∀ n, IsReal (D n)) (hh : ∀ i, IsReal (h i))
    (hg : ∀ (e : Fin E) (k : Fin d), gK (ix2 e k) = D (sR e) * h (ix2 (sR e) k))
    (hu : ∀ (e : Fin E) (k : Fin d), updR (ix2 e k) = h (ix2 (sR e) k) * (D (sR e) * D (tR e)))
    (ht : ∀ (e : Fin E) (n : Fin N), (idx (ix2 e ⟨0, Nat.one_pos⟩)).toInt = (n.val : Int) → tR e = n)
    (n : Fin N) (j : Fin d) :
    D n * (0 + ∑ u ∈ landing wf idx n j, gK u) = 0 + ∑ u ∈ landing wf idx n j, updR u
      ∧ IsReal (0 + ∑ u ∈ landing wf idx n j, updR u) := by
  -- the four families of the aggregation law, read off an update index by its two coordinates
  let Q : (⟨2, ![E, d]⟩ : Shape).Idx → EReal := fun u => h (ix2 (sR (u 0)) (u 1))
  let ds : (⟨2, ![E, d]⟩ : Shape).Idx → EReal := fun u => D (sR (u 0))
  let dd : (⟨2, ![E, d]⟩ : Shape).Idx → EReal := fun u => D (tR (u 0))
  have hdd : ∀ u ∈ landing wf idx n j, dd u = D n := by
    intro u hu'
    have hm := (Finset.mem_filter.mp hu').2
    obtain ⟨p, q, rfl⟩ : ∃ (p : Fin E) (q : Fin d), u = ix2 p q := ⟨u 0, u 1, eq_ix2 u⟩
    have := (scatter_rows_lands wf idx p q n j hm).1
    show D (tR p) = D n
    rw [ht p n this]
  have hP : ∀ u ∈ landing wf idx n j, gK u = Q u * ds u := by
    intro u _
    obtain ⟨p, q, rfl⟩ : ∃ (p : Fin E) (q : Fin d), u = ix2 p q := ⟨u 0, u 1, eq_ix2 u⟩
    show gK (ix2 p q) = h (ix2 (sR p) q) * D (sR p)
    rw [hg, mul_comm]
  have hR : ∀ u ∈ landing wf idx n j, updR u = Q u * (ds u * dd u) := by
    intro u _
    obtain ⟨p, q, rfl⟩ : ∃ (p : Fin E) (q : Fin d), u = ix2 p q := ⟨u 0, u 1, eq_ix2 u⟩
    exact hu p q
  have key := agg_scale (landing wf idx n j) gK Q ds dd (D n) (fun u _ => hh _) (fun u _ => hD _) (hD n) hP hdd
  have real := agg_isReal (landing wf idx n j) Q ds dd (D n) (fun u _ => hh _) (fun u _ => hD _) (hD n) hdd
  have e : ∑ u ∈ landing wf idx n j, updR u = ∑ u ∈ landing wf idx n j, Q u * (ds u * dd u) :=
    Finset.sum_congr rfl hR
  refine ⟨?_, ?_⟩
  · rw [mul_comm, key, e]
  · rw [e]; exact real

end Cert.GraphConv

end
-- ==== Proof.KRead.lean ====
/-
  The kernel's host stages read at an index, at the ideal values.

  A bias cast to one row reads its entry; the dinv column at node n is (max deg(n) 1)^(-1/2); a row gathered for edge e
  is the row of the edge's source (the source word with a negative value wrapped, read signed and clamped); an
  aggregation at (n, j) is zero plus the sum of the gathered entries over the update rows that land on (n, j).
-/
import proofs.«111893_j73220602462645_2_alg».proof.Proof.KHost
import proofs.«111893_j73220602462645_2_alg».proof.Proof.LibGraphAgg
import proofs.«111893_j73220602462645_2_alg».proof.Proof.LibLayout
import Idealize.ShloMosaic.Lib.Pipeline.Value
import Idealize.ShloMosaic.Lib.ValueIdx
import Idealize.ShloMosaic.PureOps.Ideal.Laws
import Idealize.ShloMosaic.Lib.IdealHost

noncomputable section

namespace Cert.KernelIdeal.KRead

open Cert.KernelIdeal Cert.KernelIdeal.Gen Cert.KernelIdeal.KHost
open Idealize.ShloMosaic Idealize.ShloMosaic.ValueIdx Idealize.ShloMosaic.GatherRows
open Cert.ReferenceIdeal.Stages (edgeSrc edgeDst rawCol wrapCol deg FA IA)
open scoped BigOperators

/-- The source node of edge e as a gather reads it. -/
def srcRow (ei : IA S2x3200000) (e : Fin 3300000) : Fin 100000 :=
  clampRow 100000 (by decide) (wrapCol (edgeSrc ei) (ix2 e (0 : Fin 1)))

/-- A 16-entry bias cast to one row reads its entry. -/
theorem biasRow16_apply (b : FA S16) (k : Fin 16) : biasRow16 b (ix2 (0 : Fin 1) k) = b (ix1 k) := by
  unfold biasRow16
  exact shapeCast_apply b shapeCasts_S16_S1x16 _ _ (by
    rw [Shape.rowMajor_val_two, Shape.rowMajor_val_one]
    show k.val = 0 * 16 + k.val
    omega)

/-- A 2-entry bias cast to one row reads its entry. -/
theorem biasRow2_apply (b : FA S2) (k : Fin 2) : biasRow2 b (ix2 (0 : Fin 1) k) = b (ix1 k) := by
  unfold biasRow2
  exact shapeCast_apply b shapeCasts_S2_S1x2 _ _ (by
    rw [Shape.rowMajor_val_two, Shape.rowMajor_val_one]
    show k.val = 0 * 2 + k.val
    omega)

/-- The host's inverse square root acts entry by entry. -/
theorem hostRsqrt_apply {s : Shape} {φ : FTy} (x : FVec Ideal s φ) (i : s.Idx) :
    Host.rsqrt (F := Ideal) x i = Ideal.rsqrt (x i) := rfl

/-- Every entry of the splat of the word of 1.0 is the extended real 1. -/
theorem oneSplat_apply {s : Shape} (h : (⟨0, ![]⟩ : Shape).BroadcastsInDim s (![] : Fin 0 → Fin s.rank)) (i : s.Idx) :
    broadcastInDim s ![] h (constant (F := Ideal) ⟨0, ![]⟩ .f32 0x3F800000#32) i = (1 : EReal) := by
  simp only [broadcastInDim, constant, Ideal.ofBits_def]
  exact Ideal.ofBits_one_f32

/-- The dinv column at node n. -/
theorem dinvCol_apply (ei : IA S2x3200000) (n : Fin 100000) :
    dinvCol ei (ix2 n (0 : Fin 1)) = Ideal.rsqrt (max (deg ei (ix1 n)) 1) := by
  unfold dinvCol
  rw [Cert.Attn.Layout.shapeCast_a_a1_apply, hostRsqrt_apply, maximumf_apply, oneSplat_apply]

/-- The printed row-gather records are the row gathers of the general lemmas. -/
theorem gather16_eq : gather_S100000x16_S3300000x1_S3300000x16_1_0_n_n_0_1_116
    = rowsDims 100000 3300000 16 gather_S100000x16_S3300000x1_S3300000x16_1_0_n_n_0_1_116_wf := rfl
theorem gather2_eq : gather_S100000x2_S3300000x1_S3300000x2_1_0_n_n_0_1_12
    = rowsDims 100000 3300000 2 gather_S100000x2_S3300000x1_S3300000x2_1_0_n_n_0_1_12_wf := rfl
theorem scatter16_eq : scatter_S100000x16_S3300000x1_S3300000x16_1_0_0_1
    = rowsScatterDims 100000 3300000 16 scatter_S100000x16_S3300000x1_S3300000x16_1_0_0_1_wf := rfl
theorem scatter2_eq : scatter_S100000x2_S3300000x1_S3300000x2_1_0_0_1
    = rowsScatterDims 100000 3300000 2 scatter_S100000x2_S3300000x1_S3300000x2_1_0_0_1_wf := rfl

/-- The rows of a 16-column matrix gathered at the edge sources. -/
def gath16 (ei : IA S2x3200000) (g : FA S100000x16) : FA S3300000x16 :=
  Host.gather gather_S100000x16_S3300000x1_S3300000x16_1_0_n_n_0_1_116 g (wrapCol (edgeSrc ei))
/-- The rows of a 2-column matrix gathered at the edge sources. -/
def gath2 (ei : IA S2x3200000) (g : FA S100000x2) : FA S3300000x2 :=
  Host.gather gather_S100000x2_S3300000x1_S3300000x2_1_0_n_n_0_1_12 g (wrapCol (edgeSrc ei))

theorem gath16_apply (ei : IA S2x3200000) (g : FA S100000x16) (e : Fin 3300000) (k : Fin 16) :
    gath16 ei g (ix2 e k) = g (ix2 (srcRow ei e) k) := by
  unfold gath16; rw [gather16_eq]
  exact gather_rows_apply (by decide) _ g (wrapCol (edgeSrc ei)) e k
theorem gath2_apply (ei : IA S2x3200000) (g : FA S100000x2) (e : Fin 3300000) (k : Fin 2) :
    gath2 ei g (ix2 e k) = g (ix2 (srcRow ei e) k) := by
  unfold gath2; rw [gather2_eq]
  exact gather_rows_apply (by decide) _ g (wrapCol (edgeSrc ei)) e k

end Cert.KernelIdeal.KRead

end
-- ==== Proof.RefRead.lean ====
/-
  THE REFERENCE'S STAGES READ AT AN INDEX.

  With s(e), t(e) the source and target node of edge e (the start words of the two index columns, read signed and
  clamped into [0, n-1]):
    norm(e)            = dinv(s e) * dinv(t e),
    update(e, k)       = H(s e, k) * norm(e),
    conv(H)(d, j)      = (0 + the sum of the updates that land on (d, j)) + bias(j),
    (x W)(d, j)        = the sum over k of x(d, k) * W(k, j),
    hidden(d, j)       = max (conv(x W1)(d, j)) 0,
    log_softmax(v)(d, j) = (v(d, j) - M d) - log (the sum over k of exp (v(d, k) - M d)),  M d the largest entry of row d.
-/
import proofs.«111893_j73220602462645_2_alg».proof.Proof.RefStages
import proofs.«111893_j73220602462645_2_alg».proof.Proof.LibGatherRows
import proofs.«111893_j73220602462645_2_alg».proof.Proof.LibMatmulIx
import proofs.«111893_j73220602462645_2_alg».proof.Proof.LibRowLsm
import Idealize.ShloMosaic.Lib.Pipeline.Value
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.Stages
open Idealize.ShloMosaic Idealize.ShloMosaic.ValueIdx Idealize.ShloMosaic.GatherRows

/-- The source node of edge `e`: the start word of the source column, read signed and clamped into [0, n-1]. -/
def sR (ei : IA S2x3200000) (e : Fin 3300000) : Fin 100000 :=
  clampRow 100000 (by decide) (wrapCol (edgeSrc ei) (ix2 e (0 : Fin 1)))

/-- The target node of edge `e`, read the same way from the target column. -/
def tR (ei : IA S2x3200000) (e : Fin 3300000) : Fin 100000 :=
  clampRow 100000 (by decide) (wrapCol (edgeDst ei) (ix2 e (0 : Fin 1)))

/-! ## The printed dimension records are the row gather / flat gather / row scatter records -/

theorem gatherFlat_eq : gather_S100000_S3300000x1_S3300000_n_0_n_n_0_1_1
    = flatDims 100000 3300000 Facts₀.gather_S100000_S3300000x1_S3300000_n_0_n_n_0_1_1_wf := rfl

theorem gather16_eq : gather_S100000x16_S3300000x1_S3300000x16_1_0_n_n_0_1_116
    = rowsDims 100000 3300000 16 Facts₀.gather_S100000x16_S3300000x1_S3300000x16_1_0_n_n_0_1_116_wf := rfl

theorem gather2_eq : gather_S100000x2_S3300000x1_S3300000x2_1_0_n_n_0_1_12
    = rowsDims 100000 3300000 2 Facts₀.gather_S100000x2_S3300000x1_S3300000x2_1_0_n_n_0_1_12_wf := rfl

theorem scatter16_eq : scatter_S100000x16_S3300000x1_S3300000x16_1_0_0_1
    = rowsScatterDims 100000 3300000 16 Facts₀.scatter_S100000x16_S3300000x1_S3300000x16_1_0_0_1_wf := rfl

theorem scatter2_eq : scatter_S100000x2_S3300000x1_S3300000x2_1_0_0_1
    = rowsScatterDims 100000 3300000 2 Facts₀.scatter_S100000x2_S3300000x1_S3300000x2_1_0_0_1_wf := rfl

/-! ## The edge weight -/

/-- The weight of edge `e`: dinv at its source times dinv at its target. -/
theorem norm_apply (ei : IA S2x3200000) (e : Fin 3300000) :
    Stages.norm ei (ix1 e) = dinv ei (ix1 (sR ei e)) * dinv ei (ix1 (tR ei e)) := by
  unfold Stages.norm
  rw [mulf_apply, gatherFlat_eq, gather_flat_apply (by decide), gather_flat_apply (by decide)]
  rfl

/-- The edge weight as a one-column matrix, spread along the feature axis, read at (e, k). -/
theorem normBcast16_apply (ei : IA S2x3200000) (e : Fin 3300000) (k : Fin 16) :
    broadcastInDim S3300000x16 ![0, 1] bcast_S3300000x1_S3300000x16_0_1
      (broadcastInDim S3300000x1 ![0] bcast_S3300000_S3300000x1_0 (Stages.norm ei)) (ix2 e k) = Stages.norm ei (ix1 e) := by
  rw [broadcastInDim_apply _ _ _ _ (ix2 e (0 : Fin 1)) (fun a => by
    match a with
    | ⟨0, _⟩ => rfl
    | ⟨1, _⟩ => rfl)]
  rw [broadcastInDim_apply _ _ _ _ (ix1 e) (fun a => by
    match a with
    | ⟨0, _⟩ => rfl)]

theorem normBcast2_apply (ei : IA S2x3200000) (e : Fin 3300000) (k : Fin 2) :
    broadcastInDim S3300000x2 ![0, 1] bcast_S3300000x1_S3300000x2_0_1
      (broadcastInDim S3300000x1 ![0] bcast_S3300000_S3300000x1_0 (Stages.norm ei)) (ix2 e k) = Stages.norm ei (ix1 e) := by
  rw [broadcastInDim_apply _ _ _ _ (ix2 e (0 : Fin 1)) (fun a => by
    match a with
    | ⟨0, _⟩ => rfl
    | ⟨1, _⟩ => rfl)]
  rw [broadcastInDim_apply _ _ _ _ (ix1 e) (fun a => by
    match a with
    | ⟨0, _⟩ => rfl)]

/-! ## The update arrays -/

/-- The updates of the 16-feature aggregation: the source rows of `h`, each weighted by its edge's weight. -/
def upd16 (ei : IA S2x3200000) (h : FA S100000x16) : FA S3300000x16 :=
  mulf (Host.gather gather_S100000x16_S3300000x1_S3300000x16_1_0_n_n_0_1_116 h (wrapCol (edgeSrc ei)))
    (broadcastInDim S3300000x16 ![0, 1] bcast_S3300000x1_S3300000x16_0_1
      (broadcastInDim S3300000x1 ![0] bcast_S3300000_S3300000x1_0 (Stages.norm ei)))

/-- The updates of the 2-feature aggregation. -/
def upd2 (ei : IA S2x3200000) (h : FA S100000x2) : FA S3300000x2 :=
  mulf (Host.gather gather_S100000x2_S3300000x1_S3300000x2_1_0_n_n_0_1_12 h (wrapCol (edgeSrc ei)))
    (broadcastInDim S3300000x2 ![0, 1] bcast_S3300000x1_S3300000x2_0_1
      (broadcastInDim S3300000x1 ![0] bcast_S3300000_S3300000x1_0 (Stages.norm ei)))

/-- Update (e, k): feature k of the source row of edge e, times the edge's weight. -/
theorem upd16_apply (ei : IA S2x3200000) (h : FA S100000x16) (e : Fin 3300000) (k : Fin 16) :
    upd16 ei h (ix2 e k) = h (ix2 (sR ei e) k) * Stages.norm ei (ix1 e) := by
  unfold upd16
  rw [mulf_apply, normBcast16_apply, gather16_eq, gather_rows_apply (by decide)]
  rfl

theorem upd2_apply (ei : IA S2x3200000) (h : FA S100000x2) (e : Fin 3300000) (k : Fin 2) :
    upd2 ei h (ix2 e k) = h (ix2 (sR ei e) k) * Stages.norm ei (ix1 e) := by
  unfold upd2
  rw [mulf_apply, normBcast2_apply, gather2_eq, gather_rows_apply (by decide)]
  rfl

/-! ## The aggregation -/

/-- The accumulating scatter at the extended reals, read at `i`: the operand's entry plus the updates that land on `i`. -/
theorem scatterAdd_apply {s si u : Shape} {w : Nat} {φ : FTy} (d : ScatterDims s si u) (x : FVec Ideal s φ) (idx : IVec si w)
    (upd : FVec Ideal u φ) (i : s.Idx) :
    Host.scatterAdd (F := Ideal) d x idx upd i
      = x i + ∑ j ∈ Finset.univ.filter (fun j => d.resultIdx? j idx = some i), upd j := rfl

/-- The zero splat the 16-feature aggregation accumulates onto. -/
theorem zeroSplat16_apply (i : S100000x16.Idx) :
    broadcastInDim S100000x16 ![] bcast_S_S100000x16 (constant (F := Ideal) S_ .f32 0x00000000#32) i = 0 := by
  rw [broadcastInDim_apply _ _ _ _ ix0 (fun a => a.elim0), constant_apply, Ideal.ofBits_zero_f32]

theorem zeroSplat2_apply (i : S100000x2.Idx) :
    broadcastInDim S100000x2 ![] bcast_S_S100000x2 (constant (F := Ideal) S_ .f32 0x00000000#32) i = 0 := by
  rw [broadcastInDim_apply _ _ _ _ ix0 (fun a => a.elim0), constant_apply, Ideal.ofBits_zero_f32]

/-- The bias as a one-row matrix, spread along the node axis, read at (n, j). -/
theorem biasBcast16_apply (b : FA S16) (n : Fin 100000) (j : Fin 16) :
    broadcastInDim S100000x16 ![0, 1] bcast_S1x16_S100000x16_0_1 (broadcastInDim S1x16 ![1] bcast_S16_S1x16_1 b) (ix2 n j)
      = b (ix1 j) := by
  rw [broadcastInDim_apply _ _ _ _ (ix2 (0 : Fin 1) j) (fun a => by
    match a with
    | ⟨0, _⟩ => rfl
    | ⟨1, _⟩ => rfl)]
  rw [broadcastInDim_apply _ _ _ _ (ix1 j) (fun a => by
    match a with
    | ⟨0, _⟩ => rfl)]

theorem biasBcast2_apply (b : FA S2) (n : Fin 100000) (j : Fin 2) :
    broadcastInDim S100000x2 ![0, 1] bcast_S1x2_S100000x2_0_1 (broadcastInDim S1x2 ![1] bcast_S2_S1x2_1 b) (ix2 n j)
      = b (ix1 j) := by
  rw [broadcastInDim_apply _ _ _ _ (ix2 (0 : Fin 1) j) (fun a => by
    match a with
    | ⟨0, _⟩ => rfl
    | ⟨1, _⟩ => rfl)]
  rw [broadcastInDim_apply _ _ _ _ (ix1 j) (fun a => by
    match a with
    | ⟨0, _⟩ => rfl)]

/-- The 16-feature aggregation at (n, j): zero plus the updates that land on (n, j), plus the bias. -/
theorem conv16_apply (ei : IA S2x3200000) (h : FA S100000x16) (b : FA S16) (n : Fin 100000) (j : Fin 16) :
    conv16 ei h b (ix2 n j)
      = (0 + ∑ u ∈ Finset.univ.filter (fun u => scatter_S100000x16_S3300000x1_S3300000x16_1_0_0_1.resultIdx? u
            (rawCol (edgeDst ei)) = some (ix2 n j)), upd16 ei h u) + b (ix1 j) := by
  unfold conv16 upd16
  rw [addf_apply, biasBcast16_apply, scatterAdd_apply, zeroSplat16_apply]

/-- The 2-feature aggregation at (n, j). -/
theorem conv2_apply (ei : IA S2x3200000) (h : FA S100000x2) (b : FA S2) (n : Fin 100000) (j : Fin 2) :
    conv2 ei h b (ix2 n j)
      = (0 + ∑ u ∈ Finset.univ.filter (fun u => scatter_S100000x2_S3300000x1_S3300000x2_1_0_0_1.resultIdx? u
            (rawCol (edgeDst ei)) = some (ix2 n j)), upd2 ei h u) + b (ix1 j) := by
  unfold conv2 upd2
  rw [addf_apply, biasBcast2_apply, scatterAdd_apply, zeroSplat2_apply]

/-! ## The matrix products and the two layers -/

/-- x W1: the 128-feature input times the first weight matrix. -/
def xw (x : FA S100000x128) (W1 : FA S128x16) : FA S100000x16 :=
  Host.dotGeneral (F := Ideal) dot_S100000x128_S128x16_S100000x16_1_0_0_1_n_n none x W1

/-- (x W1)(n, j) = the sum over k of x(n, k) * W1(k, j). -/
theorem xw_apply (x : FA S100000x128) (W1 : FA S128x16) (n : Fin 100000) (j : Fin 16) :
    xw x W1 (ix2 n j) = ∑ k : Fin 128, x (ix2 n k) * W1 (ix2 k j) :=
  MatmulIx.dotGeneral_ix2 dot_S100000x128_S128x16_S100000x16_1_0_0_1_n_n rfl rfl (fun _ _ => rfl) (fun _ _ => rfl)
    (fun _ _ => rfl) (fun _ _ => rfl) none x W1 n j

/-- The hidden layer at (n, j): the first aggregation of x W1, a negative entry replaced by zero. -/
theorem hidden_apply (x : FA S100000x128) (ei : IA S2x3200000) (W1 : FA S128x16) (b1 : FA S16) (n : Fin 100000) (j : Fin 16) :
    Stages.hidden x ei W1 b1 (ix2 n j) = max (conv16 ei (xw x W1) b1 (ix2 n j)) 0 := by
  unfold Stages.hidden xw
  rw [maximumf_apply, zeroSplat16_apply]

/-- h W2: the hidden layer times the second weight matrix. -/
def hw (h : FA S100000x16) (W2 : FA S16x2) : FA S100000x2 :=
  Host.dotGeneral (F := Ideal) dot_S100000x16_S16x2_S100000x2_1_0_0_1_n_n none h W2

/-- (h W2)(n, j) = the sum over k of h(n, k) * W2(k, j). -/
theorem hw_apply (h : FA S100000x16) (W2 : FA S16x2) (n : Fin 100000) (j : Fin 2) :
    hw h W2 (ix2 n j) = ∑ k : Fin 16, h (ix2 n k) * W2 (ix2 k j) :=
  MatmulIx.dotGeneral_ix2 dot_S100000x16_S16x2_S100000x2_1_0_0_1_n_n rfl rfl (fun _ _ => rfl) (fun _ _ => rfl)
    (fun _ _ => rfl) (fun _ _ => rfl) none h W2 n j

/-- The logits are the second aggregation of (hidden W2). -/
theorem logits_eq (x : FA S100000x128) (ei : IA S2x3200000) (W1 : FA S128x16) (b1 : FA S16) (W2 : FA S16x2) (b2 : FA S2) :
    logits x ei W1 b1 W2 b2 = conv2 ei (hw (Stages.hidden x ei W1 b1) W2) b2 := rfl

/-! ## The row-wise log-softmax -/

/-- A vector as a one-column matrix, read at (n, 0). -/
theorem col_apply {α : Type} (f : S100000.Idx → α) (n : Fin 100000) :
    broadcastInDim S100000x1 ![0] bcast_S100000_S100000x1_0 f (ix2 n (0 : Fin 1)) = f (ix1 n) := by
  rw [broadcastInDim_apply _ _ _ _ (ix1 n) (fun a => by
    match a with
    | ⟨0, _⟩ => rfl)]

/-- A one-column matrix spread along the rows, read at (n, j). -/
theorem spread_apply {α : Type} (g : S100000x1.Idx → α) (n : Fin 100000) (j : Fin 2) :
    broadcastInDim S100000x2 ![0, 1] bcast_S100000x1_S100000x2_0_1 g (ix2 n j) = g (ix2 n (0 : Fin 1)) := by
  rw [broadcastInDim_apply _ _ _ _ (ix2 n (0 : Fin 1)) (fun a => by
    match a with
    | ⟨0, _⟩ => rfl
    | ⟨1, _⟩ => rfl)]

/-- The shape fact the two row reductions fold along. -/
theorem reduces_rows : S100000x2.Reduces [1] S100000 := by decide

/-- The reduction by max over axis 1 from -∞, at row n: the largest entry of the row, taken from ⊥. -/
theorem hostRowMax_apply (v : FA S100000x2) (n : Fin 100000) :
    Host.reduce FloatOps.maximumf v (constant (F := Ideal) S_ .f32 0xFF800000#32) reducesTo_S100000x2_S100000_d1 h_S_ (ix1 n)
      = Cert.RowLsm.rowMax v n := by
  refine (Host.reduce_eq_fold_single _ v _ reducesTo_S100000x2_S100000_d1 reduces_rows h_S_ (ix1 n)).trans ?_
  rw [constant_apply, Cert.RowLsm.ofBits_neg_inf]
  exact congrArg (Finset.fold max ⊥ · (Finset.univ : Finset (Fin 2)))
    (funext fun k => congrArg v (Cert.Attn.Layout.lift_row reduces_rows n k))

/-- The row maximum, taken once more against -∞ and spread over the row, is the row's largest entry at every entry. -/
theorem rowMaxFull_apply (v : FA S100000x2) (n : Fin 100000) (j : Fin 2) :
    rowMaxFull v (ix2 n j) = Cert.RowLsm.rowMax v n := by
  unfold rowMaxFull
  rw [spread_apply, col_apply, maximumf_apply, hostRowMax_apply,
    broadcastInDim_apply _ _ _ _ ix0 (fun a => a.elim0), constant_apply, Cert.RowLsm.ofBits_neg_inf]
  exact max_bot_left _

/-- The reduction by + over axis 1 from zero, at row n: the sum of the row's entries. -/
theorem hostRowSum_apply (w : FA S100000x2) (n : Fin 100000) :
    Host.reduceAdd w (constant (F := Ideal) S_ .f32 0x00000000#32) reducesTo_S100000x2_S100000_d1 h_S_ (ix1 n)
      = ∑ k : Fin 2, w (ix2 n k) := by
  show Ideal.hostReduceAdd reducesTo_S100000x2_S100000_d1 w
    (constant (F := Ideal) S_ .f32 0x00000000#32 (Shape.Idx.first h_S_)) (ix1 n) = _
  rw [Ideal.hostReduceAdd_single reducesTo_S100000x2_S100000_d1 reduces_rows, constant_apply,
    Ideal.ofBits_zero_f32, zero_add]
  exact Finset.sum_congr rfl fun k _ => congrArg w (Cert.Attn.Layout.lift_row reduces_rows n k)

theorem hostExp_apply {s : Shape} {φ : FTy} (x : FVec Ideal s φ) (i : s.Idx) : Host.exp x i = Ideal.exp (x i) := rfl

theorem hostLog_apply {s : Shape} {φ : FTy} (x : FVec Ideal s φ) (i : s.Idx) : Host.log x i = Ideal.log (x i) := rfl

/-- THE REFERENCE'S LOG-SOFTMAX at (n, j): the entry minus the row's largest, minus the log of the row's sum of
    exponentials of the entries so shifted. -/
theorem logSoftmax_apply (v : FA S100000x2) (n : Fin 100000) (j : Fin 2) :
    logSoftmax v (ix2 n j) = Cert.RowLsm.lsm (a := 100000) (b := 2) v n j := by
  unfold logSoftmax
  rw [subf_apply, subf_apply, rowMaxFull_apply, spread_apply, hostLog_apply, col_apply, hostRowSum_apply]
  unfold Cert.RowLsm.lsm
  refine congrArg (fun s => (v (ix2 n j) - Cert.RowLsm.rowMax v n) - Ideal.log s) (Finset.sum_congr rfl fun k _ => ?_)
  rw [hostExp_apply, subf_apply, rowMaxFull_apply]

end Cert.ReferenceIdeal.RefRead

end
-- ==== Proof.KAggRead.lean ====
/-
  An aggregation read at an entry: the scatter starts from the zero matrix, so entry (n, j) of the result is zero plus
  the sum of the gathered entries over the update rows that land on (n, j).
-/
import proofs.«111893_j73220602462645_2_alg».proof.Proof.KRead
import proofs.«111893_j73220602462645_2_alg».proof.Proof.RefRead

noncomputable section

namespace Cert.KernelIdeal.KRead

open Cert.KernelIdeal Cert.KernelIdeal.Gen Cert.KernelIdeal.KHost
open Idealize.ShloMosaic Idealize.ShloMosaic.ValueIdx Idealize.ShloMosaic.GatherRows
open Cert.ReferenceIdeal.Stages (edgeSrc edgeDst rawCol wrapCol deg FA IA)
open scoped BigOperators

/-- Every entry of the zero splat is the extended real 0. -/
theorem zeros16_apply (i : S100000x16.Idx) :
    broadcastInDim S100000x16 ![] bcast_S_S100000x16 (constant (F := Ideal) S_ .f32 0x00000000#32) i = (0 : EReal) := by
  simp only [broadcastInDim, constant, Ideal.ofBits_def]
  exact Ideal.ofBits_zero_f32
theorem zeros2_apply (i : S100000x2.Idx) :
    broadcastInDim S100000x2 ![] bcast_S_S100000x2 (constant (F := Ideal) S_ .f32 0x00000000#32) i = (0 : EReal) := by
  simp only [broadcastInDim, constant, Ideal.ofBits_def]
  exact Ideal.ofBits_zero_f32

/-- An aggregation of 16-column rows at (n, j): zero plus the gathered entries that land there. -/
theorem agg16_apply (ei : IA S2x3200000) (g : FA S100000x16) (n : Fin 100000) (j : Fin 16) :
    agg16 ei g (ix2 n j) = 0 + ∑ u ∈ Cert.GraphConv.landing scatter_S100000x16_S3300000x1_S3300000x16_1_0_0_1_wf
      (rawCol (edgeDst ei)) n j, gath16 ei g u := by
  unfold agg16 Cert.GraphConv.landing
  rw [Cert.ReferenceIdeal.RefRead.scatterAdd_apply, zeros16_apply, scatter16_eq]
  rfl

/-- The same for 2-column rows. -/
theorem agg2_apply (ei : IA S2x3200000) (g : FA S100000x2) (n : Fin 100000) (j : Fin 2) :
    agg2 ei g (ix2 n j) = 0 + ∑ u ∈ Cert.GraphConv.landing scatter_S100000x2_S3300000x1_S3300000x2_1_0_0_1_wf
      (rawCol (edgeDst ei)) n j, gath2 ei g u := by
  unfold agg2 Cert.GraphConv.landing
  rw [Cert.ReferenceIdeal.RefRead.scatterAdd_apply, zeros2_apply, scatter2_eq]
  rfl

end Cert.KernelIdeal.KRead

end
-- ==== Proof.DegFacts.lean ====
import proofs.«111893_j73220602462645_2_alg».proof.Proof.RefStages
import proofs.«111893_j73220602462645_2_alg».proof.Proof.LibGatherRows
import proofs.«111893_j73220602462645_2_alg».proof.Proof.LibRealSums
import Idealize.ShloMosaic.Lib.Pipeline.Value
import Idealize.ShloMosaic.Lib.IdealHost
import Idealize.ShloMosaic.Lib.ValueLayout
import Idealize.ShloMosaic.Lib.Affine

/-!
# The degrees of the graph

Every node carries a self-loop, so the number of edges into a node is at least one.  The degree array is a scatter of
ones onto zeros at the edge targets: at node n it is the number of edges whose target word, read as a signed integer,
is n.  That number is a positive real, its inverse square root is a real number, and clamping the degree from below
at one before taking the inverse square root changes nothing.
-/

noncomputable section

namespace Cert.ReferenceIdeal.DegFacts

open Cert.ReferenceIdeal Cert.ReferenceIdeal.Gen Idealize.ShloMosaic Idealize.ShloMosaic.ValueIdx
open Cert.ReferenceIdeal.Stages Idealize.ShloMosaic.GatherRows Cert.RealSums
open scoped BigOperators

/-- The one-column matrix of an index vector reads the vector: entry (e, 0) is entry e. -/
theorem rawCol_apply (v : IA S3300000) (e : Fin 3300000) :
    Stages.rawCol v (ix2 e (0 : Fin 1)) = v (ix1 e) := by
  unfold Stages.rawCol
  refine broadcastInDim_apply _ _ _ _ (ix1 e) fun a => ?_
  obtain rfl : a = 0 := Subsingleton.elim _ _
  rfl

/-- A word whose signed reading is not negative is left alone by the wrap of negative indices. -/
theorem wrapCol_of_nonneg (v : IA S3300000) (e : Fin 3300000) (h : 0 ≤ (v (ix1 e)).toInt) :
    Stages.wrapCol v (ix2 e (0 : Fin 1)) = v (ix1 e) := by
  unfold Stages.wrapCol
  refine (broadcastInDim_apply _ _ _ _ (ix1 e) fun a => ?_).trans ?_
  · obtain rfl : a = 0 := Subsingleton.elim _ _
    rfl
  · rw [select_apply]
    have hc : cmpi .slt v (broadcastInDim S3300000 ![] bcast_S_S3300000 (constantI S_ 32 0#32)) (ix1 e) = 0#1 := by
      apply eq_zero_of_ne_one
      intro h1
      have h2 : IntOp.cmpi .slt (v (ix1 e)) 0#32 = 1#1 := h1
      rw [IntOp.cmpi_slt] at h2
      simp at h2
      omega
    rw [hc, select_zero]

/-- An edge whose target word, read signed, is the node number n gathers at row n: the wrap leaves a nonnegative word
    alone and the clamp leaves a word in range alone. -/
theorem lands_target (ei : IA S2x3200000) (e : Fin 3300000) (n : Fin 100000)
    (h : ((Stages.rawCol (Stages.edgeDst ei)) (ix2 e (0 : Fin 1))).toInt = (n.val : Int)) :
    GatherRows.clampRow 100000 (by decide) (Stages.wrapCol (Stages.edgeDst ei) (ix2 e (0 : Fin 1))) = n := by
  rw [rawCol_apply] at h
  rw [wrapCol_of_nonneg (Stages.edgeDst ei) e (by rw [h]; exact Int.natCast_nonneg _)]
  exact GatherRows.clampRow_of_toInt _ _ n h

/-- The same for any index vector v in place of the edge targets (the sources, for one). -/
theorem lands_of_toInt (v : IA S3300000) (e : Fin 3300000) (n : Fin 100000)
    (h : (v (ix1 e)).toInt = (n.val : Int)) :
    GatherRows.clampRow 100000 (by decide) (Stages.wrapCol v (ix2 e (0 : Fin 1))) = n := by
  rw [wrapCol_of_nonneg v e (by rw [h]; exact Int.natCast_nonneg _)]
  exact GatherRows.clampRow_of_toInt _ _ n h

/-- THE FLAT SCATTER: update e lands on node n exactly when the start word of row e, read signed, is n. -/
theorem flat_lands (idx : IVec S3300000x1 32) (e : Fin 3300000) (n : Fin 100000) :
    scatter_S100000_S3300000x1_S3300000_n_0_0_1.resultIdx? (ix1 e) idx = some (ix1 n)
      ↔ (idx (ix2 e (0 : Fin 1))).toInt = (n.val : Int) := by
  have hsi : ∀ c, scatter_S100000_S3300000x1_S3300000_n_0_0_1.siIdx (ix1 e) c = ix2 e (0 : Fin 1) := by
    intro c
    funext b; refine Fin.ext ?_
    match b with
    | ⟨0, _⟩ => rfl
    | ⟨1, _⟩ =>
      show c.val = 0
      have := c.isLt
      simp only [scatter_S100000_S3300000x1_S3300000_n_0_0_1, List.length_singleton] at this
      omega
  have hs0 : ∀ a, scatter_S100000_S3300000x1_S3300000_n_0_0_1.start (ix1 e) idx a = (idx (ix2 e (0 : Fin 1))).toInt := by
    intro a
    obtain rfl : a = 0 := Subsingleton.elim _ _
    unfold ScatterDims.start
    rw [dif_pos (show (0 : Fin 1) ∈ scatter_S100000_S3300000x1_S3300000_n_0_0_1.scatterDimsToOperandDims from
      List.mem_singleton.mpr rfl), hsi]
  have hw0 : ∀ a, scatter_S100000_S3300000x1_S3300000_n_0_0_1.window (ix1 e) a = 0 := by
    intro a
    obtain rfl : a = 0 := Subsingleton.elim _ _
    unfold ScatterDims.window
    rw [dif_neg (fun h => by
      have := (List.mem_filter.mp h).2
      simp [scatter_S100000_S3300000x1_S3300000_n_0_0_1] at this)]
  constructor
  · intro h
    unfold ScatterDims.resultIdx? at h
    split at h
    · rename_i hall
      have h' := Option.some.inj h
      have h0 := congrArg Fin.val (congrFun h' 0)
      have hb0 := hall 0
      simp only [hs0, hw0] at h0 hb0
      have h0' : ((idx (ix2 e (0 : Fin 1))).toInt + ((0 : Nat) : Int)).toNat = n.val := h0
      have := hb0.1
      omega
    · exact absurd h (by simp)
  · intro h
    unfold ScatterDims.resultIdx?
    have hall : ∀ a, 0 ≤ scatter_S100000_S3300000x1_S3300000_n_0_0_1.start (ix1 e) idx a
          + scatter_S100000_S3300000x1_S3300000_n_0_0_1.window (ix1 e) a
        ∧ scatter_S100000_S3300000x1_S3300000_n_0_0_1.start (ix1 e) idx a
          + scatter_S100000_S3300000x1_S3300000_n_0_0_1.window (ix1 e) a < S100000.size a := by
      intro a
      rw [hs0, hw0, h]
      obtain rfl : a = 0 := Subsingleton.elim _ _
      have := n.isLt
      show 0 ≤ (n.val : Int) + ((0 : Nat) : Int) ∧ (n.val : Int) + ((0 : Nat) : Int) < ((100000 : Nat) : Int)
      omega
    rw [dif_pos hall]
    congr 1
    funext a
    obtain rfl : a = 0 := Subsingleton.elim _ _
    refine Fin.ext ?_
    show (scatter_S100000_S3300000x1_S3300000_n_0_0_1.start (ix1 e) idx 0
      + scatter_S100000_S3300000x1_S3300000_n_0_0_1.window (ix1 e) 0).toNat = n.val
    rw [hs0, hw0, h]
    omega

/-- A node number below 100000 fits in 31 bits: the signed reading of its 32-bit word is the number. -/
theorem toInt_ofNat_node (n : Fin 100000) : (BitVec.ofNat 32 n.val).toInt = (n.val : Int) := by
  have := n.isLt
  rw [BitVec.toInt_eq_toNat_cond, BitVec.toNat_ofNat]
  have h2 : n.val % 2 ^ 32 = n.val := Nat.mod_eq_of_lt (by omega)
  rw [h2, if_pos (by omega)]

/-- The last 100000 edges are the self-loops: the target of edge 3200000 + n is the word of n. -/
theorem selfLoop (ei : IA S2x3200000) (n : Fin 100000) :
    Stages.edgeDst ei (ix1 ⟨3200000 + n.val, by have := n.isLt; omega⟩) = BitVec.ofNat 32 n.val := by
  unfold Stages.edgeDst
  refine (concatenate_pair_apply_right (t := S3300000) (s₁ := S3200000) (s₂ := S100000) (0 : Fin 1) _ _ _ _ rfl rfl (ix1 n) (fun b hb => ?_) ?_).trans ?_
  · exact absurd (Subsingleton.elim _ _) hb
  · show n.val + 3200000 = 3200000 + n.val
    omega
  · rfl

/-- … and so is its source. -/
theorem selfLoop_src (ei : IA S2x3200000) (n : Fin 100000) :
    Stages.edgeSrc ei (ix1 ⟨3200000 + n.val, by have := n.isLt; omega⟩) = BitVec.ofNat 32 n.val := by
  unfold Stages.edgeSrc
  refine (concatenate_pair_apply_right (t := S3300000) (s₁ := S3200000) (s₂ := S100000) (0 : Fin 1) _ _ _ _ rfl rfl (ix1 n) (fun b hb => ?_) ?_).trans ?_
  · exact absurd (Subsingleton.elim _ _) hb
  · show n.val + 3200000 = 3200000 + n.val
    omega
  · rfl

/-- The signed reading of a self-loop's target is the node number. -/
theorem selfLoop_toInt (ei : IA S2x3200000) (n : Fin 100000) :
    (Stages.edgeDst ei (ix1 ⟨3200000 + n.val, by have := n.isLt; omega⟩)).toInt = (n.val : Int) := by
  rw [selfLoop, toInt_ofNat_node]

/-- The signed reading of a self-loop's source is the node number. -/
theorem selfLoop_src_toInt (ei : IA S2x3200000) (n : Fin 100000) :
    (Stages.edgeSrc ei (ix1 ⟨3200000 + n.val, by have := n.isLt; omega⟩)).toInt = (n.val : Int) := by
  rw [selfLoop_src, toInt_ofNat_node]

/-- The scatter-add of extended reals read at an index: the operand there plus every update that lands there. -/
theorem scatterAdd_apply {s si su : Shape} {φ : FTy} {w : Nat} (d : ScatterDims s si su) (x : FVec Ideal s φ)
    (idx : IVec si w) (upd : FVec Ideal su φ) (i : s.Idx) :
    Host.scatterAdd d x idx upd i
      = x i + ∑ j ∈ Finset.univ.filter (fun j => d.resultIdx? j idx = some i), upd j := rfl

/-- The splat of the zero word reads zero everywhere. -/
theorem zeros_apply {T : Shape} (h : S_.BroadcastsInDim T ![]) (j : T.Idx) :
    broadcastInDim T ![] h (constant (F := Ideal) S_ .f32 0x00000000#32) j = (0 : EReal) := by
  rw [broadcastInDim_scalar_apply, constant_apply, Ideal.ofBits_zero_f32]

/-- The splat of the word 0x3F800000 reads one everywhere. -/
theorem ones_apply {T : Shape} (h : S_.BroadcastsInDim T ![]) (j : T.Idx) :
    broadcastInDim T ![] h (constant (F := Ideal) S_ .f32 0x3F800000#32) j = (1 : EReal) := by
  rw [broadcastInDim_scalar_apply, constant_apply, Ideal.ofBits_one_f32]

/-- The degree at node n: zero plus one for every edge the scatter lands on n. -/
theorem deg_apply (ei : IA S2x3200000) (n : Fin 100000) :
    Stages.deg ei (ix1 n) = 0 + ∑ u ∈ Finset.univ.filter (fun u =>
      scatter_S100000_S3300000x1_S3300000_n_0_0_1.resultIdx? u (Stages.rawCol (Stages.edgeDst ei)) = some (ix1 n)), (1 : EReal) := by
  refine (scatterAdd_apply scatter_S100000_S3300000x1_S3300000_n_0_0_1 _ (Stages.rawCol (Stages.edgeDst ei)) _ (ix1 n)).trans ?_
  exact congrArg₂ (· + ·) (zeros_apply _ _) (Finset.sum_congr rfl fun u _ => ones_apply _ u)

/-- The self-loop of node n is one of the edges the scatter lands on n. -/
theorem selfLoop_mem (ei : IA S2x3200000) (n : Fin 100000) :
    (ix1 (⟨3200000 + n.val, by have := n.isLt; omega⟩ : Fin 3300000) : S3300000.Idx) ∈ Finset.univ.filter (fun u =>
      scatter_S100000_S3300000x1_S3300000_n_0_0_1.resultIdx? u (Stages.rawCol (Stages.edgeDst ei)) = some (ix1 n)) := by
  refine Finset.mem_filter.mpr ⟨Finset.mem_univ _, (flat_lands _ _ n).mpr ?_⟩
  rw [rawCol_apply]
  exact selfLoop_toInt ei n

/-- A sum of ones over a finite set that is not empty is a real number at least one: the number of its elements. -/
theorem sum_ones_real {ι : Type} (A : Finset ι) (hA : A.Nonempty) :
    ∃ r : ℝ, 1 ≤ r ∧ (0 + ∑ _u ∈ A, (1 : EReal)) = (r : EReal) := by
  refine ⟨(A.card : ℝ), ?_, ?_⟩
  · exact_mod_cast Finset.card_pos.mpr hA
  · rw [zero_add, Finset.sum_const, nsmul_one]
    exact EReal.coe_natCast.symm

/-- THE DEGREE IS A REAL NUMBER AT LEAST ONE: a sum of ones over a finite set is the number of its elements, and the set
    of edges into n contains n's self-loop. -/
theorem deg_pos_real (ei : IA S2x3200000) (n : Fin 100000) :
    ∃ r : ℝ, 1 ≤ r ∧ Stages.deg ei (ix1 n) = (r : EReal) := by
  obtain ⟨r, hr, h⟩ := sum_ones_real _ ⟨_, selfLoop_mem ei n⟩
  exact ⟨r, hr, (deg_apply ei n).trans h⟩

/-- The inverse square root of a real number at least one is a real number. -/
theorem rsqrt_coe_of_one_le (r : ℝ) (hr : 1 ≤ r) : Ideal.rsqrt (r : EReal) = (((Real.sqrt r)⁻¹ : ℝ) : EReal) := by
  rw [Ideal.rsqrt_coe, if_neg (by linarith), if_neg (by linarith)]

/-- The test "degree > 0" comes out true at every node. -/
theorem deg_test (ei : IA S2x3200000) (n : Fin 100000) :
    cmpf .ogt (Stages.deg ei) (broadcastInDim S100000 ![] bcast_S_S100000 (constant (F := Ideal) S_ .f32 0x00000000#32)) (ix1 n) = 1#1 := by
  obtain ⟨r, hr, hd⟩ := deg_pos_real ei n
  rw [cmpf_apply, zeros_apply, hd, Ideal.cmpf_def]
  have hpos : (0 : EReal) < (r : EReal) := by
    have : (0 : ℝ) < r := by linarith
    exact_mod_cast this
  unfold Ideal.cmp
  simp only [hpos, decide_true]
  rfl

/-- The host's inverse square root read at an index is the inverse square root of the element. -/
theorem hostRsqrt_apply {s : Shape} {φ : FTy} (x : FVec Ideal s φ) (i : s.Idx) :
    Host.rsqrt (F := Ideal) x i = Ideal.rsqrt (x i) := rfl

/-- Where the degree is positive — everywhere — dinv is its inverse square root. -/
theorem dinv_eq (ei : IA S2x3200000) (n : Fin 100000) :
    Stages.dinv ei (ix1 n) = Ideal.rsqrt (Stages.deg ei (ix1 n)) := by
  refine (select_apply _ _ _ (ix1 n)).trans ?_
  rw [deg_test ei n, select_one]
  exact hostRsqrt_apply (Stages.deg ei) (ix1 n)

/-- dinv is a real number. -/
theorem dinv_real (ei : IA S2x3200000) (n : Fin 100000) : Cert.RealSums.IsReal (Stages.dinv ei (ix1 n)) := by
  obtain ⟨r, hr, hd⟩ := deg_pos_real ei n
  rw [dinv_eq, hd, rsqrt_coe_of_one_le r hr]
  exact IsReal.coe _

/-- Clamping the degree from below at one before the inverse square root changes nothing: the degree is at least one. -/
theorem kernel_dinv_eq (ei : IA S2x3200000) (n : Fin 100000) :
    Ideal.rsqrt (max (Stages.deg ei (ix1 n)) 1) = Stages.dinv ei (ix1 n) := by
  obtain ⟨r, hr, hd⟩ := deg_pos_real ei n
  rw [dinv_eq, hd]
  have h1 : (1 : EReal) ≤ (r : EReal) := by exact_mod_cast hr
  rw [max_eq_left h1]

end Cert.ReferenceIdeal.DegFacts

end
-- ==== Proof.Bridge.lean ====
/-
  The kernel's arrangement of the two-layer graph convolution equals the reference's.

  Write D(n) = deg(n)^(-1/2) (every node has its self-loop, so deg(n) ≥ 1 and both programs' spellings of D agree and
  are real). The kernel scales x W1 by D before the first aggregation and by D after it; the reference weights every
  edge by D(source) · D(target). On the edges that land at node n the target IS n, so for real numbers
      D(n) · Σ_{e → n} D(s e) · H(s e, j)  =  Σ_{e → n} H(s e, j) · (D(s e) · D(t e)).
  Hence the hidden layers agree entry by entry, the same law gives equal logits, and the row-wise log-softmax of equal
  rows is equal.
-/
import proofs.«111893_j73220602462645_2_alg».proof.Proof.KAggRead
import proofs.«111893_j73220602462645_2_alg».proof.Proof.RefRead
import proofs.«111893_j73220602462645_2_alg».proof.Proof.DegFacts
import proofs.«111893_j73220602462645_2_alg».proof.Proof.LibRowLsm

noncomputable section

namespace Cert.Bridge

open Cert.KernelIdeal Cert.KernelIdeal.Gen Cert.KernelIdeal.KHost Cert.KernelIdeal.KRead
open Cert.ReferenceIdeal.RefRead Cert.ReferenceIdeal.DegFacts
open Idealize.ShloMosaic Idealize.ShloMosaic.ValueIdx Idealize.ShloMosaic.GatherRows
open Cert.RealSums Cert.GraphConv
open Cert.ReferenceIdeal.Stages (edgeSrc edgeDst rawCol wrapCol deg FA IA)
open scoped BigOperators

variable (x : FA S100000x128) (ei : IA S2x3200000) (W1 : FA S128x16) (b1 : FA S16) (W2 : FA S16x2) (b2 : FA S2)
variable (g1 : FA S100000x16) (g2 : FA S100000x2) (kout : FA S100000x2)

/-- The weight of node n. -/
def D (n : Fin 100000) : EReal := Cert.ReferenceIdeal.Stages.dinv ei (ix1 n)

/-- The kernel's dinv column holds D. -/
theorem dCol_eq (n : Fin 100000) : dinvCol ei (ix2 n (0 : Fin 1)) = D ei n :=
  (dinvCol_apply ei n).trans (kernel_dinv_eq ei n)

theorem D_real (n : Fin 100000) : IsReal (D ei n) := dinv_real ei n

/-- The source row the kernel gathers is the one the reference gathers. -/
theorem srcRow_eq (e : Fin 3300000) : srcRow ei e = sR ei e := rfl

/-- The update rows landing on an entry, in the reference's spelling of the scatter record. -/
theorem landing16_eq (n : Fin 100000) (j : Fin 16) :
    landing scatter_S100000x16_S3300000x1_S3300000x16_1_0_0_1_wf (rawCol (edgeDst ei)) n j
      = Finset.univ.filter (fun u => Cert.ReferenceIdeal.scatter_S100000x16_S3300000x1_S3300000x16_1_0_0_1.resultIdx? u
          (rawCol (edgeDst ei)) = some (ix2 n j)) := rfl
theorem landing2_eq (n : Fin 100000) (j : Fin 2) :
    landing scatter_S100000x2_S3300000x1_S3300000x2_1_0_0_1_wf (rawCol (edgeDst ei)) n j
      = Finset.univ.filter (fun u => Cert.ReferenceIdeal.scatter_S100000x2_S3300000x1_S3300000x2_1_0_0_1.resultIdx? u
          (rawCol (edgeDst ei)) = some (ix2 n j)) := rfl

/-- x W1 is real when x and W1 are. -/
theorem xw_real (hx : ∀ i, IsReal (x i)) (hW1 : ∀ i, IsReal (W1 i)) (i : S100000x16.Idx) : IsReal (xw x W1 i) := by
  obtain ⟨n, j, rfl⟩ : ∃ (n : Fin 100000) (j : Fin 16), i = ix2 n j := ⟨i 0, i 1, eq_ix2 i⟩
  rw [xw_apply]
  exact IsReal.sum _ _ fun k _ => (hx _).mul (hW1 _)

/-- THE FIRST AGGREGATION in both arrangements. -/
theorem layer1 (hx : ∀ i, IsReal (x i)) (hW1 : ∀ i, IsReal (W1 i))
    (hg1 : ∀ (n : Fin 100000) (j : Fin 16), g1 (ix2 n j) = dinvCol ei (ix2 n (0 : Fin 1)) * ∑ k : Fin 128, x (ix2 n k) * W1 (ix2 k j))
    (n : Fin 100000) (j : Fin 16) :
    D ei n * agg16 ei g1 (ix2 n j)
        = 0 + ∑ u ∈ landing scatter_S100000x16_S3300000x1_S3300000x16_1_0_0_1_wf (rawCol (edgeDst ei)) n j, upd16 ei (xw x W1) u
      ∧ IsReal (0 + ∑ u ∈ landing scatter_S100000x16_S3300000x1_S3300000x16_1_0_0_1_wf (rawCol (edgeDst ei)) n j, upd16 ei (xw x W1) u) := by
  rw [agg16_apply]
  exact layer scatter_S100000x16_S3300000x1_S3300000x16_1_0_0_1_wf (rawCol (edgeDst ei)) (srcRow ei) (tR ei) (D ei)
    (xw x W1) (gath16 ei g1) (upd16 ei (xw x W1)) (D_real ei) (xw_real x W1 hx hW1)
    (fun e k => by rw [gath16_apply, hg1, dCol_eq, xw_apply])
    (fun e k => by rw [upd16_apply, norm_apply]; rfl)
    (fun e n h => lands_target ei e n h) n j

/-- The first convolution's entries are real. -/
theorem conv16_real (hx : ∀ i, IsReal (x i)) (hW1 : ∀ i, IsReal (W1 i)) (hb1 : ∀ i, IsReal (b1 i))
    (hg1 : ∀ (n : Fin 100000) (j : Fin 16), g1 (ix2 n j) = dinvCol ei (ix2 n (0 : Fin 1)) * ∑ k : Fin 128, x (ix2 n k) * W1 (ix2 k j))
    (n : Fin 100000) (j : Fin 16) : IsReal (Cert.ReferenceIdeal.Stages.conv16 ei (xw x W1) b1 (ix2 n j)) := by
  rw [conv16_apply, ← landing16_eq]
  exact (layer1 x ei W1 g1 hx hW1 hg1 n j).2.add (hb1 _)

/-- THE HIDDEN LAYER agrees entry by entry. -/
theorem hidden_eq (hx : ∀ i, IsReal (x i)) (hW1 : ∀ i, IsReal (W1 i))
    (hg1 : ∀ (n : Fin 100000) (j : Fin 16), g1 (ix2 n j) = dinvCol ei (ix2 n (0 : Fin 1)) * ∑ k : Fin 128, x (ix2 n k) * W1 (ix2 k j))
    (n : Fin 100000) (k : Fin 16) :
    max (dinvCol ei (ix2 n (0 : Fin 1)) * agg16 ei g1 (ix2 n k) + biasRow16 b1 (ix2 (0 : Fin 1) k)) 0
      = Cert.ReferenceIdeal.Stages.hidden x ei W1 b1 (ix2 n k) := by
  rw [dCol_eq, (layer1 x ei W1 g1 hx hW1 hg1 n k).1, biasRow16_apply, hidden_apply, conv16_apply, ← landing16_eq]

theorem hidden_real (hx : ∀ i, IsReal (x i)) (hW1 : ∀ i, IsReal (W1 i)) (hb1 : ∀ i, IsReal (b1 i))
    (hg1 : ∀ (n : Fin 100000) (j : Fin 16), g1 (ix2 n j) = dinvCol ei (ix2 n (0 : Fin 1)) * ∑ k : Fin 128, x (ix2 n k) * W1 (ix2 k j))
    (i : S100000x16.Idx) : IsReal (Cert.ReferenceIdeal.Stages.hidden x ei W1 b1 i) := by
  obtain ⟨n, j, rfl⟩ : ∃ (n : Fin 100000) (j : Fin 16), i = ix2 n j := ⟨i 0, i 1, eq_ix2 i⟩
  rw [hidden_apply]
  exact (conv16_real x ei W1 b1 g1 hx hW1 hb1 hg1 n j).max IsReal.zero

/-- hidden W2 is real. -/
theorem hw_real (hx : ∀ i, IsReal (x i)) (hW1 : ∀ i, IsReal (W1 i)) (hb1 : ∀ i, IsReal (b1 i)) (hW2 : ∀ i, IsReal (W2 i))
    (hg1 : ∀ (n : Fin 100000) (j : Fin 16), g1 (ix2 n j) = dinvCol ei (ix2 n (0 : Fin 1)) * ∑ k : Fin 128, x (ix2 n k) * W1 (ix2 k j))
    (i : S100000x2.Idx) : IsReal (hw (Cert.ReferenceIdeal.Stages.hidden x ei W1 b1) W2 i) := by
  obtain ⟨n, j, rfl⟩ : ∃ (n : Fin 100000) (j : Fin 2), i = ix2 n j := ⟨i 0, i 1, eq_ix2 i⟩
  rw [hw_apply]
  exact IsReal.sum _ _ fun k _ => (hidden_real x ei W1 b1 g1 hx hW1 hb1 hg1 _).mul (hW2 _)

/-- THE SECOND AGGREGATION in both arrangements. -/
theorem layer2 (hx : ∀ i, IsReal (x i)) (hW1 : ∀ i, IsReal (W1 i)) (hb1 : ∀ i, IsReal (b1 i)) (hW2 : ∀ i, IsReal (W2 i))
    (hg1 : ∀ (n : Fin 100000) (j : Fin 16), g1 (ix2 n j) = dinvCol ei (ix2 n (0 : Fin 1)) * ∑ k : Fin 128, x (ix2 n k) * W1 (ix2 k j))
    (hg2 : ∀ (n : Fin 100000) (j : Fin 2), g2 (ix2 n j) = dinvCol ei (ix2 n (0 : Fin 1)) * ∑ k : Fin 16,
      max (dinvCol ei (ix2 n (0 : Fin 1)) * agg16 ei g1 (ix2 n k) + biasRow16 b1 (ix2 (0 : Fin 1) k)) 0 * W2 (ix2 k j))
    (n : Fin 100000) (j : Fin 2) :
    D ei n * agg2 ei g2 (ix2 n j)
      = 0 + ∑ u ∈ landing scatter_S100000x2_S3300000x1_S3300000x2_1_0_0_1_wf (rawCol (edgeDst ei)) n j,
          upd2 ei (hw (Cert.ReferenceIdeal.Stages.hidden x ei W1 b1) W2) u := by
  rw [agg2_apply]
  refine (layer scatter_S100000x2_S3300000x1_S3300000x2_1_0_0_1_wf (rawCol (edgeDst ei)) (srcRow ei) (tR ei) (D ei)
    (hw (Cert.ReferenceIdeal.Stages.hidden x ei W1 b1) W2) (gath2 ei g2) (upd2 ei (hw (Cert.ReferenceIdeal.Stages.hidden x ei W1 b1) W2))
    (D_real ei) (hw_real x ei W1 b1 W2 g1 hx hW1 hb1 hW2 hg1)
    (fun e k => ?_)
    (fun e k => by rw [upd2_apply, norm_apply]; rfl)
    (fun e n h => lands_target ei e n h) n j).1
  rw [gath2_apply, hg2, dCol_eq, hw_apply]
  exact congrArg (D ei (srcRow ei e) * ·) (Finset.sum_congr rfl fun k' _ => by rw [← dCol_eq ei, hidden_eq x ei W1 b1 g1 hx hW1 hg1])

/-- THE LOGITS agree entry by entry. -/
theorem logits_eq_entry (hx : ∀ i, IsReal (x i)) (hW1 : ∀ i, IsReal (W1 i)) (hb1 : ∀ i, IsReal (b1 i)) (hW2 : ∀ i, IsReal (W2 i))
    (hg1 : ∀ (n : Fin 100000) (j : Fin 16), g1 (ix2 n j) = dinvCol ei (ix2 n (0 : Fin 1)) * ∑ k : Fin 128, x (ix2 n k) * W1 (ix2 k j))
    (hg2 : ∀ (n : Fin 100000) (j : Fin 2), g2 (ix2 n j) = dinvCol ei (ix2 n (0 : Fin 1)) * ∑ k : Fin 16,
      max (dinvCol ei (ix2 n (0 : Fin 1)) * agg16 ei g1 (ix2 n k) + biasRow16 b1 (ix2 (0 : Fin 1) k)) 0 * W2 (ix2 k j))
    (n : Fin 100000) (j : Fin 2) :
    dinvCol ei (ix2 n (0 : Fin 1)) * agg2 ei g2 (ix2 n j) + biasRow2 b2 (ix2 (0 : Fin 1) j)
      = Cert.ReferenceIdeal.Stages.logits x ei W1 b1 W2 b2 (ix2 n j) := by
  rw [dCol_eq, layer2 x ei W1 b1 W2 g1 g2 hx hW1 hb1 hW2 hg1 hg2 n j, biasRow2_apply, logits_eq, conv2_apply, ← landing2_eq]

/-- THE RESULTS agree: the kernel's output array is the reference's. -/
theorem kernel_eq_ref (hx : ∀ i, IsReal (x i)) (hW1 : ∀ i, IsReal (W1 i)) (hb1 : ∀ i, IsReal (b1 i)) (hW2 : ∀ i, IsReal (W2 i))
    (hg1 : ∀ (n : Fin 100000) (j : Fin 16), g1 (ix2 n j) = dinvCol ei (ix2 n (0 : Fin 1)) * ∑ k : Fin 128, x (ix2 n k) * W1 (ix2 k j))
    (hg2 : ∀ (n : Fin 100000) (j : Fin 2), g2 (ix2 n j) = dinvCol ei (ix2 n (0 : Fin 1)) * ∑ k : Fin 16,
      max (dinvCol ei (ix2 n (0 : Fin 1)) * agg16 ei g1 (ix2 n k) + biasRow16 b1 (ix2 (0 : Fin 1) k)) 0 * W2 (ix2 k j))
    (hout : ∀ (n : Fin 100000) (j : Fin 2), kout (ix2 n j) = Cert.RowLsm.lsm (a := 100000) (b := 2)
      (fun i => dinvCol ei (ix2 (i 0) (0 : Fin 1)) * agg2 ei g2 i + biasRow2 b2 (ix2 (0 : Fin 1) (i 1))) n j) :
    kout = Cert.ReferenceIdeal.Stages.refOut x ei W1 b1 W2 b2 := by
  funext i
  obtain ⟨n, j, rfl⟩ : ∃ (n : Fin 100000) (j : Fin 2), i = ix2 n j := ⟨i 0, i 1, eq_ix2 i⟩
  rw [hout, show Cert.ReferenceIdeal.Stages.refOut x ei W1 b1 W2 b2
      = Cert.ReferenceIdeal.Stages.logSoftmax (Cert.ReferenceIdeal.Stages.logits x ei W1 b1 W2 b2) from rfl, logSoftmax_apply]
  refine congrArg (fun Y => Cert.RowLsm.lsm (a := 100000) (b := 2) Y n j) (funext fun i' => ?_)
  obtain ⟨n', j', rfl⟩ : ∃ (n' : Fin 100000) (j' : Fin 2), i' = ix2 n' j' := ⟨i' 0, i' 1, eq_ix2 i'⟩
  exact logits_eq_entry x ei W1 b1 W2 b2 g1 g2 hx hW1 hb1 hW2 hg1 hg2 n' j'

end Cert.Bridge

end
-- ==== Proof.RefRun.lean ====
/-
  The run of the reference program, read back.

  The reference computes a two-layer graph convolution followed by a row-wise log-softmax as a straight line of 131
  array operations (its four function calls written out in place). A straight line of array operations always
  terminates, and what each buffer holds at the end is the fold of the operations' results over the launch contents:
  every operation overwrites its own result buffer with its function applied to the contents of its operand buffers
  and leaves every other buffer alone. Folding the 131 operations from the six argument buffers gives, at the result
  buffer, the composition of the named stages of `Stages.refOut` — degree, inverse square root of the degree, edge
  weights, the two aggregations, and the shifted log-softmax — applied to the arguments' launch contents; the six
  argument buffers are written by no operation and so keep their launch contents.
-/
import proofs.«111893_j73220602462645_2_alg».proof.Proof.Gen.ReferenceIdeal
import proofs.«111893_j73220602462645_2_alg».proof.Proof.RefStages
import Idealize.ShloMosaic.Lib.StableHlo.Run
import Idealize.ShloMosaic.PureOps.Ideal

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 131 operations, in order (a called function's operations stand in its call's place, spelt `TRef.…`). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x2_S100000x2_1_0_0_1_n_n none l r) : (⟨S100000x16, .f32⟩ : BufTy).Contents (Elt F) → (⟨S16x2, .f32⟩ : BufTy).Contents (Elt F) → (⟨S100000x2, .f32⟩ : BufTy).Contents (Elt F)),
    nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x2_S3300000x1_S3300000x2_1_0_n_n_0_1_12 x i) : (⟨S100000x2, .f32⟩ : BufTy).Contents (Elt F) → (⟨S3300000x1, .i32⟩ : BufTy).Contents (Elt F) → (⟨S3300000x2, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x2 ![0, 1] bcast_S3300000x1_S3300000x2_0_1 : (⟨S3300000x1, .f32⟩ : BufTy).Contents (Elt F) → (⟨S3300000x2, .f32⟩ : BufTy).Contents (Elt F)),
    binary main_v78 main_v80 main_v81 (mulf : (⟨S3300000x2, .f32⟩ : BufTy).Contents (Elt F) → (⟨S3300000x2, .f32⟩ : BufTy).Contents (Elt F) → (⟨S3300000x2, .f32⟩ : BufTy).Contents (Elt F)),
    nullary main_cst_19 (constant S_ .f32 0x00000000#32),
    unary main_cst_19 main_v82 (broadcastInDim S100000x2 ![] bcast_S_S100000x2 : (⟨S_, .f32⟩ : BufTy).Contents (Elt F) → (⟨S100000x2, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x2_S3300000x1_S3300000x2_1_0_0_1 x i u) : (⟨S100000x2, .f32⟩ : BufTy).Contents (Elt F) → (⟨S3300000x1, .i32⟩ : BufTy).Contents (Elt F) → (⟨S3300000x2, .f32⟩ : BufTy).Contents (Elt F) → (⟨S100000x2, .f32⟩ : BufTy).Contents (Elt F)),
    unary main_arg5 main_v85 (broadcastInDim S1x2 ![1] bcast_S2_S1x2_1 : (⟨S2, .f32⟩ : BufTy).Contents (Elt F) → (⟨S1x2, .f32⟩ : BufTy).Contents (Elt F)),
    unary main_v85 main_v86 (broadcastInDim S100000x2 ![0, 1] bcast_S1x2_S100000x2_0_1 : (⟨S1x2, .f32⟩ : BufTy).Contents (Elt F) → (⟨S100000x2, .f32⟩ : BufTy).Contents (Elt F)),
    binary main_v84 main_v86 main_v87 (addf : (⟨S100000x2, .f32⟩ : BufTy).Contents (Elt F) → (⟨S100000x2, .f32⟩ : BufTy).Contents (Elt F) → (⟨S100000x2, .f32⟩ : BufTy).Contents (Elt F)),
    TRef.nullary (TRef.of (T := ⟨S_, .f32⟩) main_call3_cst) (constant S_ .f32 0xFF800000#32),
    TRef.binary (TRef.of (T := ⟨S100000x2, .f32⟩) main_v87) (TRef.of (T := ⟨S_, .f32⟩) main_call3_cst) (TRef.of (T := ⟨S100000, .f32⟩) main_call3_v0) (fun x v => Host.reduce FloatOps.maximumf x v reducesTo_S100000x2_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x2, .f32⟩) main_call3_v4) (broadcastInDim S100000x2 ![0, 1] bcast_S100000x1_S100000x2_0_1),
    TRef.binary (TRef.of (T := ⟨S100000x2, .f32⟩) main_v87) (TRef.of (T := ⟨S100000x2, .f32⟩) main_call3_v4) (TRef.of (T := ⟨S100000x2, .f32⟩) main_call3_v5) subf,
    TRef.unary (TRef.of (T := ⟨S100000x2, .f32⟩) main_call3_v5) (TRef.of (T := ⟨S100000x2, .f32⟩) main_call3_v6) Host.exp,
    TRef.nullary (TRef.of (T := ⟨S_, .f32⟩) main_call3_cst_1) (constant S_ .f32 0x00000000#32),
    TRef.binary (TRef.of (T := ⟨S100000x2, .f32⟩) main_call3_v6) (TRef.of (T := ⟨S_, .f32⟩) main_call3_cst_1) (TRef.of (T := ⟨S100000, .f32⟩) main_call3_v7) (fun x v => Host.reduceAdd x v reducesTo_S100000x2_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x2, .f32⟩) main_call3_v10) (broadcastInDim S100000x2 ![0, 1] bcast_S100000x1_S100000x2_0_1),
    TRef.binary (TRef.of (T := ⟨S100000x2, .f32⟩) main_call3_v5) (TRef.of (T := ⟨S100000x2, .f32⟩) main_call3_v10) (TRef.of (T := ⟨S100000x2, .f32⟩) main_v88) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Two arrays joined end to end along their one axis: 3200000 entries followed by 100000 (a row of the edge list
    followed by the node numbers). Named so that the two parts are ordinary arguments of one function. -/
def cat2 {α : Type} (a : S3200000.Idx → α) (b : S100000.Idx → α) : S3300000.Idx → α :=
  concatenate S3300000 0 [⟨S3200000, a⟩, ⟨S100000, b⟩] concatenates_S3200000_S100000_S3300000_d0

/-- The join of two parts is `cat2` of the parts, by definition. -/
theorem cat2_fold {α : Type} (a : S3200000.Idx → α) (b : S100000.Idx → α) :
    concatenate S3300000 0 [⟨S3200000, a⟩, ⟨S100000, b⟩] concatenates_S3200000_S100000_S3300000_d0 = cat2 a b := rfl

/-! Contents at a called function's value type and contents of the buffer that holds the value are the same array:
    the transport between the two types is the identity at each of the 32 buffers the four calls use. -/

theorem toBuf_main_cst_2 (h1 h2 h3) (v : (⟨S_, .f32⟩ : BufTy).Contents (Elt Ideal)) :
    (TRef.of (sig := sig) (T := ⟨S_, .f32⟩) main_cst_2 h1 h2 h3).toBuf (Val := Elt Ideal) v = v := rfl
theorem ofBuf_main_cst_2 (h1 h2 h3) (v : (⟨S_, .f32⟩ : BufTy).Contents (Elt Ideal)) :
    (TRef.of (sig := sig) (T := ⟨S_, .f32⟩) main_cst_2 h1 h2 h3).ofBuf (Val := Elt Ideal) v = v := rfl
theorem toBuf_main_call0_v0 (h1 h2 h3) (v : (⟨S_, .f32⟩ : BufTy).Contents (Elt Ideal)) :
    (TRef.of (sig := sig) (T := ⟨S_, .f32⟩) main_call0_v0 h1 h2 h3).toBuf (Val := Elt Ideal) v = v := rfl
theorem ofBuf_main_call0_v0 (h1 h2 h3) (v : (⟨S_, .f32⟩ : BufTy).Contents (Elt Ideal)) :
    (TRef.of (sig := sig) (T := ⟨S_, .f32⟩) main_call0_v0 h1 h2 h3).ofBuf (Val := Elt Ideal) v = v := rfl
theorem toBuf_main_call0_v1 (h1 h2 h3) (v : (⟨S100000, .f32⟩ : BufTy).Contents (Elt Ideal)) :
    (TRef.of (sig := sig) (T := ⟨S100000, .f32⟩) main_call0_v1 h1 h2 h3).toBuf (Val := Elt Ideal) v = v := rfl
theorem ofBuf_main_call0_v1 (h1 h2 h3) (v : (⟨S100000, .f32⟩ : BufTy).Contents (Elt Ideal)) :
    (TRef.of (sig := sig) (T := ⟨S100000, .f32⟩) main_call0_v1 h1 h2 h3).ofBuf (Val := Elt Ideal) v = v := rfl
theorem toBuf_main_v13 (h1 h2 h3) (v : (⟨S100000, .i1⟩ : BufTy).Contents (Elt Ideal)) :
    (TRef.of (sig := sig) (T := ⟨S100000, .i1⟩) main_v13 h1 h2 h3).toBuf (Val := Elt Ideal) v = v := rfl
theorem ofBuf_main_v13 (h1 h2 h3) (v : (⟨S100000, .i1⟩ : BufTy).Contents (Elt Ideal)) :
    (TRef.of (sig := sig) (T := ⟨S100000, .i1⟩) main_v13 h1 h2 h3).ofBuf (Val := Elt Ideal) v = v := rfl
theorem toBuf_main_v14 (h1 h2 h3) (v : (⟨S100000, .f32⟩ : BufTy).Contents (Elt Ideal)) :
    (TRef.of (sig := sig) (T := ⟨S100000, .f32⟩) main_v14 h1 h2 h3).toBuf (Val := Elt Ideal) v = v := rfl
theorem ofBuf_main_v14 (h1 h2 h3) (v : (⟨S100000, .f32⟩ : BufTy).Contents (Elt Ideal)) :
    (TRef.of (sig := sig) (T := ⟨S100000, .f32⟩) main_v14 h1 h2 h3).ofBuf (Val := Elt Ideal) v = v := rfl
theorem toBuf_main_v15 (h1 h2 h3) (v : (⟨S100000, .f32⟩ : BufTy).Contents (Elt Ideal)) :
    (TRef.of (sig := sig) (T := ⟨S100000, .f32⟩) main_v15 h1 h2 h3).toBuf (Val := Elt Ideal) v = v := rfl
theorem ofBuf_main_v15 (h1 h2 h3) (v : (⟨S100000, .f32⟩ : BufTy).Contents (Elt Ideal)) :
    (TRef.of (sig := sig) (T := ⟨S100000, .f32⟩) main_v15 h1 h2 h3).ofBuf (Val := Elt Ideal) v = v := rfl
theorem toBuf_main_call1_cst (h1 h2 h3) (v : (⟨S_, .f32⟩ : BufTy).Contents (Elt Ideal)) :
    (TRef.of (sig := sig) (T := ⟨S_, .f32⟩) main_call1_cst h1 h2 h3).toBuf (Val := Elt Ideal) v = v := rfl
theorem ofBuf_main_call1_cst (h1 h2 h3) (v : (⟨S_, .f32⟩ : BufTy).Contents (Elt Ideal)) :
    (TRef.of (sig := sig) (T := ⟨S_, .f32⟩) main_call1_cst h1 h2 h3).ofBuf (Val := Elt Ideal) v = v := rfl
theorem toBuf_main_call1_v0 (h1 h2 h3) (v : (⟨S100000x16, .f32⟩ : BufTy).Contents (Elt Ideal)) :
    (TRef.of (sig := sig) (T := ⟨S100000x16, .f32⟩) main_call1_v0 h1 h2 h3).toBuf (Val := Elt Ideal) v = v := rfl
theorem ofBuf_main_call1_v0 (h1 h2 h3) (v : (⟨S100000x16, .f32⟩ : BufTy).Contents (Elt Ideal)) :
    (TRef.of (sig := sig) (T := ⟨S100000x16, .f32⟩) main_call1_v0 h1 h2 h3).ofBuf (Val := Elt Ideal) v = v := rfl
theorem toBuf_main_v46 (h1 h2 h3) (v : (⟨S100000x16, .f32⟩ : BufTy).Contents (Elt Ideal)) :
    (TRef.of (sig := sig) (T := ⟨S100000x16, .f32⟩) main_v46 h1 h2 h3).toBuf (Val := Elt Ideal) v = v := rfl
theorem ofBuf_main_v46 (h1 h2 h3) (v : (⟨S100000x16, .f32⟩ : BufTy).Contents (Elt Ideal)) :
    (TRef.of (sig := sig) (T := ⟨S100000x16, .f32⟩) main_v46 h1 h2 h3).ofBuf (Val := Elt Ideal) v = v := rfl
theorem toBuf_main_v47 (h1 h2 h3) (v : (⟨S100000x16, .f32⟩ : BufTy).Contents (Elt Ideal)) :
    (TRef.of (sig := sig) (T := ⟨S100000x16, .f32⟩) main_v47 h1 h2 h3).toBuf (Val := Elt Ideal) v = v := rfl
theorem ofBuf_main_v47 (h1 h2 h3) (v : (⟨S100000x16, .f32⟩ : BufTy).Contents (Elt Ideal)) :
    (TRef.of (sig := sig) (T := ⟨S100000x16, .f32⟩) main_v47 h1 h2 h3).ofBuf (Val := Elt Ideal) v = v := rfl
theorem toBuf_main_cst_12 (h1 h2 h3) (v : (⟨S_, .f32⟩ : BufTy).Contents (Elt Ideal)) :
    (TRef.of (sig := sig) (T := ⟨S_, .f32⟩) main_cst_12 h1 h2 h3).toBuf (Val := Elt Ideal) v = v := rfl
theorem ofBuf_main_cst_12 (h1 h2 h3) (v : (⟨S_, .f32⟩ : BufTy).Contents (Elt Ideal)) :
    (TRef.of (sig := sig) (T := ⟨S_, .f32⟩) main_cst_12 h1 h2 h3).ofBuf (Val := Elt Ideal) v = v := rfl
theorem toBuf_main_call2_v0 (h1 h2 h3) (v : (⟨S_, .f32⟩ : BufTy).Contents (Elt Ideal)) :
    (TRef.of (sig := sig) (T := ⟨S_, .f32⟩) main_call2_v0 h1 h2 h3).toBuf (Val := Elt Ideal) v = v := rfl
theorem ofBuf_main_call2_v0 (h1 h2 h3) (v : (⟨S_, .f32⟩ : BufTy).Contents (Elt Ideal)) :
    (TRef.of (sig := sig) (T := ⟨S_, .f32⟩) main_call2_v0 h1 h2 h3).ofBuf (Val := Elt Ideal) v = v := rfl
theorem toBuf_main_call2_v1 (h1 h2 h3) (v : (⟨S100000, .f32⟩ : BufTy).Contents (Elt Ideal)) :
    (TRef.of (sig := sig) (T := ⟨S100000, .f32⟩) main_call2_v1 h1 h2 h3).toBuf (Val := Elt Ideal) v = v := rfl
theorem ofBuf_main_call2_v1 (h1 h2 h3) (v : (⟨S100000, .f32⟩ : BufTy).Contents (Elt Ideal)) :
    (TRef.of (sig := sig) (T := ⟨S100000, .f32⟩) main_call2_v1 h1 h2 h3).ofBuf (Val := Elt Ideal) v = v := rfl
theorem toBuf_main_v54 (h1 h2 h3) (v : (⟨S100000, .i1⟩ : BufTy).Contents (Elt Ideal)) :
    (TRef.of (sig := sig) (T := ⟨S100000, .i1⟩) main_v54 h1 h2 h3).toBuf (Val := Elt Ideal) v = v := rfl
theorem ofBuf_main_v54 (h1 h2 h3) (v : (⟨S100000, .i1⟩ : BufTy).Contents (Elt Ideal)) :
    (TRef.of (sig := sig) (T := ⟨S100000, .i1⟩) main_v54 h1 h2 h3).ofBuf (Val := Elt Ideal) v = v := rfl
theorem toBuf_main_v55 (h1 h2 h3) (v : (⟨S100000, .f32⟩ : BufTy).Contents (Elt Ideal)) :
    (TRef.of (sig := sig) (T := ⟨S100000, .f32⟩) main_v55 h1 h2 h3).toBuf (Val := Elt Ideal) v = v := rfl
theorem ofBuf_main_v55 (h1 h2 h3) (v : (⟨S100000, .f32⟩ : BufTy).Contents (Elt Ideal)) :
    (TRef.of (sig := sig) (T := ⟨S100000, .f32⟩) main_v55 h1 h2 h3).ofBuf (Val := Elt Ideal) v = v := rfl
theorem toBuf_main_v56 (h1 h2 h3) (v : (⟨S100000, .f32⟩ : BufTy).Contents (Elt Ideal)) :
    (TRef.of (sig := sig) (T := ⟨S100000, .f32⟩) main_v56 h1 h2 h3).toBuf (Val := Elt Ideal) v = v := rfl
theorem ofBuf_main_v56 (h1 h2 h3) (v : (⟨S100000, .f32⟩ : BufTy).Contents (Elt Ideal)) :
    (TRef.of (sig := sig) (T := ⟨S100000, .f32⟩) main_v56 h1 h2 h3).ofBuf (Val := Elt Ideal) v = v := rfl
theorem toBuf_main_call3_cst (h1 h2 h3) (v : (⟨S_, .f32⟩ : BufTy).Contents (Elt Ideal)) :
    (TRef.of (sig := sig) (T := ⟨S_, .f32⟩) main_call3_cst h1 h2 h3).toBuf (Val := Elt Ideal) v = v := rfl
theorem ofBuf_main_call3_cst (h1 h2 h3) (v : (⟨S_, .f32⟩ : BufTy).Contents (Elt Ideal)) :
    (TRef.of (sig := sig) (T := ⟨S_, .f32⟩) main_call3_cst h1 h2 h3).ofBuf (Val := Elt Ideal) v = v := rfl
theorem toBuf_main_v87 (h1 h2 h3) (v : (⟨S100000x2, .f32⟩ : BufTy).Contents (Elt Ideal)) :
    (TRef.of (sig := sig) (T := ⟨S100000x2, .f32⟩) main_v87 h1 h2 h3).toBuf (Val := Elt Ideal) v = v := rfl
theorem ofBuf_main_v87 (h1 h2 h3) (v : (⟨S100000x2, .f32⟩ : BufTy).Contents (Elt Ideal)) :
    (TRef.of (sig := sig) (T := ⟨S100000x2, .f32⟩) main_v87 h1 h2 h3).ofBuf (Val := Elt Ideal) v = v := rfl
theorem toBuf_main_call3_v0 (h1 h2 h3) (v : (⟨S100000, .f32⟩ : BufTy).Contents (Elt Ideal)) :
    (TRef.of (sig := sig) (T := ⟨S100000, .f32⟩) main_call3_v0 h1 h2 h3).toBuf (Val := Elt Ideal) v = v := rfl
theorem ofBuf_main_call3_v0 (h1 h2 h3) (v : (⟨S100000, .f32⟩ : BufTy).Contents (Elt Ideal)) :
    (TRef.of (sig := sig) (T := ⟨S100000, .f32⟩) main_call3_v0 h1 h2 h3).ofBuf (Val := Elt Ideal) v = v := rfl
theorem toBuf_main_call3_cst_0 (h1 h2 h3) (v : (⟨S_, .f32⟩ : BufTy).Contents (Elt Ideal)) :
    (TRef.of (sig := sig) (T := ⟨S_, .f32⟩) main_call3_cst_0 h1 h2 h3).toBuf (Val := Elt Ideal) v = v := rfl
theorem ofBuf_main_call3_cst_0 (h1 h2 h3) (v : (⟨S_, .f32⟩ : BufTy).Contents (Elt Ideal)) :
    (TRef.of (sig := sig) (T := ⟨S_, .f32⟩) main_call3_cst_0 h1 h2 h3).ofBuf (Val := Elt Ideal) v = v := rfl
theorem toBuf_main_call3_v1 (h1 h2 h3) (v : (⟨S100000, .f32⟩ : BufTy).Contents (Elt Ideal)) :
    (TRef.of (sig := sig) (T := ⟨S100000, .f32⟩) main_call3_v1 h1 h2 h3).toBuf (Val := Elt Ideal) v = v := rfl
theorem ofBuf_main_call3_v1 (h1 h2 h3) (v : (⟨S100000, .f32⟩ : BufTy).Contents (Elt Ideal)) :
    (TRef.of (sig := sig) (T := ⟨S100000, .f32⟩) main_call3_v1 h1 h2 h3).ofBuf (Val := Elt Ideal) v = v := rfl
theorem toBuf_main_call3_v2 (h1 h2 h3) (v : (⟨S100000, .f32⟩ : BufTy).Contents (Elt Ideal)) :
    (TRef.of (sig := sig) (T := ⟨S100000, .f32⟩) main_call3_v2 h1 h2 h3).toBuf (Val := Elt Ideal) v = v := rfl
theorem ofBuf_main_call3_v2 (h1 h2 h3) (v : (⟨S100000, .f32⟩ : BufTy).Contents (Elt Ideal)) :
    (TRef.of (sig := sig) (T := ⟨S100000, .f32⟩) main_call3_v2 h1 h2 h3).ofBuf (Val := Elt Ideal) v = v := rfl
theorem toBuf_main_call3_v3 (h1 h2 h3) (v : (⟨S100000x1, .f32⟩ : BufTy).Contents (Elt Ideal)) :
    (TRef.of (sig := sig) (T := ⟨S100000x1, .f32⟩) main_call3_v3 h1 h2 h3).toBuf (Val := Elt Ideal) v = v := rfl
theorem ofBuf_main_call3_v3 (h1 h2 h3) (v : (⟨S100000x1, .f32⟩ : BufTy).Contents (Elt Ideal)) :
    (TRef.of (sig := sig) (T := ⟨S100000x1, .f32⟩) main_call3_v3 h1 h2 h3).ofBuf (Val := Elt Ideal) v = v := rfl
theorem toBuf_main_call3_v4 (h1 h2 h3) (v : (⟨S100000x2, .f32⟩ : BufTy).Contents (Elt Ideal)) :
    (TRef.of (sig := sig) (T := ⟨S100000x2, .f32⟩) main_call3_v4 h1 h2 h3).toBuf (Val := Elt Ideal) v = v := rfl
theorem ofBuf_main_call3_v4 (h1 h2 h3) (v : (⟨S100000x2, .f32⟩ : BufTy).Contents (Elt Ideal)) :
    (TRef.of (sig := sig) (T := ⟨S100000x2, .f32⟩) main_call3_v4 h1 h2 h3).ofBuf (Val := Elt Ideal) v = v := rfl
theorem toBuf_main_call3_v5 (h1 h2 h3) (v : (⟨S100000x2, .f32⟩ : BufTy).Contents (Elt Ideal)) :
    (TRef.of (sig := sig) (T := ⟨S100000x2, .f32⟩) main_call3_v5 h1 h2 h3).toBuf (Val := Elt Ideal) v = v := rfl
theorem ofBuf_main_call3_v5 (h1 h2 h3) (v : (⟨S100000x2, .f32⟩ : BufTy).Contents (Elt Ideal)) :
    (TRef.of (sig := sig) (T := ⟨S100000x2, .f32⟩) main_call3_v5 h1 h2 h3).ofBuf (Val := Elt Ideal) v = v := rfl
theorem toBuf_main_call3_v6 (h1 h2 h3) (v : (⟨S100000x2, .f32⟩ : BufTy).Contents (Elt Ideal)) :
    (TRef.of (sig := sig) (T := ⟨S100000x2, .f32⟩) main_call3_v6 h1 h2 h3).toBuf (Val := Elt Ideal) v = v := rfl
theorem ofBuf_main_call3_v6 (h1 h2 h3) (v : (⟨S100000x2, .f32⟩ : BufTy).Contents (Elt Ideal)) :
    (TRef.of (sig := sig) (T := ⟨S100000x2, .f32⟩) main_call3_v6 h1 h2 h3).ofBuf (Val := Elt Ideal) v = v := rfl
theorem toBuf_main_call3_cst_1 (h1 h2 h3) (v : (⟨S_, .f32⟩ : BufTy).Contents (Elt Ideal)) :
    (TRef.of (sig := sig) (T := ⟨S_, .f32⟩) main_call3_cst_1 h1 h2 h3).toBuf (Val := Elt Ideal) v = v := rfl
theorem ofBuf_main_call3_cst_1 (h1 h2 h3) (v : (⟨S_, .f32⟩ : BufTy).Contents (Elt Ideal)) :
    (TRef.of (sig := sig) (T := ⟨S_, .f32⟩) main_call3_cst_1 h1 h2 h3).ofBuf (Val := Elt Ideal) v = v := rfl
theorem toBuf_main_call3_v7 (h1 h2 h3) (v : (⟨S100000, .f32⟩ : BufTy).Contents (Elt Ideal)) :
    (TRef.of (sig := sig) (T := ⟨S100000, .f32⟩) main_call3_v7 h1 h2 h3).toBuf (Val := Elt Ideal) v = v := rfl
theorem ofBuf_main_call3_v7 (h1 h2 h3) (v : (⟨S100000, .f32⟩ : BufTy).Contents (Elt Ideal)) :
    (TRef.of (sig := sig) (T := ⟨S100000, .f32⟩) main_call3_v7 h1 h2 h3).ofBuf (Val := Elt Ideal) v = v := rfl
theorem toBuf_main_call3_v8 (h1 h2 h3) (v : (⟨S100000x1, .f32⟩ : BufTy).Contents (Elt Ideal)) :
    (TRef.of (sig := sig) (T := ⟨S100000x1, .f32⟩) main_call3_v8 h1 h2 h3).toBuf (Val := Elt Ideal) v = v := rfl
theorem ofBuf_main_call3_v8 (h1 h2 h3) (v : (⟨S100000x1, .f32⟩ : BufTy).Contents (Elt Ideal)) :
    (TRef.of (sig := sig) (T := ⟨S100000x1, .f32⟩) main_call3_v8 h1 h2 h3).ofBuf (Val := Elt Ideal) v = v := rfl
theorem toBuf_main_call3_v9 (h1 h2 h3) (v : (⟨S100000x1, .f32⟩ : BufTy).Contents (Elt Ideal)) :
    (TRef.of (sig := sig) (T := ⟨S100000x1, .f32⟩) main_call3_v9 h1 h2 h3).toBuf (Val := Elt Ideal) v = v := rfl
theorem ofBuf_main_call3_v9 (h1 h2 h3) (v : (⟨S100000x1, .f32⟩ : BufTy).Contents (Elt Ideal)) :
    (TRef.of (sig := sig) (T := ⟨S100000x1, .f32⟩) main_call3_v9 h1 h2 h3).ofBuf (Val := Elt Ideal) v = v := rfl
theorem toBuf_main_call3_v10 (h1 h2 h3) (v : (⟨S100000x2, .f32⟩ : BufTy).Contents (Elt Ideal)) :
    (TRef.of (sig := sig) (T := ⟨S100000x2, .f32⟩) main_call3_v10 h1 h2 h3).toBuf (Val := Elt Ideal) v = v := rfl
theorem ofBuf_main_call3_v10 (h1 h2 h3) (v : (⟨S100000x2, .f32⟩ : BufTy).Contents (Elt Ideal)) :
    (TRef.of (sig := sig) (T := ⟨S100000x2, .f32⟩) main_call3_v10 h1 h2 h3).ofBuf (Val := Elt Ideal) v = v := rfl
theorem toBuf_main_v88 (h1 h2 h3) (v : (⟨S100000x2, .f32⟩ : BufTy).Contents (Elt Ideal)) :
    (TRef.of (sig := sig) (T := ⟨S100000x2, .f32⟩) main_v88 h1 h2 h3).toBuf (Val := Elt Ideal) v = v := rfl
theorem ofBuf_main_v88 (h1 h2 h3) (v : (⟨S100000x2, .f32⟩ : BufTy).Contents (Elt Ideal)) :
    (TRef.of (sig := sig) (T := ⟨S100000x2, .f32⟩) main_v88 h1 h2 h3).ofBuf (Val := Elt Ideal) v = v := rfl

attribute [local irreducible] Host.scatterAdd Host.gather Host.reduce Host.reduceAdd Host.rsqrt Host.exp Host.log subf addf mulf maximumf select cmpf cmpi addi broadcastInDim constant constantI extractStridedSlice shapeCast concatenate iotaInDim in
set_option maxRecDepth 8192 in
set_option maxHeartbeats 52400000 in
/-- The fold of the 131 operations over the launch contents, read at the result buffer, is the composition of the
    named stages applied to the six arguments' launch contents. Each operation's result is rewritten to its function
    of its operands' contents, outermost first; what is left is the same composition of the same array operations on
    both sides, compared argument by argument with the operations themselves kept folded. -/
theorem result_eq (m : (ℓ : Loc nD τ sig) → Buf (Elt Ideal) ℓ) (c : Dev nD) :
    after (ops (F := Ideal)) (launchContents m c) (Proc.devRef .tc main_v88)
      = Stages.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  simp (disch := decide) only [after_cons, after_nil,
    nullary_result', unary_result', binary_result', ternary_result', reshape_result',
    nullary_result_ne', unary_result_ne', binary_result_ne', ternary_result_ne', reshape_result_ne', cat2_fold,
    toBuf_main_cst_2, ofBuf_main_cst_2, toBuf_main_call0_v0, ofBuf_main_call0_v0, toBuf_main_call0_v1, ofBuf_main_call0_v1,
    toBuf_main_v13, ofBuf_main_v13, toBuf_main_v14, ofBuf_main_v14, toBuf_main_v15, ofBuf_main_v15, toBuf_main_call1_cst,
    ofBuf_main_call1_cst, toBuf_main_call1_v0, ofBuf_main_call1_v0, toBuf_main_v46, ofBuf_main_v46, toBuf_main_v47,
    ofBuf_main_v47, toBuf_main_cst_12, ofBuf_main_cst_12, toBuf_main_call2_v0, ofBuf_main_call2_v0, toBuf_main_call2_v1,
    ofBuf_main_call2_v1, toBuf_main_v54, ofBuf_main_v54, toBuf_main_v55, ofBuf_main_v55, toBuf_main_v56, ofBuf_main_v56,
    toBuf_main_call3_cst, ofBuf_main_call3_cst, toBuf_main_v87, ofBuf_main_v87, toBuf_main_call3_v0, ofBuf_main_call3_v0,
    toBuf_main_call3_cst_0, ofBuf_main_call3_cst_0, toBuf_main_call3_v1, ofBuf_main_call3_v1, toBuf_main_call3_v2,
    ofBuf_main_call3_v2, toBuf_main_call3_v3, ofBuf_main_call3_v3, toBuf_main_call3_v4, ofBuf_main_call3_v4,
    toBuf_main_call3_v5, ofBuf_main_call3_v5, toBuf_main_call3_v6, ofBuf_main_call3_v6, toBuf_main_call3_cst_1,
    ofBuf_main_call3_cst_1, toBuf_main_call3_v7, ofBuf_main_call3_v7, toBuf_main_call3_v8, ofBuf_main_call3_v8,
    toBuf_main_call3_v9, ofBuf_main_call3_v9, toBuf_main_call3_v10, ofBuf_main_call3_v10, toBuf_main_v88,
    ofBuf_main_v88]
  unfold Stages.refOut Stages.logSoftmax Stages.rowMaxFull Stages.logits Stages.conv2 Stages.hidden Stages.conv16
    Stages.norm Stages.dinv Stages.deg Stages.wrapCol Stages.rawCol Stages.edgeSrc Stages.edgeDst
  rfl

set_option maxRecDepth 8192 in
set_option maxHeartbeats 52400000 in
/-- On every device, from any memory with zero counters: every weakly fair execution of the reference terminates
    with the result buffer at `Stages.refOut` of the six arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88)
        = Stages.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefRun

end
-- ==== Proof.RealInputs.lean ====
import proofs.«111893_j73220602462645_2_alg».proof.Defs
import proofs.«111893_j73220602462645_2_alg».proof.Proof.Gen.Pre_finite_inputs
import proofs.«111893_j73220602462645_2_alg».proof.Proof.LibRealSums
import Idealize.ShloMosaic.Lib.ReduceAll
import Idealize.ShloMosaic.Lib.ValueIdx

/-!
# The float inputs are real numbers

The precondition states, for each of the five float argument arrays, that every
element x satisfies |x| < +∞, where |x| = max x (-x) in the extended reals and
+∞ is the value of the pattern 0x7F800000.  An extended real with |x| < +∞ is
neither +∞ nor -∞, hence a real number.  This file reads the conjunction of the
five "all elements" tests back into that elementwise statement.
-/

noncomputable section

namespace Cert.KernelIdeal.RealInputs

open Idealize.ShloMosaic Idealize.SL.Sem Cert.RealSums

/-- An extended real whose absolute value max x (-x) lies strictly below +∞ is a
real number: at +∞ the maximum is +∞, at -∞ the negation is +∞. -/
theorem isReal_of_abs_lt_top (x : EReal) (h : max x (-x) < ⊤) : IsReal x := by
  induction x using EReal.rec with
  | bot => simp at h
  | coe r => exact ⟨r, rfl⟩
  | top => simp at h

/-- The pattern 0x7F800000 (sign 0, exponent all ones, fraction 0) denotes +∞. -/
theorem ofBits_inf : Ideal.ofBits .f32 0x7F800000#32 = (⊤ : EReal) := by
  simp [Ideal.ofBits, Ideal.ieee]

/-- The elementwise test |x| < +∞ coming out true says x is a real number. -/
theorem isReal_of_cmp (x : Ideal .f32)
    (h : FloatOps.cmpf (F := Ideal) .olt (FloatOps.hostAbsf x) (FloatOps.ofBits .f32 0x7F800000#32) = 1#1) :
    IsReal x := by
  apply isReal_of_abs_lt_top
  -- the comparison is the truth value of max x (-x) < (the constant), as a one-bit word
  have h' : BitVec.ofBool (decide (max x (-x) < Ideal.ofBits .f32 0x7F800000#32)) = 1#1 := h
  rw [ofBits_inf] at h'
  by_cases hlt : max x (-x) < ⊤
  · exact hlt
  · rw [decide_eq_false hlt] at h'
    exact absurd h' (by decide)

/-- The shape of a scalar has exactly one index. -/
instance : Subsingleton (Cert.Pre_finite_inputs.S_).Idx := ⟨fun a b => funext fun d => d.elim0⟩

/-- One array: if the "all elements have |x| < +∞" reduction is 1, every element is real. -/
theorem all_real {s : Shape} {axes : List (Fin s.rank)} (x : FVec Ideal s .f32)
    (hb : (Cert.Pre_finite_inputs.S_).BroadcastsInDim s (![] : Fin 0 → Fin s.rank))
    (hr : s.ReducesTo axes Cert.Pre_finite_inputs.S_) (hu : 0 < (Cert.Pre_finite_inputs.S_).numel)
    (j : (Cert.Pre_finite_inputs.S_).Idx)
    (e : Host.reduce IntOp.andi
          (cmpf .olt (Host.absf x)
            (broadcastInDim s ![] hb (constant Cert.Pre_finite_inputs.S_ .f32 0x7F800000#32)))
          (constantI Cert.Pre_finite_inputs.S_ 1 1#1) hr hu j = 1#1)
    (i : s.Idx) : IsReal (x i) :=
  isReal_of_cmp (x i) (Host.reduce_andi_all _ _ hr hu j e i)

/-- Under the precondition every element of every float argument is a real number. -/
theorem real_inputs [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
      (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i)) := by
  have e := congrFun (h c) ValueIdx.ix0
  dsimp only [Cert.Pre_finite_inputs.fn, Cert.Pre_finite_inputs.fn_part1] at e
  obtain ⟨e1234, e5⟩ := IntOp.andi_eq_one.1 e
  obtain ⟨e123, e4⟩ := IntOp.andi_eq_one.1 e1234
  obtain ⟨e12, e3⟩ := IntOp.andi_eq_one.1 e123
  obtain ⟨e1, e2⟩ := IntOp.andi_eq_one.1 e12
  exact ⟨all_real _ _ _ _ _ e1, all_real _ _ _ _ _ e2, all_real _ _ _ _ _ e3,
    all_real _ _ _ _ _ e4, all_real _ _ _ _ _ e5⟩

end Cert.KernelIdeal.RealInputs

end
-- ==== Proof.lean ====
/-
  The certificate of a two-layer graph convolution with a row-wise log-softmax, kernel against reference.

  Both programs take node features x : [100000, 128], an edge list [2, 3200000] of 32-bit words and the weights and
  biases of two layers, append one self-loop per node, and count the edges into each node (deg). With
  D = deg^(-1/2) the reference weights every edge e by D(source e) · D(target e), aggregates H = x W1 over the edges
  into each node, adds the bias, clamps at zero, and does the same with the second layer's weights before a row-wise
  log-softmax. The kernel instead computes in three pipelined regions: D · (x W1); then D · (relu(D · A1 + b1) W2) with
  A1 the unweighted aggregation of the first region's rows; then the log-softmax of D · A2 + b2 — the factor D(target)
  pulled out of each node's sum, which is sound for real numbers, and D(source) folded into the rows before they are
  gathered. Every node has its own self-loop, so deg ≥ 1: the kernel's D = (max deg 1)^(-1/2) and the reference's
  D = deg^(-1/2) where deg > 0 (else 0) are the same real number.

  The three frames: the two kernels' are the generated frame certificates; the reference's is its run with the result
  dropped. The idealization rewrote nothing, so the kernel is its own idealization. For the equality of results the
  kernel's run names the result buffer (KRun), the three regions' written arrays are read entry by entry (KReg0, KReg1,
  KReg2, KValue) over what the host operations left for them (KHost, KRead, KAggRead), the reference's run ends at its
  stages' composition (RefRun) read entry by entry (RefRead, DegFacts), and the aggregation law (LibGraphAgg) joins them layer by
  layer (Bridge) under the precondition that every float input is a real number (RealInputs).
-/
import proofs.«111893_j73220602462645_2_alg».proof.Defs
import proofs.«111893_j73220602462645_2_alg».proof.Proof.Gen.Kernel
import proofs.«111893_j73220602462645_2_alg».proof.Proof.Gen.Kernel.Skeleton
import proofs.«111893_j73220602462645_2_alg».proof.Proof.Gen.Kernel.Launch
import proofs.«111893_j73220602462645_2_alg».proof.Proof.Gen.Kernel.Points
import proofs.«111893_j73220602462645_2_alg».proof.Proof.Gen.Kernel.Frame
import proofs.«111893_j73220602462645_2_alg».proof.Proof.Gen.KernelIdeal
import proofs.«111893_j73220602462645_2_alg».proof.Proof.Gen.KernelIdeal.Skeleton
import proofs.«111893_j73220602462645_2_alg».proof.Proof.Gen.KernelIdeal.Launch
import proofs.«111893_j73220602462645_2_alg».proof.Proof.Gen.KernelIdeal.Points
import proofs.«111893_j73220602462645_2_alg».proof.Proof.Gen.KernelIdeal.Frame
import proofs.«111893_j73220602462645_2_alg».proof.Proof.Gen.ReferenceIdeal
import proofs.«111893_j73220602462645_2_alg».proof.Proof.Gen.Pre_finite_inputs
import proofs.«111893_j73220602462645_2_alg».proof.Proof.KRun
import proofs.«111893_j73220602462645_2_alg».proof.Proof.KValue
import proofs.«111893_j73220602462645_2_alg».proof.Proof.Bridge
import proofs.«111893_j73220602462645_2_alg».proof.Proof.RefRun
import proofs.«111893_j73220602462645_2_alg».proof.Proof.RealInputs
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- From memories that agree on the arguments, under the precondition, both idealized programs end at the reference's
    composition of stages applied to the arguments. -/
theorem algebraic : Cert.algebraic_KernelIdeal_ReferenceIdeal := by
  intro m ρ m' ρ' hpre hagree
  refine ⟨fun c => Cert.ReferenceIdeal.Stages.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.KRun.run_value (F := Ideal) m ρ)
    obtain ⟨hx, hW1, hb1, hW2, _⟩ := Cert.KernelIdeal.RealInputs.real_inputs m hpre c
    exact Cert.Bridge.kernel_eq_ref _ _ _ _ _ _ (Cert.KernelIdeal.KValue.g1 m ρ c) (Cert.KernelIdeal.KValue.g2 m ρ c)
      (Cert.KernelIdeal.KValue.kout m ρ c) hx hW1 hb1 hW2
      (Cert.KernelIdeal.KValue.g1_apply m ρ c) (Cert.KernelIdeal.KValue.g2_apply m ρ c) (Cert.KernelIdeal.KValue.kout_apply m ρ c)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
